-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩

class Facts : Prop where
  bcast_S_S65536x55 : S_.BroadcastsInDim S65536x55 (![] : Fin 0 → Fin S65536x55.rank)
  reducesTo_S65536x55_S_d0_1 : S65536x55.ReducesTo [0, 1] S_
  h_S_ : 0 < S_.numel
  bcast_S_S65536x100 : S_.BroadcastsInDim S65536x100 (![] : Fin 0 → Fin S65536x100.rank)
  reducesTo_S65536x100_S_d0_1 : S65536x100.ReducesTo [0, 1] S_
  bcast_S_S146x256 : S_.BroadcastsInDim S146x256 (![] : Fin 0 → Fin S146x256.rank)
  reducesTo_S146x256_S_d0_1 : S146x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S256x4 .f32) (main_v50 : FVec F S256x4 .f32) : IVec S_ 1 :=
  let main_v51 : IVec S256x4 1 := cmpf .olt main_v49 main_v50
  let main_c_19 : IVec S_ 1 := constantI S_ 1 1#1
  let main_v52 : IVec S_ 1 := (fun x v => Host.reduce IntOp.andi x v reducesTo_S256x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S256 .f32) (main_arg8 : FVec F S256x4 .f32) (main_arg9 : FVec F S4 .f32) (main_arg10 : FVec F S256x4 .f32) (main_arg11 : FVec F S4 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x4 .f32 := Host.absf main_arg8
  let main_cst_14 : FVec F S_ .f32 := constant S_ .f32 0x7F800000#32
  let main_v40 : FVec F S256x4 .f32 := broadcastInDim S256x4 ![] bcast_S_S256x4 main_cst_14
  let main_v41 : IVec S256x4 1 := cmpf .olt main_v39 main_v40
  let main_c_15 : IVec S_ 1 := constantI S_ 1 1#1
  let main_v42 : IVec S_ 1 := (fun x v => Host.reduce IntOp.andi x v reducesTo_S256x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S256x4 .f32 := Host.absf main_arg10
  let main_cst_18 : FVec F S_ .f32 := constant S_ .f32 0x7F800000#32
  let main_v50 : FVec F S256x4 .f32 := broadcastInDim S256x4 ![] bcast_S_S256x4 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x4 .f32) (main_arg9 : FVec F S4 .f32) (main_arg10 : FVec F S256x4 .f32) (main_arg11 : FVec F S4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x55 .f32) (main_arg1 : FVec F S65536x100 .f32) (main_arg2 : FVec F S146x256 .f32) (main_arg3 : FVec F S256 .f32) (main_arg4 : FVec F S256x256 .f32) (main_arg5 : FVec F S256 .f32) (main_arg6 : FVec F S256x256 .f32) (main_arg7 : FVec F S256 .f32) (main_arg8 : FVec F S256x4 .f32) (main_arg9 : FVec F S4 .f32) (main_arg10 : FVec F S256x4 .f32) (main_arg11 : FVec F S4 .f32) : IVec S_ 1 :=
  let main_v0 : FVec F S65536x55 .f32 := Host.absf main_arg0
  let main_cst : FVec F S_ .f32 := constant S_ .f32 0x7F800000#32
  let main_v1 : FVec F S65536x55 .f32 := broadcastInDim S65536x55 ![] bcast_S_S65536x55 main_cst
  let main_v2 : IVec S65536x55 1 := cmpf .olt main_v0 main_v1
  let main_c : IVec S_ 1 := constantI S_ 1 1#1
  let main_v3 : IVec S_ 1 := (fun x v => Host.reduce IntOp.andi x v reducesTo_S65536x55_S_d0_1 h_S_) main_v2 main_c
  let main_v4 : FVec F S65536x100 .f32 := Host.absf main_arg1
  let main_cst_0 : FVec F S_ .f32 := constant S_ .f32 0x7F800000#32
  let main_v5 : FVec F S65536x100 .f32 := broadcastInDim S65536x100 ![] bcast_S_S65536x100 main_cst_0
  let main_v6 : IVec S65536x100 1 := cmpf .olt main_v4 main_v5
  let main_c_1 : IVec S_ 1 := constantI S_ 1 1#1
  let main_v7 : IVec S_ 1 := (fun x v => Host.reduce IntOp.andi x v reducesTo_S65536x100_S_d0_1 h_S_) main_v6 main_c_1
  let main_v8 : IVec S_ 1 := andi main_v3 main_v7
  let main_v9 : FVec F S146x256 .f32 := Host.absf main_arg2
  let main_cst_2 : FVec F S_ .f32 := constant S_ .f32 0x7F800000#32
  let main_v10 : FVec F S146x256 .f32 := broadcastInDim S146x256 ![] bcast_S_S146x256 main_cst_2
  let main_v11 : IVec S146x256 1 := cmpf .olt main_v9 main_v10
  let main_c_3 : IVec S_ 1 := constantI S_ 1 1#1
  let main_v12 : IVec S_ 1 := (fun x v => Host.reduce IntOp.andi x v reducesTo_S146x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S100x256 : Shape := ⟨2, ![100, 256]⟩
abbrev S10x256 : Shape := ⟨2, ![10, 256]⟩
abbrev S3x256 : Shape := ⟨2, ![3, 256]⟩
abbrev S15x256 : Shape := ⟨2, ![15, 256]⟩
abbrev S256x8 : Shape := ⟨2, ![256, 8]⟩
abbrev S8 : Shape := ⟨1, ![8]⟩
abbrev S65536x4 : Shape := ⟨2, ![65536, 4]⟩
abbrev S4096x55 : Shape := ⟨2, ![4096, 55]⟩
abbrev S4096x100 : Shape := ⟨2, ![4096, 100]⟩
abbrev S4096x4 : Shape := ⟨2, ![4096, 4]⟩
abbrev S4096x10 : Shape := ⟨2, ![4096, 10]⟩
abbrev S4096x15 : Shape := ⟨2, ![4096, 15]⟩
abbrev S4096x256 : Shape := ⟨2, ![4096, 256]⟩
abbrev S1x256 : Shape := ⟨2, ![1, 256]⟩
abbrev S4096x8 : Shape := ⟨2, ![4096, 8]⟩
abbrev S1x8 : Shape := ⟨2, ![1, 8]⟩

abbrev nBuf : Space → Nat
  | .hbm => 29
  | .vmem => 21
  | .smem => 0
  | _ => 0

abbrev bufTy : (tb : Table) → Fin (tcTables nBuf tb) → BufTy
  | .hbm, ⟨0, _⟩ => ⟨S65536x55, .f32⟩
  | .hbm, ⟨1, _⟩ => ⟨S65536x100, .f32⟩
  | .hbm, ⟨2, _⟩ => ⟨S146x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S256x4, .f32⟩
  | .hbm, ⟨11, _⟩ => ⟨S4, .f32⟩
  | .hbm, ⟨12, _⟩ => ⟨S100x256, .f32⟩
  | .hbm, ⟨13, _⟩ => ⟨S100x256, .bf16⟩
  | .hbm, ⟨14, _⟩ => ⟨S10x256, .f32⟩
  | .hbm, ⟨15, _⟩ => ⟨S10x256, .bf16⟩
  | .hbm, ⟨16, _⟩ => ⟨S3x256, .f32⟩
  | .hbm, ⟨17, _⟩ => ⟨S15x256, .f32⟩
  | .hbm, ⟨18, _⟩ => ⟨S15x256, .bf16⟩
  | .hbm, ⟨19, _⟩ => ⟨S3x256, .f32⟩
  | .hbm, ⟨20, _⟩ => ⟨S15x256, .f32⟩
  | .hbm, ⟨21, _⟩ => ⟨S15x256, .bf16⟩
  | .hbm, ⟨22, _⟩ => ⟨S256x256, .bf16⟩
  | .hbm, ⟨23, _⟩ => ⟨S256x256, .bf16⟩
  | .hbm, ⟨24, _⟩ => ⟨S256x8, .f32⟩
  | .hbm, ⟨25, _⟩ => ⟨S256x8, .bf16⟩
  | .hbm, ⟨26, _⟩ => ⟨S8, .f32⟩
  | .hbm, ⟨27, _⟩ => ⟨S65536x4, .f32⟩
  | .hbm, ⟨28, _⟩ => ⟨S65536x4, .f32⟩
  | .local _ .vmem, ⟨0, _⟩ => ⟨S4096x55, .f32⟩
  | .local _ .vmem, ⟨1, _⟩ => ⟨S4096x55, .f32⟩
  | .local _ .vmem, ⟨2, _⟩ => ⟨S4096x100, .f32⟩
  | .local _ .vmem, ⟨3, _⟩ => ⟨S4096x100, .f32⟩
  | .local _ .vmem, ⟨4, _⟩ => ⟨S100x256, .bf16⟩
  | .local _ .vmem, ⟨5, _⟩ => ⟨S10x256, .bf16⟩
  | .local _ .vmem, ⟨6, _⟩ => ⟨S3x256, .f32⟩
  | .local _ .vmem, ⟨7, _⟩ => ⟨S15x256, .bf16⟩
  | .local _ .vmem, ⟨8, _⟩ => ⟨S3x256, .f32⟩
  | .local _ .vmem, ⟨9, _⟩ => ⟨S15x256, .bf16⟩
  | .local _ .vmem, ⟨10, _⟩ => ⟨S256, .f32⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x8, .bf16⟩
  | .local _ .vmem, ⟨16, _⟩ => ⟨S8, .f32⟩
  | .local _ .vmem, ⟨17, _⟩ => ⟨S4096x4, .f32⟩
  | .local _ .vmem, ⟨18, _⟩ => ⟨S4096x4, .f32⟩
  | .local _ .vmem, ⟨19, _⟩ => ⟨S4096x4, .f32⟩
  | .local _ .vmem, ⟨20, _⟩ => ⟨S4096x4, .f32⟩
  | _, _ => ⟨S65536x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x8 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S146x256_S100x256_0_0 : S146x256.Slices ![0, 0] S100x256
  bitsLt_bf16_f32 : FTy.bits .bf16 < FTy.bits .f32
  slices_S146x256_S10x256_100_0 : S146x256.Slices ![100, 0] S10x256
  slices_S146x256_S3x256_110_0 : S146x256.Slices ![110, 0] S3x256
  slices_S146x256_S15x256_113_0 : S146x256.Slices ![113, 0] S15x256
  slices_S146x256_S3x256_128_0 : S146x256.Slices ![128, 0] S3x256
  slices_S146x256_S15x256_131_0 : S146x256.Slices ![131, 0] S15x256
  concatenates_S256x4_S256x4_S256x8_d1 : Shape.Concatenates [S256x4, S256x4] S256x8 1
  concatenates_S4_S4_S8_d0 : Shape.Concatenates [S4, S4] S8 0
  inb_S4096x55_S4096x55_0_0 : ∀ a, (![0, 0] : Fin 2 → Nat) a + S4096x55.size a ≤ S4096x55.size a
  h_S4096x55 : 0 < S4096x55.numel
  inb_S4096x100_S4096x100_0_0 : ∀ a, (![0, 0] : Fin 2 → Nat) a + S4096x100.size a ≤ S4096x100.size a
  h_S4096x100 : 0 < S4096x100.numel
  slices_S4096x55_o0_0_S4096x10 : S4096x55.Slices ![0, 0] S4096x10
  slices_S4096x55_o0_10_S4096x15 : S4096x55.Slices ![0, 10] S4096x15
  slices_S4096x55_o0_25_S4096x15 : S4096x55.Slices ![0, 25] S4096x15
  slices_S4096x55_o0_40_S4096x15 : S4096x55.Slices ![0, 40] S4096x15
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S15x256_S15x256_0_0 : ∀ a, (![0, 0] : Fin 2 → Nat) a + S15x256.size a ≤ S15x256.size a
  h_S15x256 : 0 < S15x256.numel
  shapeCasts_S15x256_S15x256 : S15x256.ShapeCasts S15x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S8 : S8.ShapeCasts S8
  slices_S3x256_o0_0_S1x256 : S3x256.Slices ![0, 0] S1x256
  shapeCasts_S1x256_S256 : S1x256.ShapeCasts S256
  shapeCasts_S256_S1x256 : S256.ShapeCasts S1x256
  broadcasts_S1x256_S4096x256 : S1x256.Broadcasts S4096x256
  slices_S3x256_o1_0_S1x256 : S3x256.Slices ![1, 0] S1x256
  slices_S3x256_o2_0_S1x256 : S3x256.Slices ![2, 0] S1x256
  shapeCasts_S8_S1x8 : S8.ShapeCasts S1x8
  broadcasts_S1x8_S4096x8 : S1x8.Broadcasts S4096x8
  slices_S4096x8_o0_0_S4096x4 : S4096x8.Slices ![0, 0] S4096x4
  slices_S4096x8_o0_4_S4096x4 : S4096x8.Slices ![0, 4] S4096x4
  inb_S4096x4_S4096x4_0_0 : ∀ a, (![0, 0] : Fin 2 → Nat) a + S4096x4.size a ≤ S4096x4.size a
  h_S4096x4 : 0 < S4096x4.numel
  dot_S4096x100_S100x256_S4096x256_1_0_0_1_n_n_wf : DotDims.WF S4096x100 S100x256 S4096x256 [1] [0] [0] [1] [] []
  dot_S4096x10_S10x256_S4096x256_1_0_0_1_n_n_wf : DotDims.WF S4096x10 S10x256 S4096x256 [1] [0] [0] [1] [] []
  dot_S4096x15_S15x256_S4096x256_1_0_0_1_n_n_wf : DotDims.WF S4096x15 S15x256 S4096x256 [1] [0] [0] [1] [] []
  dot_S4096x256_S256x256_S4096x256_1_0_0_1_n_n_wf : DotDims.WF S4096x256 S256x256 S4096x256 [1] [0] [0] [1] [] []
  dot_S4096x256_S256x8_S4096x8_1_0_0_1_n_n_wf : DotDims.WF S4096x256 S256x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x55.size a ≤ S65536x55.size a
  hwx0_0 : ∀ i : grid0.Coords, EltTy.bits .f32 = 32 ∨ (Rect.block (s := S65536x55) S4096x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S65536x100.size a
  hwx0_1 : ∀ i : grid0.Coords, EltTy.bits .f32 = 32 ∨ (Rect.block (s := S65536x100) S4096x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .bf16 = 32 ∨ (Rect.block (s := S100x256) S100x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256.size a ≤ S10x256.size a
  hwx0_3 : ∀ i : grid0.Coords, EltTy.bits .bf16 = 32 ∨ (Rect.block (s := S10x256) S10x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x256.size a ≤ S15x256.size a
  hwx0_5 : ∀ i : grid0.Coords, EltTy.bits .bf16 = 32 ∨ (Rect.block (s := S15x256) S15x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256.size a ≤ S3x256.size a
  hwx0_6 : ∀ i : grid0.Coords, EltTy.bits .f32 = 32 ∨ (Rect.block (s := S3x256) S3x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x256.size a ≤ S15x256.size a
  hwx0_7 : ∀ i : grid0.Coords, EltTy.bits .bf16 = 32 ∨ (Rect.block (s := S15x256) S15x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x8.size a ≤ S256x8.size a
  hwx0_13 : ∀ i : grid0.Coords, EltTy.bits .bf16 = 32 ∨ (Rect.block (s := S256x8) S256x8.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8.size a ≤ S8.size a
  hwx0_14 : ∀ i : grid0.Coords, EltTy.bits .f32 = 32 ∨ (Rect.block (s := S8) S8.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x4.size a ≤ S65536x4.size a
  hwx0_15 : ∀ i : grid0.Coords, EltTy.bits .f32 = 32 ∨ (Rect.block (s := S65536x4) S4096x4.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x4.size a ≤ S65536x4.size a
  hwx0_16 : ∀ i : grid0.Coords, EltTy.bits .f32 = 32 ∨ (Rect.block (s := S65536x4) S4096x4.size (cc0_transform_16 i) (hinb0_16 i)).WholeWords (EltTy.packing .f32)

variable [Facts₀]

def dot_S4096x100_S100x256_S4096x256_1_0_0_1_n_n : DotDims S4096x100 S100x256 S4096x256 where
  lhsContracting := [1]
  rhsContracting := [0]
  lhsNonContracting := [0]
  rhsNonContracting := [1]
  lhsBatch := []
  rhsBatch := []
  wf := dot_S4096x100_S100x256_S4096x256_1_0_0_1_n_n_wf
def dot_S4096x10_S10x256_S4096x256_1_0_0_1_n_n : DotDims S4096x10 S10x256 S4096x256 where
  lhsContracting := [1]
  rhsContracting := [0]
  lhsNonContracting := [0]
  rhsNonContracting := [1]
  lhsBatch := []
  rhsBatch := []
  wf := dot_S4096x10_S10x256_S4096x256_1_0_0_1_n_n_wf
def dot_S4096x15_S15x256_S4096x256_1_0_0_1_n_n : DotDims S4096x15 S15x256 S4096x256 where
  lhsContracting := [1]
  rhsContracting := [0]
  lhsNonContracting := [0]
  rhsNonContracting := [1]
  lhsBatch := []
  rhsBatch := []
  wf := dot_S4096x15_S15x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf

abbrev win0_0 : Pipeline.Window sig grid0 :=
  Pipeline.Window.ofSpec (Memref.whole main_arg0) S4096x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S15x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S3x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S15x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg7) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S256x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S4096x4.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S4096x4.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S6 : Shape := ⟨1, ![6]⟩
abbrev S65536x10 : Shape := ⟨2, ![65536, 10]⟩
abbrev S65536x45 : Shape := ⟨2, ![65536, 45]⟩
abbrev S65536x3x15 : Shape := ⟨3, ![65536, 3, 15]⟩
abbrev S3x3 : Shape := ⟨2, ![3, 3]⟩
abbrev S_ : Shape := ⟨0, ![]⟩
abbrev S1x3x3 : Shape := ⟨3, ![1, 3, 3]⟩
abbrev S65536x3x3 : Shape := ⟨3, ![65536, 3, 3]⟩
abbrev S65536x3x18 : Shape := ⟨3, ![65536, 3, 18]⟩
abbrev S65536x110 : Shape := ⟨2, ![65536, 110]⟩
abbrev S6x1 : Shape := ⟨2, ![6, 1]⟩
abbrev S65536x6x18 : Shape := ⟨3, ![65536, 6, 18]⟩
abbrev S6x65536x18 : Shape := ⟨3, ![6, 65536, 18]⟩
abbrev S1x65536x110 : Shape := ⟨3, ![1, 65536, 110]⟩
abbrev S6x65536x110 : Shape := ⟨3, ![6, 65536, 110]⟩
abbrev S6x65536x146 : Shape := ⟨3, ![6, 65536, 146]⟩
abbrev S6x65536x256 : Shape := ⟨3, ![6, 65536, 256]⟩
abbrev S1x1x256 : Shape := ⟨3, ![1, 1, 256]⟩
abbrev S65536x256 : Shape := ⟨2, ![65536, 256]⟩
abbrev S1x256 : Shape := ⟨2, ![1, 256]⟩
abbrev S65536x4 : Shape := ⟨2, ![65536, 4]⟩
abbrev S1x4 : Shape := ⟨2, ![1, 4]⟩

abbrev nBuf : Space → Nat
  | .hbm => 86
  | .vmem => 0
  | .smem => 0
  | _ => 0

abbrev bufTy : (tb : Table) → Fin (tcTables nBuf tb) → BufTy
  | .hbm, ⟨0, _⟩ => ⟨S65536x55, .f32⟩
  | .hbm, ⟨1, _⟩ => ⟨S65536x100, .f32⟩
  | .hbm, ⟨2, _⟩ => ⟨S146x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S256x4, .f32⟩
  | .hbm, ⟨11, _⟩ => ⟨S4, .f32⟩
  | .hbm, ⟨12, _⟩ => ⟨S6, .i32⟩
  | .hbm, ⟨13, _⟩ => ⟨S6, .i1⟩
  | .hbm, ⟨14, _⟩ => ⟨S6, .i32⟩
  | .hbm, ⟨15, _⟩ => ⟨S6, .i1⟩
  | .hbm, ⟨16, _⟩ => ⟨S65536x10, .f32⟩
  | .hbm, ⟨17, _⟩ => ⟨S65536x45, .f32⟩
  | .hbm, ⟨18, _⟩ => ⟨S65536x3x15, .f32⟩
  | .hbm, ⟨19, _⟩ => ⟨S3x3, .i32⟩
  | .hbm, ⟨20, _⟩ => ⟨S3x3, .i32⟩
  | .hbm, ⟨21, _⟩ => ⟨S_, .i32⟩
  | .hbm, ⟨22, _⟩ => ⟨S3x3, .i32⟩
  | .hbm, ⟨23, _⟩ => ⟨S3x3, .i32⟩
  | .hbm, ⟨24, _⟩ => ⟨S3x3, .i1⟩
  | .hbm, ⟨25, _⟩ => ⟨S3x3, .f32⟩
  | .hbm, ⟨26, _⟩ => ⟨S1x3x3, .f32⟩
  | .hbm, ⟨27, _⟩ => ⟨S65536x3x3, .f32⟩
  | .hbm, ⟨28, _⟩ => ⟨S65536x3x18, .f32⟩
  | .hbm, ⟨29, _⟩ => ⟨S65536x110, .f32⟩
  | .hbm, ⟨30, _⟩ => ⟨S_, .i32⟩
  | .hbm, ⟨31, _⟩ => ⟨S6, .i32⟩
  | .hbm, ⟨32, _⟩ => ⟨S6, .i32⟩
  | .hbm, ⟨33, _⟩ => ⟨S6, .i32⟩
  | .hbm, ⟨34, _⟩ => ⟨S6x1, .i32⟩
  | .hbm, ⟨35, _⟩ => ⟨S65536x6x18, .f32⟩
  | .hbm, ⟨36, _⟩ => ⟨S6x65536x18, .f32⟩
  | .hbm, ⟨37, _⟩ => ⟨S_, .i32⟩
  | .hbm, ⟨38, _⟩ => ⟨S6, .i32⟩
  | .hbm, ⟨39, _⟩ => ⟨S6, .i32⟩
  | .hbm, ⟨40, _⟩ => ⟨S6, .i32⟩
  | .hbm, ⟨41, _⟩ => ⟨S6x1, .i32⟩
  | .hbm, ⟨42, _⟩ => ⟨S65536x6x18, .f32⟩
  | .hbm, ⟨43, _⟩ => ⟨S6x65536x18, .f32⟩
  | .hbm, ⟨44, _⟩ => ⟨S1x65536x110, .f32⟩
  | .hbm, ⟨45, _⟩ => ⟨S6x65536x110, .f32⟩
  | .hbm, ⟨46, _⟩ => ⟨S6x65536x146, .f32⟩
  | .hbm, ⟨47, _⟩ => ⟨S6x65536x256, .f32⟩
  | .hbm, ⟨48, _⟩ => ⟨S1x1x256, .f32⟩
  | .hbm, ⟨49, _⟩ => ⟨S6x65536x256, .f32⟩
  | .hbm, ⟨50, _⟩ => ⟨S6x65536x256, .f32⟩
  | .hbm, ⟨51, _⟩ => ⟨S_, .f32⟩
  | .hbm, ⟨52, _⟩ => ⟨S6x65536x256, .f32⟩
  | .hbm, ⟨53, _⟩ => ⟨S6x65536x256, .f32⟩
  | .hbm, ⟨54, _⟩ => ⟨S6x65536x256, .f32⟩
  | .hbm, ⟨55, _⟩ => ⟨S1x1x256, .f32⟩
  | .hbm, ⟨56, _⟩ => ⟨S6x65536x256, .f32⟩
  | .hbm, ⟨57, _⟩ => ⟨S6x65536x256, .f32⟩
  | .hbm, ⟨58, _⟩ => ⟨S_, .f32⟩
  | .hbm, ⟨59, _⟩ => ⟨S6x65536x256, .f32⟩
  | .hbm, ⟨60, _⟩ => ⟨S6x65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S1x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S65536x256, .f32⟩
  | .hbm, ⟨69, _⟩ => ⟨S65536x256, .f32⟩
  | .hbm, ⟨70, _⟩ => ⟨S65536x4, .f32⟩
  | .hbm, ⟨71, _⟩ => ⟨S1x4, .f32⟩
  | .hbm, ⟨72, _⟩ => ⟨S65536x4, .f32⟩
  | .hbm, ⟨73, _⟩ => ⟨S65536x4, .f32⟩
  | .hbm, ⟨74, _⟩ => ⟨S65536x4, .f32⟩
  | .hbm, ⟨75, _⟩ => ⟨S1x4, .f32⟩
  | .hbm, ⟨76, _⟩ => ⟨S65536x4, .f32⟩
  | .hbm, ⟨77, _⟩ => ⟨S65536x4, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S65536x4, .f32⟩
  | .hbm, ⟨82, _⟩ => ⟨S65536x4, .f32⟩
  | .hbm, ⟨83, _⟩ => ⟨S_, .f32⟩
  | .hbm, ⟨84, _⟩ => ⟨S65536x4, .f32⟩
  | .hbm, ⟨85, _⟩ => ⟨S65536x4, .f32⟩
  | _, _ => ⟨S65536x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_cst : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  slices_S65536x55_S65536x10_0_0 : S65536x55.Slices ![0, 0] S65536x10
  slices_S65536x55_S65536x45_0_10 : S65536x55.Slices ![0, 10] S65536x45
  shapeCasts_S65536x45_S65536x3x15 : S65536x45.ShapeCasts S65536x3x15
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S65536x3x3_0_1_2 : S1x3x3.BroadcastsInDim S65536x3x3 (![0, 1, 2] : Fin 3 → Fin S65536x3x3.rank)
  concatenates_S65536x3x3_S65536x3x15_S65536x3x18_d2 : Shape.Concatenates [S65536x3x3, S65536x3x15] S65536x3x18 2
  concatenates_S65536x100_S65536x10_S65536x110_d1 : Shape.Concatenates [S65536x100, S65536x10] S65536x110 1
  bcast_S_S6 : S_.BroadcastsInDim S6 (![] : Fin 0 → Fin S6.rank)
  bcast_S6_S6x1_0 : S6.BroadcastsInDim S6x1 (![0] : Fin 1 → Fin S6x1.rank)
  transposes_S65536x6x18_S6x65536x18_1_0_2 : S65536x6x18.Transposes [1, 0, 2] S6x65536x18
  bcast_S65536x110_S1x65536x110_1_2 : S65536x110.BroadcastsInDim S1x65536x110 (![1, 2] : Fin 2 → Fin S1x65536x110.rank)
  bcast_S1x65536x110_S6x65536x110_0_1_2 : S1x65536x110.BroadcastsInDim S6x65536x110 (![0, 1, 2] : Fin 3 → Fin S6x65536x110.rank)
  concatenates_S6x65536x110_S6x65536x18_S6x65536x18_S6x65536x146_d2 : Shape.Concatenates [S6x65536x110, S6x65536x18, S6x65536x18] S6x65536x146 2
  bcast_S256_S1x1x256_2 : S256.BroadcastsInDim S1x1x256 (![2] : Fin 1 → Fin S1x1x256.rank)
  bcast_S1x1x256_S6x65536x256_0_1_2 : S1x1x256.BroadcastsInDim S6x65536x256 (![0, 1, 2] : Fin 3 → Fin S6x65536x256.rank)
  bcast_S_S6x65536x256 : S_.BroadcastsInDim S6x65536x256 (![] : Fin 0 → Fin S6x65536x256.rank)
  reducesTo_S6x65536x256_S65536x256_d0 : S6x65536x256.ReducesTo [0] S65536x256
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  gather_S65536x3x18_S6x1_S65536x6x18_02_1_n_n_1_1_65536118_wf : GatherDims.WF S65536x3x18 S6x1 S65536x6x18 [0, 2] [1] [] [1] [] 1 ![65536, 1, 18]
  dot_S6x65536x146_S146x256_S6x65536x256_2_0_01_1_n_n_wf : DotDims.WF S6x65536x146 S146x256 S6x65536x256 [2] [0] [0, 1] [1] [] []
  dot_S6x65536x256_S256x256_S6x65536x256_2_0_01_1_n_n_wf : DotDims.WF S6x65536x256 S256x256 S6x65536x256 [2] [0] [0, 1] [1] [] []
  dot_S65536x256_S256x256_S65536x256_1_0_0_1_n_n_wf : DotDims.WF S65536x256 S256x256 S65536x256 [1] [0] [0] [1] [] []
  dot_S65536x256_S256x4_S65536x4_1_0_0_1_n_n_wf : DotDims.WF S65536x256 S256x4 S65536x4 [1] [0] [0] [1] [] []

variable [Facts₀]

def gather_S65536x3x18_S6x1_S65536x6x18_02_1_n_n_1_1_65536118 : GatherDims S65536x3x18 S6x1 S65536x6x18 where
  offsetDims := [0, 2]
  collapsedSliceDims := [1]
  operandBatchingDims := []
  startIndicesBatchingDims := []
  startIndexMap := [1]
  indexVectorDim := 1
  sliceSizes := ![65536, 1, 18]
  wf := gather_S65536x3x18_S6x1_S65536x6x18_02_1_n_n_1_1_65536118_wf
def dot_S6x65536x146_S146x256_S6x65536x256_2_0_01_1_n_n : DotDims S6x65536x146 S146x256 S6x65536x256 where
  lhsContracting := [2]
  rhsContracting := [0]
  lhsNonContracting := [0, 1]
  rhsNonContracting := [1]
  lhsBatch := []
  rhsBatch := []
  wf := dot_S6x65536x146_S146x256_S6x65536x256_2_0_01_1_n_n_wf
def dot_S6x65536x256_S256x256_S6x65536x256_2_0_01_1_n_n : DotDims S6x65536x256 S256x256 S6x65536x256 where
  lhsContracting := [2]
  rhsContracting := [0]
  lhsNonContracting := [0, 1]
  rhsNonContracting := [1]
  lhsBatch := []
  rhsBatch := []
  wf := dot_S6x65536x256_S256x256_S6x65536x256_2_0_01_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.Spec.lean ====
/-
  The function both programs compute, written once over plain coordinates, one batch row at a time.

  A batch row carries a 55-wide observation `o` (10 body entries, then three objects of 15 entries each)
  and a 100-wide language embedding `e`.  For each of the six ordered pairs `(i, j)` of distinct objects the
  message network reads the 146-wide row
      [ embedding (100) | body (10) | one-hot(i) (3) | object i (15) | one-hot(j) (3) | object j (15) ],
  applies two dense layers with a rectifier after each, the six messages are summed, a third rectified
  dense layer follows, and two 4-wide heads read the result: the mean, and the log-deviation clamped
  into [-20, 2].  Everything is stated over the extended reals; a dense layer's entry is the plain sum
  over the contracted coordinate plus the bias.

  Two arrangements of the same numbers are written down.  The first (`pre1` … `logstd`) contracts the
  whole 146-wide row against the whole first weight matrix.  The second (`kBase` … `kHead`) splits that
  contraction along the six blocks of the row, replaces each one-hot block's contraction by the weight row
  it selects, accumulates the six messages one after the other from zero, and reads both heads out of one
  8-wide head.  The bridge between the two is proved in the module that imports this one.
-/
import Idealize.ShloMosaic.PureOps.Ideal
import Idealize.ShloMosaic.Lib.ValueIdx

noncomputable section

open scoped BigOperators

namespace Cert.Spec

open Idealize.ShloMosaic Idealize.ShloMosaic.ValueIdx

/-- The first object of the `p`-th ordered pair: 0, 0, 1, 1, 2, 2. -/
def pairI : Fin 6 → Fin 3 := ![0, 0, 1, 1, 2, 2]
/-- The second object of the `p`-th ordered pair: 1, 2, 0, 2, 0, 1. -/
def pairJ : Fin 6 → Fin 3 := ![1, 2, 0, 2, 0, 1]

/-! ## One row, the whole 146-wide contraction -/

section Whole

variable (o : Fin 55 → EReal) (e : Fin 100 → EReal)
  (w1 : Fin 146 → Fin 256 → EReal) (b1 : Fin 256 → EReal)
  (w2 : Fin 256 → Fin 256 → EReal) (b2 : Fin 256 → EReal)
  (w3 : Fin 256 → Fin 256 → EReal) (b3 : Fin 256 → EReal)
  (hw : Fin 256 → Fin 4 → EReal) (hb : Fin 4 → EReal)

/-- Object `i` of the row as 18 numbers: its one-hot code, then its 15 observation entries. -/
def obj (i : Fin 3) (k : Fin 18) : EReal :=
  if k.val < 3 then (if i.val = k.val then 1 else 0)
  else o ⟨10 + 15 * i.val + (k.val - 3), by omega⟩

/-- The 146-wide input row of pair `p`. -/
def inp (p : Fin 6) (k : Fin 146) : EReal :=
  if h : k.val < 100 then e ⟨k.val, h⟩
  else if h2 : k.val < 110 then o ⟨k.val - 100, by omega⟩
  else if h3 : k.val < 128 then obj o (pairI p) ⟨k.val - 110, by omega⟩
  else obj o (pairJ p) ⟨k.val - 128, by omega⟩

/-- First message layer, before the rectifier. -/
def pre1 (p : Fin 6) (h : Fin 256) : EReal := (∑ k : Fin 146, inp o e p k * w1 k h) + b1 h

/-- First message layer. -/
def hid1 (p : Fin 6) (h : Fin 256) : EReal := max (pre1 o e w1 b1 p h) 0

/-- Second message layer. -/
def hid2 (p : Fin 6) (n : Fin 256) : EReal := max ((∑ h : Fin 256, hid1 o e w1 b1 p h * w2 h n) + b2 n) 0

/-- The six messages summed. -/
def agg (n : Fin 256) : EReal := ∑ p : Fin 6, hid2 o e w1 b1 w2 b2 p n

/-- The layer after the sum. -/
def rho (k : Fin 256) : EReal := max ((∑ n : Fin 256, agg o e w1 b1 w2 b2 n * w3 n k) + b3 k) 0

/-- A 4-wide head over `rho`, unclamped. -/
def head (a : Fin 4) : EReal := (∑ k : Fin 256, rho o e w1 b1 w2 b2 w3 b3 k * hw k a) + hb a

/-- The clamp into [-20, 2]: below by the f32 word C1A00000 (-20), then above by 40000000 (2). -/
def clamp (x : EReal) : EReal := min (Ideal.ofBits .f32 0x40000000#32) (max (Ideal.ofBits .f32 0xC1A00000#32) x)

end Whole

/-! ## One row, the contraction split along the row's six blocks -/

section Split

variable (o : Fin 55 → EReal) (e : Fin 100 → EReal)
  (wl : Fin 100 → Fin 256 → EReal) (wb : Fin 10 → Fin 256 → EReal)
  (wio : Fin 3 → Fin 256 → EReal) (wif : Fin 15 → Fin 256 → EReal)
  (wjo : Fin 3 → Fin 256 → EReal) (wjf : Fin 15 → Fin 256 → EReal) (b1 : Fin 256 → EReal)
  (w2 : Fin 256 → Fin 256 → EReal) (b2 : Fin 256 → EReal)
  (w3 : Fin 256 → Fin 256 → EReal) (b3 : Fin 256 → EReal)
  (hw : Fin 256 → Fin 8 → EReal) (hb : Fin 8 → EReal)

/-- Entry `k` of object `i`'s 15 observation entries. -/
def feat (i : Fin 3) (k : Fin 15) : EReal := o ⟨10 + 15 * i.val + k.val, by omega⟩

/-- The part of the first layer every pair shares: embedding and body against their weight blocks. -/
def kBase (h : Fin 256) : EReal := (∑ k : Fin 100, e k * wl k h) + (∑ k : Fin 10, o ⟨k.val, by omega⟩ * wb k h)

/-- Object `i` in the first role: its entries against their block, plus the weight row its one-hot code selects. -/
def kTermI (i : Fin 3) (h : Fin 256) : EReal := (∑ k : Fin 15, feat o i k * wif k h) + wio i h

/-- Object `j` in the second role. -/
def kTermJ (j : Fin 3) (h : Fin 256) : EReal := (∑ k : Fin 15, feat o j k * wjf k h) + wjo j h

/-- First message layer of the pair `(i, j)`, before the rectifier, in the order the terms are added. -/
def kPre1 (i j : Fin 3) (h : Fin 256) : EReal :=
  ((kBase o e wl wb h + kTermI o wio wif i h) + b1 h) + kTermJ o wjo wjf j h

/-- Second message layer of the pair `(i, j)`. -/
def kHid2 (i j : Fin 3) (n : Fin 256) : EReal :=
  max ((∑ h : Fin 256, max (kPre1 o e wl wb wio wif wjo wjf b1 i j h) 0 * w2 h n) + b2 n) 0

/-- The six messages accumulated from zero, in the order (0,1), (0,2), (1,0), (1,2), (2,0), (2,1). -/
def kAgg (n : Fin 256) : EReal :=
  (((((0 + kHid2 o e wl wb wio wif wjo wjf b1 w2 b2 0 1 n) + kHid2 o e wl wb wio wif wjo wjf b1 w2 b2 0 2 n)
    + kHid2 o e wl wb wio wif wjo wjf b1 w2 b2 1 0 n) + kHid2 o e wl wb wio wif wjo wjf b1 w2 b2 1 2 n)
    + kHid2 o e wl wb wio wif wjo wjf b1 w2 b2 2 0 n) + kHid2 o e wl wb wio wif wjo wjf b1 w2 b2 2 1 n

/-- The layer after the sum. -/
def kRho (k : Fin 256) : EReal :=
  max ((∑ n : Fin 256, kAgg o e wl wb wio wif wjo wjf b1 w2 b2 n * w3 n k) + b3 k) 0

/-- The 8-wide head: the mean in its first four entries, the unclamped log-deviation in its last four. -/
def kHead (a : Fin 8) : EReal :=
  (∑ k : Fin 256, kRho o e wl wb wio wif wjo wjf b1 w2 b2 w3 b3 k * hw k a) + hb a

end Split

/-! ## The results over the twelve argument arrays -/

section Arrays

variable (a0 : (⟨2, ![65536, 55]⟩ : Shape).Idx → EReal) (a1 : (⟨2, ![65536, 100]⟩ : Shape).Idx → EReal)
  (a2 : (⟨2, ![146, 256]⟩ : Shape).Idx → EReal) (a3 : (⟨1, ![256]⟩ : Shape).Idx → EReal)
  (a4 : (⟨2, ![256, 256]⟩ : Shape).Idx → EReal) (a5 : (⟨1, ![256]⟩ : Shape).Idx → EReal)
  (a6 : (⟨2, ![256, 256]⟩ : Shape).Idx → EReal) (a7 : (⟨1, ![256]⟩ : Shape).Idx → EReal)
  (hw : (⟨2, ![256, 4]⟩ : Shape).Idx → EReal) (hb : (⟨1, ![4]⟩ : Shape).Idx → EReal)

/-- A 4-wide head array as a function of the argument arrays (`hw`, `hb`: that head's weights and bias). -/
def headArr : (⟨2, ![65536, 4]⟩ : Shape).Idx → EReal := fun i =>
  head (fun k => a0 (ix2 (⟨(i 0).val, idx2_lt0 i⟩ : Fin 65536) k)) (fun k => a1 (ix2 (⟨(i 0).val, idx2_lt0 i⟩ : Fin 65536) k))
    (fun k h => a2 (ix2 k h)) (fun h => a3 (ix1 h)) (fun h n => a4 (ix2 h n)) (fun n => a5 (ix1 n))
    (fun n k => a6 (ix2 n k)) (fun k => a7 (ix1 k)) (fun k a => hw (ix2 k a)) (fun a => hb (ix1 a))
    ⟨(i 1).val, idx2_lt1 i⟩

/-- The mean array: the head over the mean weights `a8`, `a9`. -/
def meanArr := headArr a0 a1 a2 a3 a4 a5 a6 a7 hw hb

/-- The clamped log-deviation array: the head over `a10`, `a11`, clamped entry by entry. -/
def logstdArr : (⟨2, ![65536, 4]⟩ : Shape).Idx → EReal := fun i => clamp (headArr a0 a1 a2 a3 a4 a5 a6 a7 hw hb i)

end Arrays

end Cert.Spec

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.KerPayDense.lean ====
/-
  Readings, at an entry, of the pieces a grid point's body is built from: the zero word, a rectifier, a matrix
  product accumulated into zero whose left operand is narrowed to a shorter float format (the identity on extended
  reals), a bias vector cast to a row and spread down the rows, a row of a small table cut out and spread down the
  rows, and a run of columns cut out of a block. All for any sizes.
-/
import proofs.«128084_j69887707840990_2_alg».proof.Proof.Gen.KernelIdeal.Value
import proofs.«128084_j69887707840990_2_alg».proof.Proof.LibTwoBlocks
import Idealize.ShloMosaic.Lib.ValueLayout

noncomputable section

open scoped BigOperators

namespace Cert.KerPay

open Idealize.ShloMosaic Idealize.ShloMosaic.ValueIdx Cert.Lib.TwoBlocks

/-- The zero word is the extended real zero. -/
theorem zero_word : (Scalar.ofBits .f32 0x00000000#32 : Ideal .f32) = 0 := Ideal.ofBits_zero_f32

/-- The maximum with the zero word spread over the whole shape is, entry by entry, the maximum with zero. -/
theorem relu_apply {s : Shape} (X : FVec Ideal s .f32) (i : s.Idx) :
    maximumf X (broadcast s (Scalar.ofBits .f32 0x00000000#32)) i = max (X i) 0 := by
  rw [maximumf_apply, broadcast_apply, zero_word]

/-- A bias vector cast to a row and spread down `n` rows reads, at `(p, q)`, the vector at `q`. -/
theorem bias_row_apply {n C : ℕ} (b : (⟨1, ![C]⟩ : Shape).Idx → EReal) (h1 : (⟨1, ![C]⟩ : Shape).ShapeCasts ⟨2, ![1, C]⟩)
    (h2 : (⟨2, ![1, C]⟩ : Shape).Broadcasts ⟨2, ![n, C]⟩) (p : Fin n) (q : Fin C) :
    broadcastTo ⟨2, ![n, C]⟩ (shapeCast ⟨2, ![1, C]⟩ b h1) h2 (ix2 p q) = b (ix1 q) :=
  (broadcastTo_1b_ab_apply _ h2 p q).trans (shapeCast_a_1a_apply b h1 0 q)

/-- Row `k` of a table with `m` rows — cut out, flattened to a vector, cast back to a row and spread down `n`
    rows — reads, at `(p, q)`, the table at `(k, q)`. -/
theorem table_row_apply {m n C : ℕ} (k : ℕ) (T : (⟨2, ![m, C]⟩ : Shape).Idx → EReal)
    (hs : (⟨2, ![m, C]⟩ : Shape).Slices ![k, 0] ⟨2, ![1, C]⟩) (h0 : (⟨2, ![1, C]⟩ : Shape).ShapeCasts ⟨1, ![C]⟩)
    (h1 : (⟨1, ![C]⟩ : Shape).ShapeCasts ⟨2, ![1, C]⟩) (h2 : (⟨2, ![1, C]⟩ : Shape).Broadcasts ⟨2, ![n, C]⟩)
    (p : Fin n) (q : Fin C) (kk : Fin m) (hk : kk.val = k) :
    broadcastTo ⟨2, ![n, C]⟩ (shapeCast ⟨2, ![1, C]⟩ (shapeCast ⟨1, ![C]⟩ (extractStridedSlice ⟨2, ![1, C]⟩ ![k, 0] T hs) h0) h1) h2 (ix2 p q)
      = T (ix2 kk q) :=
  (bias_row_apply _ h1 h2 p q).trans
    ((shapeCast_1a_a_apply _ h0 q).trans (slice2_axis0_apply k T hs 0 q kk (by rw [hk]; rfl)))

/-- A matrix product accumulated into zero, the left operand narrowed to a shorter float format, reads at `(p, q)`
    the sum over the shared axis of the products of the operands' entries. -/
theorem dense_apply {n K C : ℕ} {ψ φ₂ : FTy} (D : DotDims ⟨2, ![n, K]⟩ ⟨2, ![K, C]⟩ ⟨2, ![n, C]⟩) (hD : D = DotDims.plain n K C)
    (X : FVec Ideal ⟨2, ![n, K]⟩ .f32) (W : FVec Ideal ⟨2, ![K, C]⟩ φ₂) (hlt : ψ.bits < FTy.f32.bits) (p : Fin n) (q : Fin C) :
    matmul D none (truncf ψ X hlt) W (constant ⟨2, ![n, C]⟩ .f32 0x00000000#32) (ix2 p q)
      = ∑ c : Fin K, X (ix2 p c) * W (ix2 c q) :=
  plain_matmul_zero_apply D hD none (truncf ψ X hlt) W p q

/-- The same product followed by the addition of a bias vector spread down the rows. -/
theorem dense_bias_apply {n K C : ℕ} {ψ φ₂ : FTy} (D : DotDims ⟨2, ![n, K]⟩ ⟨2, ![K, C]⟩ ⟨2, ![n, C]⟩) (hD : D = DotDims.plain n K C)
    (X : FVec Ideal ⟨2, ![n, K]⟩ .f32) (W : FVec Ideal ⟨2, ![K, C]⟩ φ₂) (hlt : ψ.bits < FTy.f32.bits)
    (b : FVec Ideal ⟨1, ![C]⟩ .f32) (h1 : (⟨1, ![C]⟩ : Shape).ShapeCasts ⟨2, ![1, C]⟩)
    (h2 : (⟨2, ![1, C]⟩ : Shape).Broadcasts ⟨2, ![n, C]⟩) (p : Fin n) (q : Fin C) :
    addf (matmul D none (truncf ψ X hlt) W (constant ⟨2, ![n, C]⟩ .f32 0x00000000#32))
        (broadcastTo ⟨2, ![n, C]⟩ (shapeCast ⟨2, ![1, C]⟩ b h1) h2) (ix2 p q)
      = (∑ c : Fin K, X (ix2 p c) * W (ix2 c q)) + b (ix1 q) := by
  rw [addf_apply, dense_apply D hD X W hlt p q, bias_row_apply b h1 h2 p q]

/-- The same product followed by the addition of row `k` of a table spread down the rows. -/
theorem dense_table_apply {m n K C : ℕ} {ψ φ₂ : FTy} (D : DotDims ⟨2, ![n, K]⟩ ⟨2, ![K, C]⟩ ⟨2, ![n, C]⟩) (hD : D = DotDims.plain n K C)
    (X : FVec Ideal ⟨2, ![n, K]⟩ .f32) (W : FVec Ideal ⟨2, ![K, C]⟩ φ₂) (hlt : ψ.bits < FTy.f32.bits)
    (k : ℕ) (T : FVec Ideal ⟨2, ![m, C]⟩ .f32)
    (hs : (⟨2, ![m, C]⟩ : Shape).Slices ![k, 0] ⟨2, ![1, C]⟩) (h0 : (⟨2, ![1, C]⟩ : Shape).ShapeCasts ⟨1, ![C]⟩)
    (h1 : (⟨1, ![C]⟩ : Shape).ShapeCasts ⟨2, ![1, C]⟩) (h2 : (⟨2, ![1, C]⟩ : Shape).Broadcasts ⟨2, ![n, C]⟩)
    (p : Fin n) (q : Fin C) (kk : Fin m) (hk : kk.val = k) :
    addf (matmul D none (truncf ψ X hlt) W (constant ⟨2, ![n, C]⟩ .f32 0x00000000#32))
        (broadcastTo ⟨2, ![n, C]⟩ (shapeCast ⟨2, ![1, C]⟩ (shapeCast ⟨1, ![C]⟩ (extractStridedSlice ⟨2, ![1, C]⟩ ![k, 0] T hs) h0) h1) h2) (ix2 p q)
      = (∑ c : Fin K, X (ix2 p c) * W (ix2 c q)) + T (ix2 kk q) := by
  rw [addf_apply, dense_apply D hD X W hlt p q, table_row_apply k T hs h0 h1 h2 p q kk hk]

end Cert.KerPay

end
-- ==== Proof.KerPayLayer1.lean ====
/-
  The first message layer at a row of a grid point's blocks: the payloads that build it, each read at an entry as
  sums over the contracted coordinate, and then as the terms of the split arrangement — the part every pair of objects
  shares, an object's term in the first role, and an object's term in the second role.
-/
import proofs.«128084_j69887707840990_2_alg».proof.Proof.KerPayDense
import proofs.«128084_j69887707840990_2_alg».proof.Proof.Spec

noncomputable section

open scoped BigOperators

namespace Cert.KerPay

open Cert.KernelIdeal Cert.KernelIdeal.Gen Idealize.ShloMosaic Idealize.ShloMosaic.ValueIdx Cert.Lib.TwoBlocks

/-! ## The body's products, bias rows and table rows at an entry -/

/-- The product with the 100-row weight block. -/
theorem mm100 {φ₁ φ₂ : FTy} (X : FVec Ideal S4096x100 φ₁) (W : FVec Ideal S100x256 φ₂) (r : Fin 4096) (h : Fin 256) :
    matmul dot_S4096x100_S100x256_S4096x256_1_0_0_1_n_n none X W (constant S4096x256 .f32 0x00000000#32) (ix2 r h) = ∑ k : Fin 100, X (ix2 r k) * W (ix2 k h) :=
  plain_matmul_zero_apply _ rfl none X W r h

/-- The product with the 10-row weight block. -/
theorem mm10 {φ₁ φ₂ : FTy} (X : FVec Ideal S4096x10 φ₁) (W : FVec Ideal S10x256 φ₂) (r : Fin 4096) (h : Fin 256) :
    matmul dot_S4096x10_S10x256_S4096x256_1_0_0_1_n_n none X W (constant S4096x256 .f32 0x00000000#32) (ix2 r h) = ∑ k : Fin 10, X (ix2 r k) * W (ix2 k h) :=
  plain_matmul_zero_apply _ rfl none X W r h

/-- The product with a 15-row weight block. -/
theorem mm15 {φ₁ φ₂ : FTy} (X : FVec Ideal S4096x15 φ₁) (W : FVec Ideal S15x256 φ₂) (r : Fin 4096) (h : Fin 256) :
    matmul dot_S4096x15_S15x256_S4096x256_1_0_0_1_n_n none X W (constant S4096x256 .f32 0x00000000#32) (ix2 r h) = ∑ k : Fin 15, X (ix2 r k) * W (ix2 k h) :=
  plain_matmul_zero_apply _ rfl none X W r h

/-- The product with a 256-by-256 weight matrix. -/
theorem mm256 {φ₁ φ₂ : FTy} (X : FVec Ideal S4096x256 φ₁) (W : FVec Ideal S256x256 φ₂) (r : Fin 4096) (n : Fin 256) :
    matmul dot_S4096x256_S256x256_S4096x256_1_0_0_1_n_n none X W (constant S4096x256 .f32 0x00000000#32) (ix2 r n) = ∑ h : Fin 256, X (ix2 r h) * W (ix2 h n) :=
  plain_matmul_zero_apply _ rfl none X W r n

/-- The product with the 256-by-8 head matrix. -/
theorem mm8 {φ₁ φ₂ : FTy} (X : FVec Ideal S4096x256 φ₁) (W : FVec Ideal S256x8 φ₂) (r : Fin 4096) (a : Fin 8) :
    matmul dot_S4096x256_S256x8_S4096x8_1_0_0_1_n_n none X W (constant S4096x8 .f32 0x00000000#32) (ix2 r a) = ∑ k : Fin 256, X (ix2 r k) * W (ix2 k a) :=
  plain_matmul_zero_apply _ rfl none X W r a

/-- A 256-long bias vector spread down the block's rows. -/
theorem biasRow (b : FVec Ideal S256 .f32) (r : Fin 4096) (h : Fin 256) :
    broadcastTo S4096x256 (shapeCast S1x256 b shapeCasts_S256_S1x256) broadcasts_S1x256_S4096x256 (ix2 r h) = b (ix1 h) :=
  bias_row_apply b _ _ r h

/-- The 8-long head bias spread down the block's rows. -/
theorem biasRow8 (b : FVec Ideal S8 .f32) (r : Fin 4096) (a : Fin 8) :
    broadcastTo S4096x8 (shapeCast S1x8 b shapeCasts_S8_S1x8) broadcasts_S1x8_S4096x8 (ix2 r a) = b (ix1 a) :=
  bias_row_apply b _ _ r a

/-- Row 0 of a three-row table, cut out and flattened to a vector. -/
theorem rowCut0 (T : FVec Ideal S3x256 .f32) (h : Fin 256) :
    shapeCast S256 (extractStridedSlice S1x256 ![0, 0] T slices_S3x256_o0_0_S1x256) shapeCasts_S1x256_S256 (ix1 h)
      = T (ix2 (0 : Fin 3) h) :=
  (shapeCast_1a_a_apply _ _ h).trans (slice2_axis0_apply 0 T _ 0 h 0 rfl)

/-- Row 1 of a three-row table, cut out and flattened to a vector. -/
theorem rowCut1 (T : FVec Ideal S3x256 .f32) (h : Fin 256) :
    shapeCast S256 (extractStridedSlice S1x256 ![1, 0] T slices_S3x256_o1_0_S1x256) shapeCasts_S1x256_S256 (ix1 h)
      = T (ix2 (1 : Fin 3) h) :=
  (shapeCast_1a_a_apply _ _ h).trans (slice2_axis0_apply 1 T _ 0 h 1 rfl)

/-- Row 2 of a three-row table, cut out and flattened to a vector. -/
theorem rowCut2 (T : FVec Ideal S3x256 .f32) (h : Fin 256) :
    shapeCast S256 (extractStridedSlice S1x256 ![2, 0] T slices_S3x256_o2_0_S1x256) shapeCasts_S1x256_S256 (ix1 h)
      = T (ix2 (2 : Fin 3) h) :=
  (shapeCast_1a_a_apply _ _ h).trans (slice2_axis0_apply 2 T _ 0 h 2 rfl)

/-! ## The payloads of the first layer at an entry, over arbitrary operands -/

/-- The embedding block against its weight block. -/
theorem pay13_apply (v1 : FVec Ideal S4096x100 .f32) (v6 : FVec Ideal S100x256 .bf16) (r : Fin 4096) (h : Fin 256) :
    k0_pay13 v1 v6 (ix2 r h) = ∑ k : Fin 100, v1 (ix2 r k) * v6 (ix2 k h) := by
  unfold k0_pay13
  simp only [shapeCast_self, truncf_apply, mm100]

/-- The body columns against their weight block, added to what came before. -/
theorem pay15_apply (v9 : FVec Ideal S10x256 .bf16) (v30 : FVec Ideal S4096x256 .f32) (v31 : FVec Ideal S4096x10 .bf16)
    (r : Fin 4096) (h : Fin 256) :
    k0_pay15 v9 v30 v31 (ix2 r h) = v30 (ix2 r h) + ∑ k : Fin 10, v31 (ix2 r k) * v9 (ix2 k h) := by
  unfold k0_pay15
  simp only [addf_apply, mm10]

/-- The payload that adds row 0 of a table to the product of a 15-column block with its weight block. -/
theorem pay16_apply (x : FVec Ideal S4096x15 .f32) (T : FVec Ideal S3x256 .f32) (W : FVec Ideal S15x256 .bf16)
    (r : Fin 4096) (h : Fin 256) :
    k0_pay16 x T W (ix2 r h) = (∑ k : Fin 15, x (ix2 r k) * W (ix2 k h)) + T (ix2 (0 : Fin 3) h) := by
  unfold k0_pay16
  simp only [addf_apply, truncf_apply, mm15, biasRow, rowCut0]

/-- The payload that adds row 1 of a table to the product of a 15-column block with its weight block. -/
theorem pay17_apply (x : FVec Ideal S4096x15 .f32) (T : FVec Ideal S3x256 .f32) (W : FVec Ideal S15x256 .bf16)
    (r : Fin 4096) (h : Fin 256) :
    k0_pay17 x T W (ix2 r h) = (∑ k : Fin 15, x (ix2 r k) * W (ix2 k h)) + T (ix2 (1 : Fin 3) h) := by
  unfold k0_pay17
  simp only [addf_apply, truncf_apply, mm15, biasRow, rowCut1]

/-- The payload that adds row 2 of a table to the product of a 15-column block with its weight block. -/
theorem pay18_apply (x : FVec Ideal S4096x15 .f32) (T : FVec Ideal S3x256 .f32) (W : FVec Ideal S15x256 .bf16)
    (r : Fin 4096) (h : Fin 256) :
    k0_pay18 x T W (ix2 r h) = (∑ k : Fin 15, x (ix2 r k) * W (ix2 k h)) + T (ix2 (2 : Fin 3) h) := by
  unfold k0_pay18
  simp only [addf_apply, truncf_apply, mm15, biasRow, rowCut2]

/-- The shared part, plus the first object's term in the first role, plus the bias. -/
theorem pay19_apply (v3 : FVec Ideal S4096x15 .f32) (v9 : FVec Ideal S10x256 .bf16) (v11 : FVec Ideal S3x256 .f32)
    (v13 : FVec Ideal S15x256 .bf16) (v18 : FVec Ideal S256 .f32) (v30 : FVec Ideal S4096x256 .f32) (v31 : FVec Ideal S4096x10 .bf16)
    (r : Fin 4096) (h : Fin 256) :
    k0_pay19 v3 v9 v11 v13 v18 v30 v31 (ix2 r h)
      = (k0_pay15 v9 v30 v31 (ix2 r h) + ((∑ k : Fin 15, v3 (ix2 r k) * v13 (ix2 k h)) + v11 (ix2 (0 : Fin 3) h))) + v18 (ix1 h) := by
  unfold k0_pay19
  simp only [addf_apply, truncf_apply, mm15, biasRow, rowCut0]

/-- The shared part plus the third object's term in the first role. -/
theorem pay23_apply (v5 : FVec Ideal S4096x15 .f32) (v11 : FVec Ideal S3x256 .f32) (v13 : FVec Ideal S15x256 .bf16)
    (v33 : FVec Ideal S4096x256 .f32) (r : Fin 4096) (h : Fin 256) :
    k0_pay23 v5 v11 v13 v33 (ix2 r h) = v33 (ix2 r h) + ((∑ k : Fin 15, v5 (ix2 r k) * v13 (ix2 k h)) + v11 (ix2 (2 : Fin 3) h)) := by
  unfold k0_pay23
  simp only [addf_apply, truncf_apply, mm15, biasRow, rowCut2]

/-! ## The same at a row of the loaded blocks, as the terms of the split arrangement -/

section Row

variable (P6 : FVec Ideal S4096x55 .f32) (P7 : FVec Ideal S3x256 .f32) (P8 : FVec Ideal S15x256 .bf16) (P9 : FVec Ideal S3x256 .f32)
  (P10 : FVec Ideal S15x256 .bf16) (P11 : FVec Ideal S256 .f32) (P12 : FVec Ideal S10x256 .bf16) (P13 : FVec Ideal S4096x100 .f32)
  (P14 : FVec Ideal S100x256 .bf16) (r : Fin 4096)

/-- The 15 columns from column `10 + 15 i` of the observation block are object `i`'s entries. -/
theorem feat_slice (i : Fin 3) (off : ℕ) (hoff : off = 10 + 15 * i.val) (hs : S4096x55.Slices ![0, off] S4096x15) (k : Fin 15) :
    extractStridedSlice S4096x15 ![0, off] P6 hs (ix2 r k) = Cert.Spec.feat (fun k => P6 (ix2 r k)) i k := by
  subst hoff
  exact slice2_axis1_apply _ P6 hs r k ⟨10 + 15 * i.val + k.val, by have := i.isLt; have := k.isLt; omega⟩ rfl

/-- The first 10 columns of the observation block are the body entries. -/
theorem body_slice (hs : S4096x55.Slices ![0, 0] S4096x10) (k : Fin 10) :
    extractStridedSlice S4096x10 ![0, 0] P6 hs (ix2 r k) = P6 (ix2 r ⟨k.val, by have := k.isLt; omega⟩) :=
  slice2_axis1_apply 0 P6 hs r k ⟨k.val, by have := k.isLt; omega⟩ (Nat.zero_add _).symm

/-- The part of the first layer every pair shares. -/
theorem base_row (h : Fin 256) :
    k0_pay15 (F := Ideal) P12 (k0_pay13 (F := Ideal) P13 P14) (truncf .bf16 (extractStridedSlice S4096x10 ![0, 0] P6 slices_S4096x55_o0_0_S4096x10) bitsLt_bf16_f32) (ix2 r h) = Cert.Spec.kBase (fun k => P6 (ix2 r k)) (fun k => P13 (ix2 r k)) (fun k h => P14 (ix2 k h)) (fun k h => P12 (ix2 k h)) h := by
  rw [pay15_apply, pay13_apply]
  unfold Cert.Spec.kBase
  exact congrArg₂ (· + ·) rfl (Finset.sum_congr rfl fun k _ => by rw [truncf_apply, body_slice])

/-- Object 0 in the second role. -/
theorem termJ0_row (h : Fin 256) :
    k0_pay16 (F := Ideal) (extractStridedSlice S4096x15 ![0, 10] P6 slices_S4096x55_o0_10_S4096x15) P7 P8 (ix2 r h) = Cert.Spec.kTermJ (fun k => P6 (ix2 r k)) (fun j h => P7 (ix2 j h)) (fun k h => P8 (ix2 k h)) 0 h := by
  rw [pay16_apply]
  unfold Cert.Spec.kTermJ
  exact congrArg₂ (· + ·) (Finset.sum_congr rfl fun k _ => by rw [feat_slice P6 r 0 10 rfl]) rfl

/-- Object 1 in the second role. -/
theorem termJ1_row (h : Fin 256) :
    k0_pay17 (F := Ideal) (extractStridedSlice S4096x15 ![0, 25] P6 slices_S4096x55_o0_25_S4096x15) P7 P8 (ix2 r h) = Cert.Spec.kTermJ (fun k => P6 (ix2 r k)) (fun j h => P7 (ix2 j h)) (fun k h => P8 (ix2 k h)) 1 h := by
  rw [pay17_apply]
  unfold Cert.Spec.kTermJ
  exact congrArg₂ (· + ·) (Finset.sum_congr rfl fun k _ => by rw [feat_slice P6 r 1 25 rfl]) rfl

/-- Object 2 in the second role. -/
theorem termJ2_row (h : Fin 256) :
    k0_pay18 (F := Ideal) (extractStridedSlice S4096x15 ![0, 40] P6 slices_S4096x55_o0_40_S4096x15) P7 P8 (ix2 r h) = Cert.Spec.kTermJ (fun k => P6 (ix2 r k)) (fun j h => P7 (ix2 j h)) (fun k h => P8 (ix2 k h)) 2 h := by
  rw [pay18_apply]
  unfold Cert.Spec.kTermJ
  exact congrArg₂ (· + ·) (Finset.sum_congr rfl fun k _ => by rw [feat_slice P6 r 2 40 rfl]) rfl

/-- The first layer with the first object in the first role, before the second object's term is added. -/
theorem preI0_row (h : Fin 256) :
    k0_pay19 (F := Ideal) (extractStridedSlice S4096x15 ![0, 10] P6 slices_S4096x55_o0_10_S4096x15) P12 P9 P10 P11 (k0_pay13 (F := Ideal) P13 P14) (truncf .bf16 (extractStridedSlice S4096x10 ![0, 0] P6 slices_S4096x55_o0_0_S4096x10) bitsLt_bf16_f32) (ix2 r h)
      = (Cert.Spec.kBase (fun k => P6 (ix2 r k)) (fun k => P13 (ix2 r k)) (fun k h => P14 (ix2 k h)) (fun k h => P12 (ix2 k h)) h + Cert.Spec.kTermI (fun k => P6 (ix2 r k)) (fun i h => P9 (ix2 i h)) (fun k h => P10 (ix2 k h)) 0 h) + (fun h => P11 (ix1 h)) h := by
  rw [pay19_apply, base_row]
  unfold Cert.Spec.kTermI
  exact congrArg₂ (· + ·) (congrArg₂ (· + ·) rfl
    (congrArg₂ (· + ·) (Finset.sum_congr rfl fun k _ => by rw [feat_slice P6 r 0 10 rfl]) rfl)) rfl

/-- The shared part plus the third object's term in the first role. -/
theorem preI2_row (h : Fin 256) :
    k0_pay23 (F := Ideal) (extractStridedSlice S4096x15 ![0, 40] P6 slices_S4096x55_o0_40_S4096x15) P9 P10 (k0_pay15 (F := Ideal) P12 (k0_pay13 (F := Ideal) P13 P14) (truncf .bf16 (extractStridedSlice S4096x10 ![0, 0] P6 slices_S4096x55_o0_0_S4096x10) bitsLt_bf16_f32)) (ix2 r h)
      = Cert.Spec.kBase (fun k => P6 (ix2 r k)) (fun k => P13 (ix2 r k)) (fun k h => P14 (ix2 k h)) (fun k h => P12 (ix2 k h)) h + Cert.Spec.kTermI (fun k => P6 (ix2 r k)) (fun i h => P9 (ix2 i h)) (fun k h => P10 (ix2 k h)) 2 h := by
  rw [pay23_apply, base_row]
  unfold Cert.Spec.kTermI
  exact congrArg₂ (· + ·) rfl
    (congrArg₂ (· + ·) (Finset.sum_congr rfl fun k _ => by rw [feat_slice P6 r 2 40 rfl]) rfl)

end Row

end Cert.KerPay

end
-- ==== Proof.KerPayAgg.lean ====
/-
  The second message layer, the accumulation of the six messages, the layer after the sum and the 8-wide head at a
  row of a grid point's blocks: the payloads that build them, each read at an entry as sums over the contracted
  coordinate, and then as the terms of the split arrangement.
-/
import proofs.«128084_j69887707840990_2_alg».proof.Proof.KerPayLayer1

noncomputable section

open scoped BigOperators

namespace Cert.KerPay

open Cert.KernelIdeal Cert.KernelIdeal.Gen Idealize.ShloMosaic Idealize.ShloMosaic.ValueIdx Cert.Lib.TwoBlocks

/-! ## The payloads at an entry, over arbitrary operands -/

/-- The first message, added to zero: the second layer of the rectified sum of two first-layer parts. -/
theorem pay20_apply (v3 v4 : FVec Ideal S4096x15 .f32) (v9 : FVec Ideal S10x256 .bf16) (v11 : FVec Ideal S3x256 .f32)
    (v13 : FVec Ideal S15x256 .bf16) (v15 : FVec Ideal S3x256 .f32) (v17 : FVec Ideal S15x256 .bf16) (v18 : FVec Ideal S256 .f32)
    (v20 : FVec Ideal S256x256 .bf16) (v21 : FVec Ideal S256 .f32) (v30 : FVec Ideal S4096x256 .f32) (v31 : FVec Ideal S4096x10 .bf16)
    (r : Fin 4096) (n : Fin 256) :
    k0_pay20 v3 v4 v9 v11 v13 v15 v17 v18 v20 v21 v30 v31 (ix2 r n)
      = 0 + max ((∑ h : Fin 256, max (k0_pay19 v3 v9 v11 v13 v18 v30 v31 (ix2 r h) + k0_pay17 v4 v15 v17 (ix2 r h)) 0 * v20 (ix2 h n)) + v21 (ix1 n)) 0 := by
  unfold k0_pay20
  simp only [addf_apply, maximumf_apply, broadcast_apply, zero_word, truncf_apply, mm15, mm256, mm8, biasRow, biasRow8, rowCut1]

/-- Three more messages added to what came before: one whose rectified first layer is given, and two that share the
    second object's term in the first role. -/
theorem pay22_apply (v4 : FVec Ideal S4096x15 .f32) (v11 : FVec Ideal S3x256 .f32) (v13 : FVec Ideal S15x256 .bf16)
    (v18 : FVec Ideal S256 .f32) (v20 : FVec Ideal S256x256 .bf16) (v21 : FVec Ideal S256 .f32)
    (v33 v40 v54 v77 : FVec Ideal S4096x256 .f32) (v81 : FVec Ideal S4096x256 .bf16) (r : Fin 4096) (n : Fin 256) :
    k0_pay22 v4 v11 v13 v18 v20 v21 v33 v40 v54 v77 v81 (ix2 r n)
      = ((v77 (ix2 r n) + max ((∑ h : Fin 256, v81 (ix2 r h) * v20 (ix2 h n)) + v21 (ix1 n)) 0)
          + max ((∑ h : Fin 256, max (((v33 (ix2 r h) + ((∑ k : Fin 15, v4 (ix2 r k) * v13 (ix2 k h)) + v11 (ix2 (1 : Fin 3) h))) + v18 (ix1 h)) + v40 (ix2 r h)) 0 * v20 (ix2 h n)) + v21 (ix1 n)) 0)
          + max ((∑ h : Fin 256, max (((v33 (ix2 r h) + ((∑ k : Fin 15, v4 (ix2 r k) * v13 (ix2 k h)) + v11 (ix2 (1 : Fin 3) h))) + v18 (ix1 h)) + v54 (ix2 r h)) 0 * v20 (ix2 h n)) + v21 (ix1 n)) 0 := by
  unfold k0_pay22
  simp only [addf_apply, maximumf_apply, broadcast_apply, zero_word, truncf_apply, mm15, mm256, mm8, biasRow, biasRow8, rowCut1]

/-- The last two messages added, the layer after the sum, and the 8-wide head. -/
theorem pay25_apply (v20 : FVec Ideal S256x256 .bf16) (v21 : FVec Ideal S256 .f32) (v23 : FVec Ideal S256x256 .bf16)
    (v24 : FVec Ideal S256 .f32) (v26 : FVec Ideal S256x8 .bf16) (v28 : FVec Ideal S8 .f32)
    (v40 v47 v121 v129 v131 : FVec Ideal S4096x256 .f32) (r : Fin 4096) (a : Fin 8) :
    k0_pay25 v20 v21 v23 v24 v26 v28 v40 v47 v121 v129 v131 (ix2 r a)
      = (∑ k : Fin 256, max ((∑ n : Fin 256,
            ((v121 (ix2 r n) + max ((∑ h : Fin 256, max ((v129 (ix2 r h) + v131 (ix2 r h)) + v40 (ix2 r h)) 0 * v20 (ix2 h n)) + v21 (ix1 n)) 0)
              + max ((∑ h : Fin 256, max ((v129 (ix2 r h) + v131 (ix2 r h)) + v47 (ix2 r h)) 0 * v20 (ix2 h n)) + v21 (ix1 n)) 0) * v23 (ix2 n k)) + v24 (ix1 k)) 0 * v26 (ix2 k a))
          + v28 (ix1 a) := by
  unfold k0_pay25
  simp only [addf_apply, maximumf_apply, broadcast_apply, zero_word, truncf_apply, mm15, mm256, mm8, biasRow, biasRow8, rowCut1]

/-! ## The same at a row of the loaded blocks, as the terms of the split arrangement -/

section Row

variable (P0 : FVec Ideal S256x256 .bf16) (P1 : FVec Ideal S256 .f32) (P2 : FVec Ideal S256x256 .bf16) (P3 : FVec Ideal S256 .f32)
  (P4 : FVec Ideal S256x8 .bf16) (P5 : FVec Ideal S8 .f32) (P6 : FVec Ideal S4096x55 .f32) (P7 : FVec Ideal S3x256 .f32)
  (P8 : FVec Ideal S15x256 .bf16) (P9 : FVec Ideal S3x256 .f32) (P10 : FVec Ideal S15x256 .bf16) (P11 : FVec Ideal S256 .f32)
  (P12 : FVec Ideal S10x256 .bf16) (P13 : FVec Ideal S4096x100 .f32) (P14 : FVec Ideal S100x256 .bf16) (r : Fin 4096)

/-- The message of the pair (0, 1), added to zero. -/
theorem hid01_row (n : Fin 256) :
    (k0_pay20 (F := Ideal) (extractStridedSlice S4096x15 ![0, 10] P6 slices_S4096x55_o0_10_S4096x15) (extractStridedSlice S4096x15 ![0, 25] P6 slices_S4096x55_o0_25_S4096x15) P12 P9 P10 P7 P8 P11 P0 P1 (k0_pay13 (F := Ideal) P13 P14) (truncf .bf16 (extractStridedSlice S4096x10 ![0, 0] P6 slices_S4096x55_o0_0_S4096x10) bitsLt_bf16_f32)) (ix2 r n) = 0 + Cert.Spec.kHid2 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) 0 1 n := by
  rw [pay20_apply]
  simp only [preI0_row, termJ1_row]
  rfl

/-- The rectified first layer of the pair (0, 2). -/
theorem relu02_row (h : Fin 256) :
    (truncf .bf16 (maximumf (addf (k0_pay19 (F := Ideal) (extractStridedSlice S4096x15 ![0, 10] P6 slices_S4096x55_o0_10_S4096x15) P12 P9 P10 P11 (k0_pay13 (F := Ideal) P13 P14) (truncf .bf16 (extractStridedSlice S4096x10 ![0, 0] P6 slices_S4096x55_o0_0_S4096x10) bitsLt_bf16_f32)) (k0_pay18 (F := Ideal) (extractStridedSlice S4096x15 ![0, 40] P6 slices_S4096x55_o0_40_S4096x15) P7 P8)) (broadcast S4096x256 (Scalar.ofBits .f32 0x00000000#32))) bitsLt_bf16_f32) (ix2 r h) = max (Cert.Spec.kPre1 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) 0 2 h) 0 := by
  simp only [truncf_apply, maximumf_apply, addf_apply, broadcast_apply, zero_word, preI0_row, termJ2_row]
  rfl

/-- The first four messages accumulated from zero. -/
theorem agg4_row (n : Fin 256) :
    (k0_pay22 (F := Ideal) (extractStridedSlice S4096x15 ![0, 25] P6 slices_S4096x55_o0_25_S4096x15) P9 P10 P11 P0 P1 (k0_pay15 (F := Ideal) P12 (k0_pay13 (F := Ideal) P13 P14) (truncf .bf16 (extractStridedSlice S4096x10 ![0, 0] P6 slices_S4096x55_o0_0_S4096x10) bitsLt_bf16_f32)) (k0_pay16 (F := Ideal) (extractStridedSlice S4096x15 ![0, 10] P6 slices_S4096x55_o0_10_S4096x15) P7 P8) (k0_pay18 (F := Ideal) (extractStridedSlice S4096x15 ![0, 40] P6 slices_S4096x55_o0_40_S4096x15) P7 P8) (k0_pay20 (F := Ideal) (extractStridedSlice S4096x15 ![0, 10] P6 slices_S4096x55_o0_10_S4096x15) (extractStridedSlice S4096x15 ![0, 25] P6 slices_S4096x55_o0_25_S4096x15) P12 P9 P10 P7 P8 P11 P0 P1 (k0_pay13 (F := Ideal) P13 P14) (truncf .bf16 (extractStridedSlice S4096x10 ![0, 0] P6 slices_S4096x55_o0_0_S4096x10) bitsLt_bf16_f32)) (truncf .bf16 (maximumf (addf (k0_pay19 (F := Ideal) (extractStridedSlice S4096x15 ![0, 10] P6 slices_S4096x55_o0_10_S4096x15) P12 P9 P10 P11 (k0_pay13 (F := Ideal) P13 P14) (truncf .bf16 (extractStridedSlice S4096x10 ![0, 0] P6 slices_S4096x55_o0_0_S4096x10) bitsLt_bf16_f32)) (k0_pay18 (F := Ideal) (extractStridedSlice S4096x15 ![0, 40] P6 slices_S4096x55_o0_40_S4096x15) P7 P8)) (broadcast S4096x256 (Scalar.ofBits .f32 0x00000000#32))) bitsLt_bf16_f32)) (ix2 r n) = ((((0 + Cert.Spec.kHid2 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) 0 1 n) + Cert.Spec.kHid2 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) 0 2 n) + Cert.Spec.kHid2 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) 1 0 n) + Cert.Spec.kHid2 (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) 1 2 n) := by
  rw [pay22_apply]
  simp only [hid01_row, relu02_row, base_row, termJ0_row, termJ2_row, feat_slice P6 r 1 25 rfl]
  rfl

/-- The 8-wide head at a row. -/
theorem head_row (a : Fin 8) :
    k0_pay25 (F := Ideal) P0 P1 P2 P3 P4 P5 (k0_pay16 (F := Ideal) (extractStridedSlice S4096x15 ![0, 10] P6 slices_S4096x55_o0_10_S4096x15) P7 P8) (k0_pay17 (F := Ideal) (extractStridedSlice S4096x15 ![0, 25] P6 slices_S4096x55_o0_25_S4096x15) P7 P8) (k0_pay22 (F := Ideal) (extractStridedSlice S4096x15 ![0, 25] P6 slices_S4096x55_o0_25_S4096x15) P9 P10 P11 P0 P1 (k0_pay15 (F := Ideal) P12 (k0_pay13 (F := Ideal) P13 P14) (truncf .bf16 (extractStridedSlice S4096x10 ![0, 0] P6 slices_S4096x55_o0_0_S4096x10) bitsLt_bf16_f32)) (k0_pay16 (F := Ideal) (extractStridedSlice S4096x15 ![0, 10] P6 slices_S4096x55_o0_10_S4096x15) P7 P8) (k0_pay18 (F := Ideal) (extractStridedSlice S4096x15 ![0, 40] P6 slices_S4096x55_o0_40_S4096x15) P7 P8) (k0_pay20 (F := Ideal) (extractStridedSlice S4096x15 ![0, 10] P6 slices_S4096x55_o0_10_S4096x15) (extractStridedSlice S4096x15 ![0, 25] P6 slices_S4096x55_o0_25_S4096x15) P12 P9 P10 P7 P8 P11 P0 P1 (k0_pay13 (F := Ideal) P13 P14) (truncf .bf16 (extractStridedSlice S4096x10 ![0, 0] P6 slices_S4096x55_o0_0_S4096x10) bitsLt_bf16_f32)) (truncf .bf16 (maximumf (addf (k0_pay19 (F := Ideal) (extractStridedSlice S4096x15 ![0, 10] P6 slices_S4096x55_o0_10_S4096x15) P12 P9 P10 P11 (k0_pay13 (F := Ideal) P13 P14) (truncf .bf16 (extractStridedSlice S4096x10 ![0, 0] P6 slices_S4096x55_o0_0_S4096x10) bitsLt_bf16_f32)) (k0_pay18 (F := Ideal) (extractStridedSlice S4096x15 ![0, 40] P6 slices_S4096x55_o0_40_S4096x15) P7 P8)) (broadcast S4096x256 (Scalar.ofBits .f32 0x00000000#32))) bitsLt_bf16_f32)) (k0_pay23 (F := Ideal) (extractStridedSlice S4096x15 ![0, 40] P6 slices_S4096x55_o0_40_S4096x15) P9 P10 (k0_pay15 (F := Ideal) P12 (k0_pay13 (F := Ideal) P13 P14) (truncf .bf16 (extractStridedSlice S4096x10 ![0, 0] P6 slices_S4096x55_o0_0_S4096x10) bitsLt_bf16_f32))) (broadcastTo S4096x256 (shapeCast S1x256 P11 shapeCasts_S256_S1x256) broadcasts_S1x256_S4096x256) (ix2 r a) = Cert.Spec.kHead (fun k => P6 (ix2 r k)) (fun k => P13 (ix2 r k)) (fun k h => P14 (ix2 k h)) (fun k h => P12 (ix2 k h)) (fun i h => P9 (ix2 i h)) (fun k h => P10 (ix2 k h)) (fun j h => P7 (ix2 j h)) (fun k h => P8 (ix2 k h)) (fun h => P11 (ix1 h)) (fun h n => P0 (ix2 h n)) (fun n => P1 (ix1 n)) (fun n k => P2 (ix2 n k)) (fun k => P3 (ix1 k)) (fun k a => P4 (ix2 k a)) (fun a => P5 (ix1 a)) a := by
  rw [pay25_apply]
  simp only [agg4_row, preI2_row, termJ0_row, termJ1_row, biasRow]
  rfl

end Row

end Cert.KerPay

end
-- ==== Proof.KerPay.lean ====
/-
  What one grid point's body leaves at an entry of its two output blocks, as the split arrangement of the
  row's computation over the loaded blocks.
-/
import proofs.«128084_j69887707840990_2_alg».proof.Proof.Gen.KernelIdeal.Value
import proofs.«128084_j69887707840990_2_alg».proof.Proof.Spec
import proofs.«128084_j69887707840990_2_alg».proof.Proof.KerPayAgg

noncomputable section

namespace Cert.KerPay

open Cert.KernelIdeal Cert.KernelIdeal.Gen Idealize.ShloMosaic Idealize.ShloMosaic.ValueIdx

variable (P0 : Vec Ideal S256x256 .bf16) (P1 : Vec Ideal S256 .f32) (P2 : Vec Ideal S256x256 .bf16) (P3 : Vec Ideal S256 .f32) (P4 : Vec Ideal S256x8 .bf16) (P5 : Vec Ideal S8 .f32) (P6 : Vec Ideal S4096x55 .f32) (P7 : Vec Ideal S3x256 .f32) (P8 : Vec Ideal S15x256 .bf16) (P9 : Vec Ideal S3x256 .f32) (P10 : Vec Ideal S15x256 .bf16) (P11 : Vec Ideal S256 .f32) (P12 : Vec Ideal S10x256 .bf16) (P13 : Vec Ideal S4096x100 .f32) (P14 : Vec Ideal S100x256 .bf16)

/-- The head's entry an entry of the first output block is read from: the same row, the same column. -/
theorem ix15_0_ix2 (r : Fin 4096) (a : Fin 4) :
    Cert.KernelIdeal.Value.ix15_0 (ix2 r a) = ix2 r (⟨a.val, by omega⟩ : Fin 8) := by
  funext d
  match d with
  | ⟨0, _⟩ => rfl
  | ⟨1, _⟩ => rfl

/-- The head's entry an entry of the second output block is read from: the same row, four columns on. -/
theorem ix16_0_ix2 (r : Fin 4096) (a : Fin 4) :
    Cert.KernelIdeal.Value.ix16_0 (ix2 r a) = ix2 r (⟨a.val + 4, by omega⟩ : Fin 8) := by
  funext d
  match d with
  | ⟨0, _⟩ => rfl
  | ⟨1, _⟩ => rfl

theorem E15_eq (r : Fin 4096) (a : Fin 4) :
    Cert.KernelIdeal.Value.E15 (F := Ideal) P0 P1 P2 P3 P4 P5 P6 P7 P8 P9 P10 P11 P12 P13 P14 (ix2 r a)
      = Cert.Spec.kHead (fun k => P6 (ix2 r k)) (fun k => P13 (ix2 r k)) (fun k h => P14 (ix2 k h)) (fun k h => P12 (ix2 k h))
        (fun i h => P9 (ix2 i h)) (fun k h => P10 (ix2 k h)) (fun j h => P7 (ix2 j h)) (fun k h => P8 (ix2 k h)) (fun h => P11 (ix1 h))
        (fun h n => P0 (ix2 h n)) (fun n => P1 (ix1 n)) (fun n k => P2 (ix2 n k)) (fun k => P3 (ix1 k))
        (fun k a => P4 (ix2 k a)) (fun a => P5 (ix1 a)) ⟨a.val, by omega⟩ := by
  unfold Cert.KernelIdeal.Value.E15
  rw [ix15_0_ix2]
  simp only [shapeCast_self]
  exact head_row P0 P1 P2 P3 P4 P5 P6 P7 P8 P9 P10 P11 P12 P13 P14 r ⟨a.val, by omega⟩

theorem E16_eq (r : Fin 4096) (a : Fin 4) :
    Cert.KernelIdeal.Value.E16 (F := Ideal) P0 P1 P2 P3 P4 P5 P6 P7 P8 P9 P10 P11 P12 P13 P14 (ix2 r a)
      = Cert.Spec.clamp (Cert.Spec.kHead (fun k => P6 (ix2 r k)) (fun k => P13 (ix2 r k)) (fun k h => P14 (ix2 k h)) (fun k h => P12 (ix2 k h))
        (fun i h => P9 (ix2 i h)) (fun k h => P10 (ix2 k h)) (fun j h => P7 (ix2 j h)) (fun k h => P8 (ix2 k h)) (fun h => P11 (ix1 h))
        (fun h n => P0 (ix2 h n)) (fun n => P1 (ix1 n)) (fun n k => P2 (ix2 n k)) (fun k => P3 (ix1 k))
        (fun k a => P4 (ix2 k a)) (fun a => P5 (ix1 a)) ⟨a.val + 4, by omega⟩) := by
  unfold Cert.KernelIdeal.Value.E16 Cert.Spec.clamp
  rw [ix16_0_ix2]
  simp only [shapeCast_self]
  exact congrArg₂ min rfl (congrArg₂ max rfl (head_row P0 P1 P2 P3 P4 P5 P6 P7 P8 P9 P10 P11 P12 P13 P14 r ⟨a.val + 4, by omega⟩))

end Cert.KerPay

end
-- ==== Proof.Bridge.lean ====
/-
  The two arrangements of one batch row's computation agree: the 146-wide contraction splits along the row's
  six blocks, a one-hot block's contraction is the weight row it selects, the six messages added one after
  the other from zero are their sum, and an 8-wide head over two 4-wide heads set side by side reads the
  first head in its first four entries and the second in its last four.  Nothing here needs the entries to be
  finite: on the extended reals addition is commutative and associative, 0 · x = 0 and 1 · x = x.
-/
import proofs.«128084_j69887707840990_2_alg».proof.Proof.Spec

noncomputable section

open scoped BigOperators

namespace Cert.Spec

/-- Two 256×4 weight tables set side by side as one 256×8 table. -/
def catW (mw lw : Fin 256 → Fin 4 → EReal) : Fin 256 → Fin 8 → EReal :=
  fun k a => if h : a.val < 4 then mw k ⟨a.val, h⟩ else lw k ⟨a.val - 4, by omega⟩

/-- Two 4-wide bias rows set end to end as one 8-wide row. -/
def catB (mb lb : Fin 4 → EReal) : Fin 8 → EReal :=
  fun a => if h : a.val < 4 then mb ⟨a.val, h⟩ else lb ⟨a.val - 4, by omega⟩

/-- A sum over `Fin n` with `a + b = n` is the sum over the first `a` indices plus the sum over the last `b`. -/
theorem sum_two {M : Type*} [AddCommMonoid M] {n : ℕ} (a b : ℕ) (h : a + b = n) (f : Fin n → M) :
    ∑ k, f k = (∑ k : Fin a, f ⟨k.val, by omega⟩) + ∑ k : Fin b, f ⟨a + k.val, by omega⟩ := by
  subst h
  rw [Fin.sum_univ_add]
  rfl

/-- Contracting a one-hot code against three weights selects the coded one. -/
theorem onehot_sum (i : Fin 3) (g : Fin 3 → EReal) :
    ∑ k : Fin 3, (if i.val = k.val then (1 : EReal) else 0) * g k = g i := by
  rw [Fin.sum_univ_three]
  fin_cases i <;> simp

variable (o : Fin 55 → EReal) (e : Fin 100 → EReal)
  (w1 : Fin 146 → Fin 256 → EReal) (b1 : Fin 256 → EReal)
  (w2 : Fin 256 → Fin 256 → EReal) (b2 : Fin 256 → EReal)
  (w3 : Fin 256 → Fin 256 → EReal) (b3 : Fin 256 → EReal)
  (mw lw : Fin 256 → Fin 4 → EReal) (mb lb : Fin 4 → EReal)

/-- An object's 18 numbers contracted against 18 weights (`g3` the first three, `g15` the other fifteen): the
    weight its one-hot code selects plus its 15 observation entries against the fifteen. -/
theorem obj_dot (i : Fin 3) (g : Fin 18 → EReal) (g3 : Fin 3 → EReal) (g15 : Fin 15 → EReal)
    (h3 : ∀ k : Fin 3, g ⟨k.val, by omega⟩ = g3 k) (h15 : ∀ k : Fin 15, g ⟨3 + k.val, by omega⟩ = g15 k) :
    ∑ k : Fin 18, obj o i k * g k = g3 i + ∑ k : Fin 15, feat o i k * g15 k := by
  rw [sum_two 3 15 rfl]
  refine congrArg₂ (· + ·) ?_ (Finset.sum_congr rfl fun k _ => ?_)
  · have : ∀ k : Fin 3, obj o i ⟨k.val, by omega⟩ * g ⟨k.val, by omega⟩
        = (if i.val = k.val then (1 : EReal) else 0) * g3 k := by
      intro k
      rw [h3 k]
      unfold obj
      rw [if_pos (show (⟨k.val, by omega⟩ : Fin 18).val < 3 from k.isLt)]
    rw [Finset.sum_congr rfl (fun k _ => this k)]
    exact onehot_sum i g3
  · rw [h15 k]
    refine congrArg (· * g15 k) ?_
    unfold obj feat
    rw [if_neg (show ¬ (⟨3 + k.val, by omega⟩ : Fin 18).val < 3 by show ¬ 3 + k.val < 3; omega)]
    exact congrArg o (Fin.ext (by show 10 + 15 * i.val + (3 + k.val - 3) = 10 + 15 * i.val + k.val; omega))

/-- The input row of pair `p` contracted against 146 weights, along the row's four ranges (`gA` … `gJ` the
    weights of each range). -/
theorem inp_dot (p : Fin 6) (g : Fin 146 → EReal) (gA : Fin 100 → EReal) (gB : Fin 10 → EReal) (gI gJ : Fin 18 → EReal)
    (hA : ∀ k : Fin 100, g ⟨k.val, by omega⟩ = gA k) (hB : ∀ k : Fin 10, g ⟨100 + k.val, by omega⟩ = gB k)
    (hI : ∀ k : Fin 18, g ⟨110 + k.val, by omega⟩ = gI k) (hJ : ∀ k : Fin 18, g ⟨128 + k.val, by omega⟩ = gJ k) :
    ∑ k : Fin 146, inp o e p k * g k
      = (∑ k : Fin 100, e k * gA k) + ((∑ k : Fin 10, o ⟨k.val, by omega⟩ * gB k)
        + ((∑ k : Fin 18, obj o (pairI p) k * gI k) + ∑ k : Fin 18, obj o (pairJ p) k * gJ k)) := by
  rw [sum_two 100 46 rfl, sum_two 10 36 rfl, sum_two 18 18 rfl]
  refine congrArg₂ (· + ·) (Finset.sum_congr rfl fun k _ => ?_) (congrArg₂ (· + ·) (Finset.sum_congr rfl fun k _ => ?_)
    (congrArg₂ (· + ·) (Finset.sum_congr rfl fun k _ => ?_) (Finset.sum_congr rfl fun k _ => ?_)))
  · rw [hA k]
    refine congrArg (· * gA k) ?_
    unfold inp; rw [dif_pos (show (⟨k.val, by omega⟩ : Fin 146).val < 100 from k.isLt)]
  · refine congrArg₂ (· * ·) ?_ ((hB k).symm ▸ rfl)
    unfold inp
    rw [dif_neg (show ¬ (100 + k.val < 100) by omega), dif_pos (show 100 + k.val < 110 by omega)]
    exact congrArg o (Fin.ext (by show 100 + k.val - 100 = k.val; omega))
  · refine congrArg₂ (· * ·) ?_ ((congrArg g (Fin.ext (by show 100 + (10 + k.val) = 110 + k.val; omega))).trans (hI k))
    unfold inp
    rw [dif_neg (show ¬ (100 + (10 + k.val) < 100) by omega), dif_neg (show ¬ (100 + (10 + k.val) < 110) by omega),
      dif_pos (show 100 + (10 + k.val) < 128 by omega)]
    exact congrArg (obj o (pairI p)) (Fin.ext (by show 100 + (10 + k.val) - 110 = k.val; omega))
  · refine congrArg₂ (· * ·) ?_ ((congrArg g (Fin.ext (by show 100 + (10 + (18 + k.val)) = 128 + k.val; omega))).trans (hJ k))
    unfold inp
    rw [dif_neg (show ¬ (100 + (10 + (18 + k.val)) < 100) by omega), dif_neg (show ¬ (100 + (10 + (18 + k.val)) < 110) by omega),
      dif_neg (show ¬ (100 + (10 + (18 + k.val)) < 128) by omega)]
    exact congrArg (obj o (pairJ p)) (Fin.ext (by show 100 + (10 + (18 + k.val)) - 128 = k.val; omega))

/-- The first layer before the rectifier: the split contraction is the whole one. -/
theorem kPre1_eq (p : Fin 6) (h : Fin 256) :
    kPre1 o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 (pairI p) (pairJ p) h
    = pre1 o e w1 b1 p h := by
  unfold pre1 kPre1 kBase kTermI kTermJ
  rw [inp_dot o e p (fun k => w1 k h) (fun k => w1 ⟨k.val, by omega⟩ h) (fun k => w1 ⟨100 + k.val, by omega⟩ h)
      (fun k => w1 ⟨110 + k.val, by omega⟩ h) (fun k => w1 ⟨128 + k.val, by omega⟩ h)
      (fun _ => rfl) (fun _ => rfl) (fun _ => rfl) (fun _ => rfl),
    obj_dot o (pairI p) (fun k => w1 ⟨110 + k.val, by omega⟩ h) (fun i => w1 ⟨110 + i.val, by omega⟩ h)
      (fun k => w1 ⟨113 + k.val, by omega⟩ h) (fun _ => rfl)
      (fun k => congrArg (fun z => w1 z h) (Fin.ext (by show 110 + (3 + k.val) = 113 + k.val; omega))),
    obj_dot o (pairJ p) (fun k => w1 ⟨128 + k.val, by omega⟩ h) (fun j => w1 ⟨128 + j.val, by omega⟩ h)
      (fun k => w1 ⟨131 + k.val, by omega⟩ h) (fun _ => rfl)
      (fun k => congrArg (fun z => w1 z h) (Fin.ext (by show 128 + (3 + k.val) = 131 + k.val; omega)))]
  beta_reduce
  abel

/-- The second message layer of a pair in the split arrangement is that pair's in the whole one. -/
theorem kHid2_eq (p : Fin 6) (n : Fin 256) :
    kHid2 o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 w2 b2 (pairI p) (pairJ p) n
    = hid2 o e w1 b1 w2 b2 p n := by
  unfold kHid2 hid2 hid1
  refine congrArg (fun s => max (s + b2 n) 0) (Finset.sum_congr rfl fun h _ => ?_)
  rw [kPre1_eq o e w1 b1 p h]

/-- The six messages added one after the other from zero are their sum. -/
theorem kAgg_eq (n : Fin 256) :
    kAgg o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 w2 b2 n
    = agg o e w1 b1 w2 b2 n := by
  unfold kAgg agg
  rw [Fin.sum_univ_six, ← kHid2_eq o e w1 b1 w2 b2 0 n, ← kHid2_eq o e w1 b1 w2 b2 1 n, ← kHid2_eq o e w1 b1 w2 b2 2 n,
    ← kHid2_eq o e w1 b1 w2 b2 3 n, ← kHid2_eq o e w1 b1 w2 b2 4 n, ← kHid2_eq o e w1 b1 w2 b2 5 n, zero_add]
  rfl

/-- The layer after the sum agrees. -/
theorem kRho_eq (k : Fin 256) :
    kRho o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 w2 b2 w3 b3 k
    = rho o e w1 b1 w2 b2 w3 b3 k := by
  unfold kRho rho
  refine congrArg (fun s => max (s + b3 k) 0) (Finset.sum_congr rfl fun n _ => ?_)
  rw [kAgg_eq o e w1 b1 w2 b2 n]

/-- The split arrangement over the six row blocks of `w1` and the two heads side by side, read in the first
    four entries of the 8-wide head, is the first head of the whole arrangement. -/
theorem kHead_lo (a : Fin 4) :
    kHead o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 w2 b2 w3 b3
      (catW mw lw) (catB mb lb) ⟨a.val, by omega⟩
    = head o e w1 b1 w2 b2 w3 b3 mw mb a := by
  unfold kHead head
  have hW : ∀ k : Fin 256, catW mw lw k ⟨a.val, by omega⟩ = mw k a := fun k => by
    unfold catW; rw [dif_pos (show (⟨a.val, by omega⟩ : Fin 8).val < 4 from a.isLt)]
  have hB : catB mb lb ⟨a.val, by omega⟩ = mb a := by
    unfold catB; rw [dif_pos (show (⟨a.val, by omega⟩ : Fin 8).val < 4 from a.isLt)]
  rw [hB]
  refine congrArg (· + mb a) (Finset.sum_congr rfl fun k _ => ?_)
  rw [hW k, kRho_eq o e w1 b1 w2 b2 w3 b3 k]

/-- … and read in its last four entries it is the second head. -/
theorem kHead_hi (a : Fin 4) :
    kHead o e (fun k h => w1 ⟨k.val, by omega⟩ h) (fun k h => w1 ⟨100 + k.val, by omega⟩ h)
      (fun i h => w1 ⟨110 + i.val, by omega⟩ h) (fun k h => w1 ⟨113 + k.val, by omega⟩ h)
      (fun j h => w1 ⟨128 + j.val, by omega⟩ h) (fun k h => w1 ⟨131 + k.val, by omega⟩ h) b1 w2 b2 w3 b3
      (catW mw lw) (catB mb lb) ⟨a.val + 4, by omega⟩
    = head o e w1 b1 w2 b2 w3 b3 lw lb a := by
  unfold kHead head
  have hW : ∀ k : Fin 256, catW mw lw k ⟨a.val + 4, by omega⟩ = lw k a := fun k => by
    unfold catW; rw [dif_neg (show ¬ (⟨a.val + 4, by omega⟩ : Fin 8).val < 4 by show ¬ a.val + 4 < 4; omega)]
    exact congrArg (lw k) (Fin.ext (by show a.val + 4 - 4 = a.val; omega))
  have hB : catB mb lb ⟨a.val + 4, by omega⟩ = lb a := by
    unfold catB; rw [dif_neg (show ¬ (⟨a.val + 4, by omega⟩ : Fin 8).val < 4 by show ¬ a.val + 4 < 4; omega)]
    exact congrArg lb (Fin.ext (by show a.val + 4 - 4 = a.val; omega))
  rw [hB]
  refine congrArg (· + lb a) (Finset.sum_congr rfl fun k _ => ?_)
  rw [hW k, kRho_eq o e w1 b1 w2 b2 w3 b3 k]

end Cert.Spec

end
-- ==== Proof.KerEntry.lean ====
/-
  What the kernel's weight windows find in their arrays when the region is entered: the host operations
  before it cut the first weight matrix into its six row ranges, narrow the weights to the shorter float
  format (the identity on extended reals) and set the two heads' weights and biases side by side.
-/
import proofs.«128084_j69887707840990_2_alg».proof.Proof.Gen.KernelIdeal.Frame
import proofs.«128084_j69887707840990_2_alg».proof.Proof.Bridge
import Idealize.ShloMosaic.Lib.Pipeline.Value
import Idealize.ShloMosaic.Lib.StableHlo.Run

noncomputable section

namespace Cert.KerEntry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- Rows 0–99 of the first weight matrix: the embedding's weights. -/
theorem v1_apply (k : Fin 100) (h : Fin 256) :
    (V m c main_v1 : S100x256.Idx → EReal) (ix2 k h)
      = ((m ((c : Thread nD τ).loc main_arg2)) : S146x256.Idx → EReal) (ix2 (⟨k.val, by omega⟩ : Fin 146) h) := by
  have e : @Eq (S100x256.Idx → EReal) (V m c main_v1) (truncf (F := Ideal) .bf16 (extractStridedSlice S100x256 ![0, 0] (m ((c : Thread nD τ).loc main_arg2)) Cert.KernelIdeal.Facts₀.slices_S146x256_S100x256_0_0) Cert.KernelIdeal.Facts₀.bitsLt_bf16_f32) := by
    dsimp only [Gen.V, Gen.hostOps0]; after_results
  rw [e]
  exact extractStridedSlice_apply ![0, 0] (m ((c : Thread nD τ).loc main_arg2)) Cert.KernelIdeal.Facts₀.slices_S146x256_S100x256_0_0 (ix2 k h) (ix2 (⟨k.val, by omega⟩ : Fin 146) h)
    (fun a => match a with | ⟨0, _⟩ => by show k.val = 0 + k.val; omega | ⟨1, _⟩ => by show h.val = 0 + h.val; omega)

/-- Rows 100–109: the body's weights. -/
theorem v3_apply (k : Fin 10) (h : Fin 256) :
    (V m c main_v3 : S10x256.Idx → EReal) (ix2 k h)
      = ((m ((c : Thread nD τ).loc main_arg2)) : S146x256.Idx → EReal) (ix2 (⟨100 + k.val, by omega⟩ : Fin 146) h) := by
  have e : @Eq (S10x256.Idx → EReal) (V m c main_v3) (truncf (F := Ideal) .bf16 (extractStridedSlice S10x256 ![100, 0] (m ((c : Thread nD τ).loc main_arg2)) Cert.KernelIdeal.Facts₀.slices_S146x256_S10x256_100_0) Cert.KernelIdeal.Facts₀.bitsLt_bf16_f32) := by
    dsimp only [Gen.V, Gen.hostOps0]; after_results
  rw [e]
  exact extractStridedSlice_apply ![100, 0] (m ((c : Thread nD τ).loc main_arg2)) Cert.KernelIdeal.Facts₀.slices_S146x256_S10x256_100_0 (ix2 k h) (ix2 (⟨100 + k.val, by omega⟩ : Fin 146) h)
    (fun a => match a with | ⟨0, _⟩ => by show 100 + k.val = 100 + k.val; omega | ⟨1, _⟩ => by show h.val = 0 + h.val; omega)

/-- Rows 110–112: the weight rows the first object's one-hot code selects. -/
theorem v4_apply (i : Fin 3) (h : Fin 256) :
    (V m c main_v4 : S3x256.Idx → EReal) (ix2 i h)
      = ((m ((c : Thread nD τ).loc main_arg2)) : S146x256.Idx → EReal) (ix2 (⟨110 + i.val, by omega⟩ : Fin 146) h) := by
  have e : @Eq (S3x256.Idx → EReal) (V m c main_v4) (extractStridedSlice S3x256 ![110, 0] (m ((c : Thread nD τ).loc main_arg2)) Cert.KernelIdeal.Facts₀.slices_S146x256_S3x256_110_0) := by
    dsimp only [Gen.V, Gen.hostOps0]; after_results
  rw [e]
  exact extractStridedSlice_apply ![110, 0] (m ((c : Thread nD τ).loc main_arg2)) Cert.KernelIdeal.Facts₀.slices_S146x256_S3x256_110_0 (ix2 i h) (ix2 (⟨110 + i.val, by omega⟩ : Fin 146) h)
    (fun a => match a with | ⟨0, _⟩ => by show 110 + i.val = 110 + i.val; omega | ⟨1, _⟩ => by show h.val = 0 + h.val; omega)

/-- Rows 113–127: the first object's feature weights. -/
theorem v6_apply (k : Fin 15) (h : Fin 256) :
    (V m c main_v6 : S15x256.Idx → EReal) (ix2 k h)
      = ((m ((c : Thread nD τ).loc main_arg2)) : S146x256.Idx → EReal) (ix2 (⟨113 + k.val, by omega⟩ : Fin 146) h) := by
  have e : @Eq (S15x256.Idx → EReal) (V m c main_v6) (truncf (F := Ideal) .bf16 (extractStridedSlice S15x256 ![113, 0] (m ((c : Thread nD τ).loc main_arg2)) Cert.KernelIdeal.Facts₀.slices_S146x256_S15x256_113_0) Cert.KernelIdeal.Facts₀.bitsLt_bf16_f32) := by
    dsimp only [Gen.V, Gen.hostOps0]; after_results
  rw [e]
  exact extractStridedSlice_apply ![113, 0] (m ((c : Thread nD τ).loc main_arg2)) Cert.KernelIdeal.Facts₀.slices_S146x256_S15x256_113_0 (ix2 k h) (ix2 (⟨113 + k.val, by omega⟩ : Fin 146) h)
    (fun a => match a with | ⟨0, _⟩ => by show 113 + k.val = 113 + k.val; omega | ⟨1, _⟩ => by show h.val = 0 + h.val; omega)

/-- Rows 128–130: the weight rows the second object's one-hot code selects. -/
theorem v7_apply (j : Fin 3) (h : Fin 256) :
    (V m c main_v7 : S3x256.Idx → EReal) (ix2 j h)
      = ((m ((c : Thread nD τ).loc main_arg2)) : S146x256.Idx → EReal) (ix2 (⟨128 + j.val, by omega⟩ : Fin 146) h) := by
  have e : @Eq (S3x256.Idx → EReal) (V m c main_v7) (extractStridedSlice S3x256 ![128, 0] (m ((c : Thread nD τ).loc main_arg2)) Cert.KernelIdeal.Facts₀.slices_S146x256_S3x256_128_0) := by
    dsimp only [Gen.V, Gen.hostOps0]; after_results
  rw [e]
  exact extractStridedSlice_apply ![128, 0] (m ((c : Thread nD τ).loc main_arg2)) Cert.KernelIdeal.Facts₀.slices_S146x256_S3x256_128_0 (ix2 j h) (ix2 (⟨128 + j.val, by omega⟩ : Fin 146) h)
    (fun a => match a with | ⟨0, _⟩ => by show 128 + j.val = 128 + j.val; omega | ⟨1, _⟩ => by show h.val = 0 + h.val; omega)

/-- Rows 131–145: the second object's feature weights. -/
theorem v9_apply (k : Fin 15) (h : Fin 256) :
    (V m c main_v9 : S15x256.Idx → EReal) (ix2 k h)
      = ((m ((c : Thread nD τ).loc main_arg2)) : S146x256.Idx → EReal) (ix2 (⟨131 + k.val, by omega⟩ : Fin 146) h) := by
  have e : @Eq (S15x256.Idx → EReal) (V m c main_v9) (truncf (F := Ideal) .bf16 (extractStridedSlice S15x256 ![131, 0] (m ((c : Thread nD τ).loc main_arg2)) Cert.KernelIdeal.Facts₀.slices_S146x256_S15x256_131_0) Cert.KernelIdeal.Facts₀.bitsLt_bf16_f32) := by
    dsimp only [Gen.V, Gen.hostOps0]; after_results
  rw [e]
  exact extractStridedSlice_apply ![131, 0] (m ((c : Thread nD τ).loc main_arg2)) Cert.KernelIdeal.Facts₀.slices_S146x256_S15x256_131_0 (ix2 k h) (ix2 (⟨131 + k.val, by omega⟩ : Fin 146) h)
    (fun a => match a with | ⟨0, _⟩ => by show 131 + k.val = 131 + k.val; omega | ⟨1, _⟩ => by show h.val = 0 + h.val; omega)

/-- The second layer's weights, narrowed: the same numbers. -/
theorem v10_apply (i : S256x256.Idx) :
    (V m c main_v10 : S256x256.Idx → EReal) i = ((m ((c : Thread nD τ).loc main_arg4)) : S256x256.Idx → EReal) i := by
  have e : @Eq (S256x256.Idx → EReal) (V m c main_v10) (truncf (F := Ideal) .bf16 (m ((c : Thread nD τ).loc main_arg4)) Cert.KernelIdeal.Facts₀.bitsLt_bf16_f32) := by
    dsimp only [Gen.V, Gen.hostOps0]; after_results
  rw [e]; rfl

/-- The weights of the layer after the sum, narrowed: the same numbers. -/
theorem v11_apply (i : S256x256.Idx) :
    (V m c main_v11 : S256x256.Idx → EReal) i = ((m ((c : Thread nD τ).loc main_arg6)) : S256x256.Idx → EReal) i := by
  have e : @Eq (S256x256.Idx → EReal) (V m c main_v11) (truncf (F := Ideal) .bf16 (m ((c : Thread nD τ).loc main_arg6)) Cert.KernelIdeal.Facts₀.bitsLt_bf16_f32) := by
    dsimp only [Gen.V, Gen.hostOps0]; after_results
  rw [e]; rfl

/-- The two heads' weights side by side. -/
theorem v13_apply (k : Fin 256) (a : Fin 8) :
    (V m c main_v13 : S256x8.Idx → EReal) (ix2 k a)
      = Cert.Spec.catW (fun k a => ((m ((c : Thread nD τ).loc main_arg8)) : S256x4.Idx → EReal) (ix2 k a))
          (fun k a => ((m ((c : Thread nD τ).loc main_arg10)) : S256x4.Idx → EReal) (ix2 k a)) k a := by
  have e : @Eq (S256x8.Idx → EReal) (V m c main_v13)
      (truncf (F := Ideal) .bf16 (concatenate S256x8 1 [⟨S256x4, (m ((c : Thread nD τ).loc main_arg8))⟩, ⟨S256x4, (m ((c : Thread nD τ).loc main_arg10))⟩] Cert.KernelIdeal.Facts₀.concatenates_S256x4_S256x4_S256x8_d1) Cert.KernelIdeal.Facts₀.bitsLt_bf16_f32) := by
    dsimp only [Gen.V, Gen.hostOps0]; after_results
  rw [e]
  unfold Cert.Spec.catW
  by_cases ha : a.val < 4
  · rw [dif_pos ha]
    exact concatenate_pair_apply_left (t := S256x8) (s₁ := S256x4) (s₂ := S256x4) (1 : Fin 2) (m ((c : Thread nD τ).loc main_arg8)) (m ((c : Thread nD τ).loc main_arg10)) Cert.KernelIdeal.Facts₀.concatenates_S256x4_S256x4_S256x8_d1 (ix2 k a) rfl (ix2 k (⟨a.val, ha⟩ : Fin 4) : S256x4.Idx)
      (fun b => match b with | ⟨0, _⟩ => rfl | ⟨1, _⟩ => rfl)
  · rw [dif_neg ha]
    exact concatenate_pair_apply_right (t := S256x8) (s₁ := S256x4) (s₂ := S256x4) (1 : Fin 2) (m ((c : Thread nD τ).loc main_arg8)) (m ((c : Thread nD τ).loc main_arg10)) Cert.KernelIdeal.Facts₀.concatenates_S256x4_S256x4_S256x8_d1 (ix2 k a) rfl rfl (ix2 k (⟨a.val - 4, by omega⟩ : Fin 4) : S256x4.Idx)
      (fun b => match b with | ⟨0, _⟩ => fun _ => rfl | ⟨1, _⟩ => fun hb => absurd rfl hb)
      (by show a.val - 4 + 4 = a.val; omega)

/-- The two heads' biases end to end. -/
theorem v14_apply (a : Fin 8) :
    (V m c main_v14 : S8.Idx → EReal) (ix1 a)
      = Cert.Spec.catB (fun a => ((m ((c : Thread nD τ).loc main_arg9)) : S4.Idx → EReal) (ix1 a))
          (fun a => ((m ((c : Thread nD τ).loc main_arg11)) : S4.Idx → EReal) (ix1 a)) a := by
  have e : @Eq (S8.Idx → EReal) (V m c main_v14)
      (concatenate S8 0 [⟨S4, (m ((c : Thread nD τ).loc main_arg9))⟩, ⟨S4, (m ((c : Thread nD τ).loc main_arg11))⟩] Cert.KernelIdeal.Facts₀.concatenates_S4_S4_S8_d0) := by
    dsimp only [Gen.V, Gen.hostOps0]; after_results
  rw [e]
  unfold Cert.Spec.catB
  by_cases ha : a.val < 4
  · rw [dif_pos ha]
    exact concatenate_pair_apply_left (t := S8) (s₁ := S4) (s₂ := S4) (0 : Fin 1) (m ((c : Thread nD τ).loc main_arg9)) (m ((c : Thread nD τ).loc main_arg11)) Cert.KernelIdeal.Facts₀.concatenates_S4_S4_S8_d0 (ix1 a) rfl (ix1 (⟨a.val, ha⟩ : Fin 4) : S4.Idx)
      (fun b => match b with | ⟨0, _⟩ => rfl)
  · rw [dif_neg ha]
    exact concatenate_pair_apply_right (t := S8) (s₁ := S4) (s₂ := S4) (0 : Fin 1) (m ((c : Thread nD τ).loc main_arg9)) (m ((c : Thread nD τ).loc main_arg11)) Cert.KernelIdeal.Facts₀.concatenates_S4_S4_S8_d0 (ix1 a) rfl rfl (ix1 (⟨a.val - 4, by omega⟩ : Fin 4) : S4.Idx)
      (fun b => match b with | ⟨0, _⟩ => fun hb => absurd rfl hb)
      (by show a.val - 4 + 4 = a.val; omega)

end Cert.KerEntry

end
-- ==== Proof.KerBlocksReads.lean ====
/-
  Where each window's block sits in its array. The grid has sixteen points; at point `t` the two batch inputs
  and the two outputs hold rows `t * 4096 … t * 4096 + 4095` of their arrays, and every weight or bias window
  holds its whole array. Each block is read here at an entry, as the array the region finds at the entry the
  block's position names.
-/
import proofs.«128084_j69887707840990_2_alg».proof.Proof.Gen.KernelIdeal.Value
import Idealize.ShloMosaic.Lib.ValueIdx

noncomputable section

namespace Cert.KerBlocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl

theorem hz1 : (![0] : Fin 1 → Nat) = fun _ => 0 := funext fun a => by fin_cases a; rfl

/-- The printed index maps, decided over the grid: the two batch windows and the two output windows sit at block row
    `t`, column block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- Every weight or bias window sits at block 0 on every axis, at every point. -/
theorem idx_zero : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0
    ∧ (win0_13.index t (0 : Fin 2) = 0 ∧ win0_13.index t (1 : Fin 2) = 0)
    ∧ win0_14.index t (0 : Fin 1) = 0 :=
  (by decide +kernel : ∀ t : Fin grid0.N, _)

/-- Row `r` of window 0's block at point `t` is row `t * 4096 + r` of its argument array. -/
theorem iblk0_apply (c : Dev nD) (t : Fin cfg0.N) (r : Fin 4096) (k : Fin 55) (R : Fin 65536) (hR : R.val = t.val * 4096 + r.val) :
    (iblk m c 0 t : Vec Ideal S4096x55 .f32) (ix2 r k)
      = (m ((c.tc : Thread nD τ).loc main_arg0) : S65536x55.Idx → EReal) (ix2 R k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * r.val = R.val; rw [e0, hR]; omega
  | ⟨1, _⟩ => show win0_0.index t (1 : Fin 2) * 55 + 1 * k.val = k.val; rw [e1]; omega

/-- Row `r` of window 1's block at point `t` is row `t * 4096 + r` of its argument array. -/
theorem iblk1_apply (c : Dev nD) (t : Fin cfg0.N) (r : Fin 4096) (k : Fin 100) (R : Fin 65536) (hR : R.val = t.val * 4096 + r.val) :
    (iblk m c 1 t : Vec Ideal S4096x100 .f32) (ix2 r k)
      = (m ((c.tc : Thread nD τ).loc main_arg1) : S65536x100.Idx → EReal) (ix2 R k) := by
  obtain ⟨-, ⟨e0, e1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 4096 + 1 * r.val = R.val; rw [e0, hR]; omega
  | ⟨1, _⟩ => show win0_1.index t (1 : Fin 2) * 100 + 1 * k.val = k.val; rw [e1]; omega

/-- Window 2's block is its whole array at every point. -/
theorem iblk2_apply (c : Dev nD) (t : Fin cfg0.N) (k : Fin 100) (h : Fin 256) :
    (iblk m c 2 t : Vec Ideal S100x256 .bf16) (ix2 k h) = (V m c main_v1 : S100x256.Idx → EReal) (ix2 k h) := by
  obtain ⟨⟨e0, e1⟩, -⟩ := idx_zero t
  unfold iblk
  rw [View.read_apply]
  show V m c main_v1 _ = _
  refine congrArg _ (funext fun a => Fin.ext ?_)
  match a with
  | ⟨0, _⟩ => show win0_2.index t (0 : Fin 2) * 100 + 1 * k.val = k.val; rw [e0]; omega
  | ⟨1, _⟩ => show win0_2.index t (1 : Fin 2) * 256 + 1 * h.val = h.val; rw [e1]; omega

/-- Window 3's block is its whole array at every point. -/
theorem iblk3_apply (c : Dev nD) (t : Fin cfg0.N) (k : Fin 10) (h : Fin 256) :
    (iblk m c 3 t : Vec Ideal S10x256 .bf16) (ix2 k h) = (V m c main_v3 : S10x256.Idx → EReal) (ix2 k h) := by
  obtain ⟨-, ⟨e0, e1⟩, -⟩ := idx_zero t
  unfold iblk
  rw [View.read_apply]
  show V m c main_v3 _ = _
  refine congrArg _ (funext fun a => Fin.ext ?_)
  match a with
  | ⟨0, _⟩ => show win0_3.index t (0 : Fin 2) * 10 + 1 * k.val = k.val; rw [e0]; omega
  | ⟨1, _⟩ => show win0_3.index t (1 : Fin 2) * 256 + 1 * h.val = h.val; rw [e1]; omega

/-- Window 4's block is its whole array at every point. -/
theorem iblk4_apply (c : Dev nD) (t : Fin cfg0.N) (k : Fin 3) (h : Fin 256) :
    (iblk m c 4 t : Vec Ideal S3x256 .f32) (ix2 k h) = (V m c main_v4 : S3x256.Idx → EReal) (ix2 k h) := by
  obtain ⟨-, -, ⟨e0, e1⟩, -⟩ := idx_zero t
  unfold iblk
  rw [View.read_apply]
  show V m c main_v4 _ = _
  refine congrArg _ (funext fun a => Fin.ext ?_)
  match a with
  | ⟨0, _⟩ => show win0_4.index t (0 : Fin 2) * 3 + 1 * k.val = k.val; rw [e0]; omega
  | ⟨1, _⟩ => show win0_4.index t (1 : Fin 2) * 256 + 1 * h.val = h.val; rw [e1]; omega

/-- Window 5's block is its whole array at every point. -/
theorem iblk5_apply (c : Dev nD) (t : Fin cfg0.N) (k : Fin 15) (h : Fin 256) :
    (iblk m c 5 t : Vec Ideal S15x256 .bf16) (ix2 k h) = (V m c main_v6 : S15x256.Idx → EReal) (ix2 k h) := by
  obtain ⟨-, -, -, ⟨e0, e1⟩, -⟩ := idx_zero t
  unfold iblk
  rw [View.read_apply]
  show V m c main_v6 _ = _
  refine congrArg _ (funext fun a => Fin.ext ?_)
  match a with
  | ⟨0, _⟩ => show win0_5.index t (0 : Fin 2) * 15 + 1 * k.val = k.val; rw [e0]; omega
  | ⟨1, _⟩ => show win0_5.index t (1 : Fin 2) * 256 + 1 * h.val = h.val; rw [e1]; omega

/-- Window 6's block is its whole array at every point. -/
theorem iblk6_apply (c : Dev nD) (t : Fin cfg0.N) (k : Fin 3) (h : Fin 256) :
    (iblk m c 6 t : Vec Ideal S3x256 .f32) (ix2 k h) = (V m c main_v7 : S3x256.Idx → EReal) (ix2 k h) := by
  obtain ⟨-, -, -, -, ⟨e0, e1⟩, -⟩ := idx_zero t
  unfold iblk
  rw [View.read_apply]
  show V m c main_v7 _ = _
  refine congrArg _ (funext fun a => Fin.ext ?_)
  match a with
  | ⟨0, _⟩ => show win0_6.index t (0 : Fin 2) * 3 + 1 * k.val = k.val; rw [e0]; omega
  | ⟨1, _⟩ => show win0_6.index t (1 : Fin 2) * 256 + 1 * h.val = h.val; rw [e1]; omega

/-- Window 7's block is its whole array at every point. -/
theorem iblk7_apply (c : Dev nD) (t : Fin cfg0.N) (k : Fin 15) (h : Fin 256) :
    (iblk m c 7 t : Vec Ideal S15x256 .bf16) (ix2 k h) = (V m c main_v9 : S15x256.Idx → EReal) (ix2 k h) := by
  obtain ⟨-, -, -, -, -, ⟨e0, e1⟩, -⟩ := idx_zero t
  unfold iblk
  rw [View.read_apply]
  show V m c main_v9 _ = _
  refine congrArg _ (funext fun a => Fin.ext ?_)
  match a with
  | ⟨0, _⟩ => show win0_7.index t (0 : Fin 2) * 15 + 1 * k.val = k.val; rw [e0]; omega
  | ⟨1, _⟩ => show win0_7.index t (1 : Fin 2) * 256 + 1 * h.val = h.val; rw [e1]; omega

/-- Window 8's block is its whole array at every point. -/
theorem iblk8_apply (c : Dev nD) (t : Fin cfg0.N) (h : Fin 256) :
    (iblk m c 8 t : Vec Ideal S256 .f32) (ix1 h) = (m ((c.tc : Thread nD τ).loc main_arg3) : S256.Idx → EReal) (ix1 h) := by
  obtain ⟨-, -, -, -, -, -, e0, -⟩ := idx_zero t
  unfold iblk
  rw [View.read_apply]
  show V m c main_arg3 _ = _
  rw [V_main_arg3]
  refine congrArg _ (funext fun a => Fin.ext ?_)
  match a with
  | ⟨0, _⟩ => show win0_8.index t (0 : Fin 1) * 256 + 1 * h.val = h.val; rw [e0]; omega

/-- Window 9's block is its whole array at every point. -/
theorem iblk9_apply (c : Dev nD) (t : Fin cfg0.N) (k : Fin 256) (h : Fin 256) :
    (iblk m c 9 t : Vec Ideal S256x256 .bf16) (ix2 k h) = (V m c main_v10 : S256x256.Idx → EReal) (ix2 k h) := by
  obtain ⟨-, -, -, -, -, -, -, ⟨e0, e1⟩, -⟩ := idx_zero t
  unfold iblk
  rw [View.read_apply]
  show V m c main_v10 _ = _
  refine congrArg _ (funext fun a => Fin.ext ?_)
  match a with
  | ⟨0, _⟩ => show win0_9.index t (0 : Fin 2) * 256 + 1 * k.val = k.val; rw [e0]; omega
  | ⟨1, _⟩ => show win0_9.index t (1 : Fin 2) * 256 + 1 * h.val = h.val; rw [e1]; omega

/-- Window 10's block is its whole array at every point. -/
theorem iblk10_apply (c : Dev nD) (t : Fin cfg0.N) (h : Fin 256) :
    (iblk m c 10 t : Vec Ideal S256 .f32) (ix1 h) = (m ((c.tc : Thread nD τ).loc main_arg5) : S256.Idx → EReal) (ix1 h) := by
  obtain ⟨-, -, -, -, -, -, -, -, e0, -⟩ := idx_zero t
  unfold iblk
  rw [View.read_apply]
  show V m c main_arg5 _ = _
  rw [V_main_arg5]
  refine congrArg _ (funext fun a => Fin.ext ?_)
  match a with
  | ⟨0, _⟩ => show win0_10.index t (0 : Fin 1) * 256 + 1 * h.val = h.val; rw [e0]; omega

/-- Window 11's block is its whole array at every point. -/
theorem iblk11_apply (c : Dev nD) (t : Fin cfg0.N) (k : Fin 256) (h : Fin 256) :
    (iblk m c 11 t : Vec Ideal S256x256 .bf16) (ix2 k h) = (V m c main_v11 : S256x256.Idx → EReal) (ix2 k h) := by
  obtain ⟨-, -, -, -, -, -, -, -, -, ⟨e0, e1⟩, -⟩ := idx_zero t
  unfold iblk
  rw [View.read_apply]
  show V m c main_v11 _ = _
  refine congrArg _ (funext fun a => Fin.ext ?_)
  match a with
  | ⟨0, _⟩ => show win0_11.index t (0 : Fin 2) * 256 + 1 * k.val = k.val; rw [e0]; omega
  | ⟨1, _⟩ => show win0_11.index t (1 : Fin 2) * 256 + 1 * h.val = h.val; rw [e1]; omega

/-- Window 12's block is its whole array at every point. -/
theorem iblk12_apply (c : Dev nD) (t : Fin cfg0.N) (h : Fin 256) :
    (iblk m c 12 t : Vec Ideal S256 .f32) (ix1 h) = (m ((c.tc : Thread nD τ).loc main_arg7) : S256.Idx → EReal) (ix1 h) := by
  obtain ⟨-, -, -, -, -, -, -, -, -, -, e0, -⟩ := idx_zero t
  unfold iblk
  rw [View.read_apply]
  show V m c main_arg7 _ = _
  rw [V_main_arg7]
  refine congrArg _ (funext fun a => Fin.ext ?_)
  match a with
  | ⟨0, _⟩ => show win0_12.index t (0 : Fin 1) * 256 + 1 * h.val = h.val; rw [e0]; omega

/-- Window 13's block is its whole array at every point. -/
theorem iblk13_apply (c : Dev nD) (t : Fin cfg0.N) (k : Fin 256) (h : Fin 8) :
    (iblk m c 13 t : Vec Ideal S256x8 .bf16) (ix2 k h) = (V m c main_v13 : S256x8.Idx → EReal) (ix2 k h) := by
  obtain ⟨-, -, -, -, -, -, -, -, -, -, -, ⟨e0, e1⟩, -⟩ := idx_zero t
  unfold iblk
  rw [View.read_apply]
  show V m c main_v13 _ = _
  refine congrArg _ (funext fun a => Fin.ext ?_)
  match a with
  | ⟨0, _⟩ => show win0_13.index t (0 : Fin 2) * 256 + 1 * k.val = k.val; rw [e0]; omega
  | ⟨1, _⟩ => show win0_13.index t (1 : Fin 2) * 8 + 1 * h.val = h.val; rw [e1]; omega

/-- Window 14's block is its whole array at every point. -/
theorem iblk14_apply (c : Dev nD) (t : Fin cfg0.N) (h : Fin 8) :
    (iblk m c 14 t : Vec Ideal S8 .f32) (ix1 h) = (V m c main_v14 : S8.Idx → EReal) (ix1 h) := by
  obtain ⟨-, -, -, -, -, -, -, -, -, -, -, -, e0⟩ := idx_zero t
  unfold iblk
  rw [View.read_apply]
  show V m c main_v14 _ = _
  refine congrArg _ (funext fun a => Fin.ext ?_)
  match a with
  | ⟨0, _⟩ => show win0_14.index t (0 : Fin 1) * 8 + 1 * h.val = h.val; rw [e0]; omega

end Cert.KerBlocks

end
-- ==== Proof.KerBlocks15.lean ====
/-
  The first (mean) output, from blocks to the whole array. At grid point `t` the body leaves in the output's block,
  at entry `(r, a)`, the split arrangement of row `r` of the loaded blocks read at the first four entries of the 8-wide head;
  the loaded blocks are rows `t * 4096 + r` of the two batch arguments and the whole weight and bias arrays, which
  are the six row blocks of the first weight matrix, the other weights narrowed in place, and the two heads set
  side by side; so the entry is entry `(t * 4096 + r, a)` of the mean array. The sixteen blocks tile the
  65536 rows (row `i` lies in the block of point `i / 4096`), so the array ends as that function of the arguments.
-/
import proofs.«128084_j69887707840990_2_alg».proof.Proof.Gen.KernelIdeal.Value
import proofs.«128084_j69887707840990_2_alg».proof.Proof.KerPay
import proofs.«128084_j69887707840990_2_alg».proof.Proof.Bridge
import proofs.«128084_j69887707840990_2_alg».proof.Proof.KerEntry
import proofs.«128084_j69887707840990_2_alg».proof.Proof.KerBlocksReads

noncomputable section

namespace Cert.KerBlocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What the body leaves in window 15's block, over the loaded blocks as variables: the one store's value. -/
theorem out15_eq (x0 : Vec Ideal S4096x55 .f32) (x1 : Vec Ideal S4096x100 .f32) (x2 : Vec Ideal S100x256 .bf16) (x3 : Vec Ideal S10x256 .bf16) (x4 : Vec Ideal S3x256 .f32) (x5 : Vec Ideal S15x256 .bf16) (x6 : Vec Ideal S3x256 .f32) (x7 : Vec Ideal S15x256 .bf16) (x8 : Vec Ideal S256 .f32) (x9 : Vec Ideal S256x256 .bf16) (x10 : Vec Ideal S256 .f32) (x11 : Vec Ideal S256x256 .bf16) (x12 : Vec Ideal S256 .f32) (x13 : Vec Ideal S256x8 .bf16) (x14 : Vec Ideal S8 .f32) :
    out0_15 x0 x1 x2 x3 x4 x5 x6 x7 x8 x9 x10 x11 x12 x13 x14
      = Value.E15 (F := Ideal) x9 x10 x11 x12 x13 x14 x0 x6 x7 x4 x5 x8 x3 x1 x2 := by
  unfold out0_15
  simp only [View.ld_unit_zero (S := S4096x55) hz2, View.ld_unit_zero (S := S4096x100) hz2, View.ld_unit_zero (S := S100x256) hz2,
    View.ld_unit_zero (S := S10x256) hz2, View.ld_unit_zero (S := S3x256) hz2, View.ld_unit_zero (S := S15x256) hz2,
    View.ld_unit_zero (S := S256) hz1, View.ld_unit_zero (S := S256x256) hz2, View.ld_unit_zero (S := S256x8) hz2,
    View.ld_unit_zero (S := S8) hz1]
  funext y
  exact Value.canon15_eq x9 x10 x11 x12 x13 x14 x0 x6 x7 x4 x5 x8 x3 x1 x2 y

/-- The mean array as the kernel's arguments give it. -/
abbrev meanG (c : Dev nD) : S65536x4.Idx → EReal := Cert.Spec.meanArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- Entry `(r, a)` of the block point `t` leaves is entry `(t * 4096 + r, a)` of the mean array. -/
theorem block15_entry (c : Dev nD) (t : Fin cfg0.N) (y : S4096x4.Idx) (i : S65536x4.Idx)
    (h0 : (i 0).val = t.val * 4096 + (y 0).val) (h1 : (i 1).val = (y 1).val) :
    Value.E15 (F := Ideal) (iblk m c 9 t) (iblk m c 10 t) (iblk m c 11 t) (iblk m c 12 t) (iblk m c 13 t) (iblk m c 14 t) (iblk m c 0 t) (iblk m c 6 t) (iblk m c 7 t) (iblk m c 4 t) (iblk m c 5 t) (iblk m c 8 t) (iblk m c 3 t) (iblk m c 1 t) (iblk m c 2 t) y = meanG m c i := by
  obtain ⟨r, a, rfl⟩ : ∃ (r : Fin 4096) (a : Fin 4), y = ix2 r a := ⟨y 0, y 1, eq_ix2 y⟩
  obtain ⟨R, a', rfl⟩ : ∃ (R : Fin 65536) (a' : Fin 4), i = ix2 R a' := ⟨i 0, i 1, eq_ix2 i⟩
  have hR : R.val = t.val * 4096 + r.val := h0
  obtain rfl : a = a' := Fin.ext h1.symm
  refine (Cert.KerPay.E15_eq (iblk m c 9 t) (iblk m c 10 t) (iblk m c 11 t) (iblk m c 12 t) (iblk m c 13 t) (iblk m c 14 t) (iblk m c 0 t) (iblk m c 6 t) (iblk m c 7 t) (iblk m c 4 t) (iblk m c 5 t) (iblk m c 8 t) (iblk m c 3 t) (iblk m c 1 t) (iblk m c 2 t) r a).trans ?_
  simp only [iblk0_apply m c t r _ R hR, iblk1_apply m c t r _ R hR, iblk2_apply m c t, iblk3_apply m c t, iblk4_apply m c t,
    iblk5_apply m c t, iblk6_apply m c t, iblk7_apply m c t, iblk8_apply m c t, iblk9_apply m c t, iblk10_apply m c t,
    iblk11_apply m c t, iblk12_apply m c t, iblk13_apply m c t, iblk14_apply m c t,
    Cert.KerEntry.v1_apply m c, Cert.KerEntry.v3_apply m c, Cert.KerEntry.v4_apply m c, Cert.KerEntry.v6_apply m c,
    Cert.KerEntry.v7_apply m c, Cert.KerEntry.v9_apply m c, Cert.KerEntry.v10_apply m c, Cert.KerEntry.v11_apply m c,
    Cert.KerEntry.v13_apply m c, Cert.KerEntry.v14_apply m c]
  exact Cert.Spec.kHead_lo (fun k => ((m ((c.tc : Thread nD τ).loc main_arg0)) : S65536x55.Idx → EReal) (ix2 R k)) (fun k => ((m ((c.tc : Thread nD τ).loc main_arg1)) : S65536x100.Idx → EReal) (ix2 R k))
    (fun k h => ((m ((c.tc : Thread nD τ).loc main_arg2)) : S146x256.Idx → EReal) (ix2 k h)) (fun h => ((m ((c.tc : Thread nD τ).loc main_arg3)) : S256.Idx → EReal) (ix1 h))
    (fun h n => ((m ((c.tc : Thread nD τ).loc main_arg4)) : S256x256.Idx → EReal) (ix2 h n)) (fun n => ((m ((c.tc : Thread nD τ).loc main_arg5)) : S256.Idx → EReal) (ix1 n))
    (fun n k => ((m ((c.tc : Thread nD τ).loc main_arg6)) : S256x256.Idx → EReal) (ix2 n k)) (fun k => ((m ((c.tc : Thread nD τ).loc main_arg7)) : S256.Idx → EReal) (ix1 k))
    (fun k a => ((m ((c.tc : Thread nD τ).loc main_arg8)) : S256x4.Idx → EReal) (ix2 k a)) (fun k a => ((m ((c.tc : Thread nD τ).loc main_arg10)) : S256x4.Idx → EReal) (ix2 k a))
    (fun a => ((m ((c.tc : Thread nD τ).loc main_arg9)) : S4.Idx → EReal) (ix1 a)) (fun a => ((m ((c.tc : Thread nD τ).loc main_arg11)) : S4.Idx → EReal) (ix1 a)) a

/-- What point `t` writes back to this output is block `t` of the mean array. -/
theorem flushed15_eq (c : Dev nD) (t : Fin cfg0.N) :
    (dats m 0 c).flushed 15 t = ((cfg0.win 15).blk t).view.read (Elt Ideal) (meanG m c) := by
  rw [Value.flushed15, out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
  obtain ⟨-, -, ⟨e0, e1⟩, -⟩ := idx_facts t
  funext j
  refine block15_entry m c t j (((cfg0.win 15).blk t).view.emb j) ?_ ?_
  · show win0_15.index t (0 : Fin 2) * 4096 + 1 * (j 0).val = t.val * 4096 + (j 0).val
    rw [e0]; omega
  · show win0_15.index t (1 : Fin 2) * 4 + 1 * (j 1).val = (j 1).val
    rw [e1]; omega

/-- An index of the array is in point `t`'s block iff each coordinate is in the block's range on its axis. -/
theorem mem_blk15 (t : Fin cfg0.N) (i : S65536x4.Idx) :
    i ∈ ((cfg0.win 15).blk t).view.set ↔ ∀ a : Fin 2, win0_15.index t a * S4096x4.size a ≤ (i a).val ∧ (i a).val < win0_15.index t a * S4096x4.size a + S4096x4.size a := by
  show i ∈ ((View.whole main_v15_0).slice (win0_15.rect t)).set ↔ _
  rw [View.set_slice_whole, Rect.mem_set_unit]
  exact Iff.rfl

/-- Row `i` lies in the block of point `i / 4096`, which is written back. -/
theorem cover15 (i : S65536x4.Idx) : ∃ t : Fin cfg0.N, (cfg0.win 15).flush t = true ∧ i ∈ ((cfg0.win 15).blk t).view.set := by
  have hN : grid0.N = 16 := N_0
  have hi0 : (i 0).val < 65536 := (i 0).isLt
  have hi1 : (i 1).val < 4 := (i 1).isLt
  let t : Fin cfg0.N := ⟨(i 0).val / 4096, by show _ < grid0.N; omega⟩
  obtain ⟨-, -, ⟨e0, e1⟩, -⟩ := idx_facts t
  have ht : t.val = (i 0).val / 4096 := rfl
  refine ⟨t, flush0_15 t, ?_⟩
  rw [mem_blk15]
  intro a
  match a with
  | ⟨0, _⟩ => show win0_15.index t (0 : Fin 2) * 4096 ≤ (i 0).val ∧ (i 0).val < win0_15.index t (0 : Fin 2) * 4096 + 4096; rw [e0, ht]; omega
  | ⟨1, _⟩ => show win0_15.index t (1 : Fin 2) * 4 ≤ (i 1).val ∧ (i 1).val < win0_15.index t (1 : Fin 2) * 4 + 4; rw [e1]; omega

/-- The array after the run is the mean array. -/
theorem final15 (c : Dev nD) : (dats m 0 c).arrAt 15 cfg0.N = meanG m c :=
  (dats m 0 c).arrAt_eq_of_cover 15 (meanG m c) (fun t _ => flushed15_eq m c t) cover15

end Cert.KerBlocks

end
-- ==== Proof.KerBlocks16.lean ====
/-
  The second (log-deviation) output, from blocks to the whole array. At grid point `t` the body leaves in the output's block,
  at entry `(r, a)`, the split arrangement of row `r` of the loaded blocks read at the last four entries of the 8-wide head, clamped;
  the loaded blocks are rows `t * 4096 + r` of the two batch arguments and the whole weight and bias arrays, which
  are the six row blocks of the first weight matrix, the other weights narrowed in place, and the two heads set
  side by side; so the entry is entry `(t * 4096 + r, a)` of the clamped log-deviation array. The sixteen blocks tile the
  65536 rows (row `i` lies in the block of point `i / 4096`), so the array ends as that function of the arguments.
-/
import proofs.«128084_j69887707840990_2_alg».proof.Proof.Gen.KernelIdeal.Value
import proofs.«128084_j69887707840990_2_alg».proof.Proof.KerPay
import proofs.«128084_j69887707840990_2_alg».proof.Proof.Bridge
import proofs.«128084_j69887707840990_2_alg».proof.Proof.KerEntry
import proofs.«128084_j69887707840990_2_alg».proof.Proof.KerBlocksReads

noncomputable section

namespace Cert.KerBlocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What the body leaves in window 16's block, over the loaded blocks as variables: the one store's value. -/
theorem out16_eq (x0 : Vec Ideal S4096x55 .f32) (x1 : Vec Ideal S4096x100 .f32) (x2 : Vec Ideal S100x256 .bf16) (x3 : Vec Ideal S10x256 .bf16) (x4 : Vec Ideal S3x256 .f32) (x5 : Vec Ideal S15x256 .bf16) (x6 : Vec Ideal S3x256 .f32) (x7 : Vec Ideal S15x256 .bf16) (x8 : Vec Ideal S256 .f32) (x9 : Vec Ideal S256x256 .bf16) (x10 : Vec Ideal S256 .f32) (x11 : Vec Ideal S256x256 .bf16) (x12 : Vec Ideal S256 .f32) (x13 : Vec Ideal S256x8 .bf16) (x14 : Vec Ideal S8 .f32) :
    out0_16 x0 x1 x2 x3 x4 x5 x6 x7 x8 x9 x10 x11 x12 x13 x14
      = Value.E16 (F := Ideal) x9 x10 x11 x12 x13 x14 x0 x6 x7 x4 x5 x8 x3 x1 x2 := by
  unfold out0_16
  simp only [View.ld_unit_zero (S := S4096x55) hz2, View.ld_unit_zero (S := S4096x100) hz2, View.ld_unit_zero (S := S100x256) hz2,
    View.ld_unit_zero (S := S10x256) hz2, View.ld_unit_zero (S := S3x256) hz2, View.ld_unit_zero (S := S15x256) hz2,
    View.ld_unit_zero (S := S256) hz1, View.ld_unit_zero (S := S256x256) hz2, View.ld_unit_zero (S := S256x8) hz2,
    View.ld_unit_zero (S := S8) hz1]
  funext y
  exact Value.canon16_eq x9 x10 x11 x12 x13 x14 x0 x6 x7 x4 x5 x8 x3 x1 x2 y

/-- The clamped log-deviation array as the kernel's arguments give it. -/
abbrev logstdG (c : Dev nD) : S65536x4.Idx → EReal := Cert.Spec.logstdArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))

/-- Entry `(r, a)` of the block point `t` leaves is entry `(t * 4096 + r, a)` of the clamped log-deviation array. -/
theorem block16_entry (c : Dev nD) (t : Fin cfg0.N) (y : S4096x4.Idx) (i : S65536x4.Idx)
    (h0 : (i 0).val = t.val * 4096 + (y 0).val) (h1 : (i 1).val = (y 1).val) :
    Value.E16 (F := Ideal) (iblk m c 9 t) (iblk m c 10 t) (iblk m c 11 t) (iblk m c 12 t) (iblk m c 13 t) (iblk m c 14 t) (iblk m c 0 t) (iblk m c 6 t) (iblk m c 7 t) (iblk m c 4 t) (iblk m c 5 t) (iblk m c 8 t) (iblk m c 3 t) (iblk m c 1 t) (iblk m c 2 t) y = logstdG m c i := by
  obtain ⟨r, a, rfl⟩ : ∃ (r : Fin 4096) (a : Fin 4), y = ix2 r a := ⟨y 0, y 1, eq_ix2 y⟩
  obtain ⟨R, a', rfl⟩ : ∃ (R : Fin 65536) (a' : Fin 4), i = ix2 R a' := ⟨i 0, i 1, eq_ix2 i⟩
  have hR : R.val = t.val * 4096 + r.val := h0
  obtain rfl : a = a' := Fin.ext h1.symm
  refine (Cert.KerPay.E16_eq (iblk m c 9 t) (iblk m c 10 t) (iblk m c 11 t) (iblk m c 12 t) (iblk m c 13 t) (iblk m c 14 t) (iblk m c 0 t) (iblk m c 6 t) (iblk m c 7 t) (iblk m c 4 t) (iblk m c 5 t) (iblk m c 8 t) (iblk m c 3 t) (iblk m c 1 t) (iblk m c 2 t) r a).trans ?_
  simp only [iblk0_apply m c t r _ R hR, iblk1_apply m c t r _ R hR, iblk2_apply m c t, iblk3_apply m c t, iblk4_apply m c t,
    iblk5_apply m c t, iblk6_apply m c t, iblk7_apply m c t, iblk8_apply m c t, iblk9_apply m c t, iblk10_apply m c t,
    iblk11_apply m c t, iblk12_apply m c t, iblk13_apply m c t, iblk14_apply m c t,
    Cert.KerEntry.v1_apply m c, Cert.KerEntry.v3_apply m c, Cert.KerEntry.v4_apply m c, Cert.KerEntry.v6_apply m c,
    Cert.KerEntry.v7_apply m c, Cert.KerEntry.v9_apply m c, Cert.KerEntry.v10_apply m c, Cert.KerEntry.v11_apply m c,
    Cert.KerEntry.v13_apply m c, Cert.KerEntry.v14_apply m c]
  exact congrArg Cert.Spec.clamp (Cert.Spec.kHead_hi (fun k => ((m ((c.tc : Thread nD τ).loc main_arg0)) : S65536x55.Idx → EReal) (ix2 R k)) (fun k => ((m ((c.tc : Thread nD τ).loc main_arg1)) : S65536x100.Idx → EReal) (ix2 R k))
    (fun k h => ((m ((c.tc : Thread nD τ).loc main_arg2)) : S146x256.Idx → EReal) (ix2 k h)) (fun h => ((m ((c.tc : Thread nD τ).loc main_arg3)) : S256.Idx → EReal) (ix1 h))
    (fun h n => ((m ((c.tc : Thread nD τ).loc main_arg4)) : S256x256.Idx → EReal) (ix2 h n)) (fun n => ((m ((c.tc : Thread nD τ).loc main_arg5)) : S256.Idx → EReal) (ix1 n))
    (fun n k => ((m ((c.tc : Thread nD τ).loc main_arg6)) : S256x256.Idx → EReal) (ix2 n k)) (fun k => ((m ((c.tc : Thread nD τ).loc main_arg7)) : S256.Idx → EReal) (ix1 k))
    (fun k a => ((m ((c.tc : Thread nD τ).loc main_arg8)) : S256x4.Idx → EReal) (ix2 k a)) (fun k a => ((m ((c.tc : Thread nD τ).loc main_arg10)) : S256x4.Idx → EReal) (ix2 k a))
    (fun a => ((m ((c.tc : Thread nD τ).loc main_arg9)) : S4.Idx → EReal) (ix1 a)) (fun a => ((m ((c.tc : Thread nD τ).loc main_arg11)) : S4.Idx → EReal) (ix1 a)) a)

/-- What point `t` writes back to this output is block `t` of the clamped log-deviation array. -/
theorem flushed16_eq (c : Dev nD) (t : Fin cfg0.N) :
    (dats m 0 c).flushed 16 t = ((cfg0.win 16).blk t).view.read (Elt Ideal) (logstdG m c) := by
  rw [Value.flushed16, out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
  obtain ⟨-, -, -, ⟨e0, e1⟩⟩ := idx_facts t
  funext j
  refine block16_entry m c t j (((cfg0.win 16).blk t).view.emb j) ?_ ?_
  · show win0_16.index t (0 : Fin 2) * 4096 + 1 * (j 0).val = t.val * 4096 + (j 0).val
    rw [e0]; omega
  · show win0_16.index t (1 : Fin 2) * 4 + 1 * (j 1).val = (j 1).val
    rw [e1]; omega

/-- An index of the array is in point `t`'s block iff each coordinate is in the block's range on its axis. -/
theorem mem_blk16 (t : Fin cfg0.N) (i : S65536x4.Idx) :
    i ∈ ((cfg0.win 16).blk t).view.set ↔ ∀ a : Fin 2, win0_16.index t a * S4096x4.size a ≤ (i a).val ∧ (i a).val < win0_16.index t a * S4096x4.size a + S4096x4.size a := by
  show i ∈ ((View.whole main_v15_1).slice (win0_16.rect t)).set ↔ _
  rw [View.set_slice_whole, Rect.mem_set_unit]
  exact Iff.rfl

/-- Row `i` lies in the block of point `i / 4096`, which is written back. -/
theorem cover16 (i : S65536x4.Idx) : ∃ t : Fin cfg0.N, (cfg0.win 16).flush t = true ∧ i ∈ ((cfg0.win 16).blk t).view.set := by
  have hN : grid0.N = 16 := N_0
  have hi0 : (i 0).val < 65536 := (i 0).isLt
  have hi1 : (i 1).val < 4 := (i 1).isLt
  let t : Fin cfg0.N := ⟨(i 0).val / 4096, by show _ < grid0.N; omega⟩
  obtain ⟨-, -, -, ⟨e0, e1⟩⟩ := idx_facts t
  have ht : t.val = (i 0).val / 4096 := rfl
  refine ⟨t, flush0_16 t, ?_⟩
  rw [mem_blk16]
  intro a
  match a with
  | ⟨0, _⟩ => show win0_16.index t (0 : Fin 2) * 4096 ≤ (i 0).val ∧ (i 0).val < win0_16.index t (0 : Fin 2) * 4096 + 4096; rw [e0, ht]; omega
  | ⟨1, _⟩ => show win0_16.index t (1 : Fin 2) * 4 ≤ (i 1).val ∧ (i 1).val < win0_16.index t (1 : Fin 2) * 4 + 4; rw [e1]; omega

/-- The array after the run is the clamped log-deviation array. -/
theorem final16 (c : Dev nD) : (dats m 0 c).arrAt 16 cfg0.N = logstdG m c :=
  (dats m 0 c).arrAt_eq_of_cover 16 (logstdG m c) (fun t _ => flushed16_eq m c t) cover16

end Cert.KerBlocks

end
-- ==== Proof.KerBlocks.lean ====
/-
  From the blocks the grid points write to the two whole output arrays: the kernel's run with both results
  named as functions of the argument arrays.
-/
import proofs.«128084_j69887707840990_2_alg».proof.Proof.Gen.KernelIdeal.Value
import proofs.«128084_j69887707840990_2_alg».proof.Proof.KerPay
import proofs.«128084_j69887707840990_2_alg».proof.Proof.Bridge
import proofs.«128084_j69887707840990_2_alg».proof.Proof.KerBlocks15
import proofs.«128084_j69887707840990_2_alg».proof.Proof.KerBlocks16

noncomputable section

namespace Cert.KerBlocks

open Cert.KernelIdeal Cert.KernelIdeal.Gen Idealize.ShloMosaic Idealize.ShloMosaic.TcCoe Idealize.SL.Sem Idealize.ShloMosaic.ValueIdx

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15_0) = Cert.Spec.meanArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread nD τ).loc main_v15_1) = Cert.Spec.logstdArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) :=
  (θ_run (defs (F := Ideal)) _ _).mono
    (fun r h c => ⟨(h c).1.trans (final15 m c), (h c).2.1.trans (final16 m c), (h c).2.2⟩)
    (Cert.KernelIdeal.Value.run_blocks (F := Ideal) m ρ)

end Cert.KerBlocks

end
-- ==== Proof.RefTerm.lean ====
/-
  The reference program's two results as pure terms of its twelve argument arrays: the host operations
  composed in the program's own order, cut into named stages — the 3×3 identity table, the three objects
  with their one-hot codes, the two tables of pair indices, the picked objects, the 146-wide input rows,
  the two message layers, their sum over the six pairs, the layer after the sum and the two heads.
-/
import proofs.«128084_j69887707840990_2_alg».proof.ReferenceIdeal
import proofs.«128084_j69887707840990_2_alg».proof.Proof.Gen.ReferenceIdeal

noncomputable section

namespace Cert.RefTerm

open Cert.ReferenceIdeal Cert.ReferenceIdeal.Facts₀ Idealize.ShloMosaic

variable {F : FTy → Type} [FloatOps F]

/-- The 3×3 identity table: 1 where the row number equals the column number. -/
def eye : FVec F S3x3 .f32 :=
  uitofp .f32 (cmpi .eq (addi (iotaInDim S3x3 32 0) (broadcastInDim S3x3 ![] bcast_S_S3x3 (constantI S_ 32 0#32))) (iotaInDim S3x3 32 1))

/-- Each row's three objects, 18 numbers each: the one-hot code, then the object's 15 observation entries. -/
def objs (a0 : FVec F S65536x55 .f32) : FVec F S65536x3x18 .f32 :=
  concatenate S65536x3x18 2
    [⟨S65536x3x3, broadcastInDim S65536x3x3 ![0, 1, 2] bcast_S1x3x3_S65536x3x3_0_1_2 (broadcastInDim S1x3x3 ![1, 2] bcast_S3x3_S1x3x3_1_2 (eye (F := F)))⟩,
     ⟨S65536x3x15, shapeCast S65536x3x15 (extractStridedSlice S65536x45 ![0, 10] a0 slices_S65536x55_S65536x45_0_10) shapeCasts_S65536x45_S65536x3x15⟩]
    concatenates_S65536x3x3_S65536x3x15_S65536x3x18_d2

/-- A table of six object numbers as a 6×1 column of start positions (the never-taken branch for negative
    numbers, "add 3", is kept as the program has it). -/
def column (tab : IVec S6 32) : IVec S6x1 32 :=
  broadcastInDim S6x1 ![0] bcast_S6_S6x1_0
    (select (constantI S6 1 0#1) (addi tab (broadcastInDim S6 ![] bcast_S_S6 (constantI S_ 32 3#32))) tab)

/-- The first objects of the six pairs. -/
def colI : IVec S6x1 32 := column (fun i => lit0 (S6.rowMajor i))
/-- The second objects of the six pairs. -/
def colJ : IVec S6x1 32 := column (fun i => lit1 (S6.rowMajor i))

/-- The objects a column of six numbers picks, pair number first. -/
def picked (a0 : FVec F S65536x55 .f32) (col : IVec S6x1 32) : FVec F S6x65536x18 .f32 :=
  transpose S6x65536x18 [1, 0, 2] (Host.gather gather_S65536x3x18_S6x1_S65536x6x18_02_1_n_n_1_1_65536118 (objs a0) col) transposes_S65536x6x18_S6x65536x18_1_0_2

/-- Embedding and body side by side. -/
def base (a0 : FVec F S65536x55 .f32) (a1 : FVec F S65536x100 .f32) : FVec F S65536x110 .f32 :=
  concatenate S65536x110 1 [⟨S65536x100, a1⟩, ⟨S65536x10, extractStridedSlice S65536x10 ![0, 0] a0 slices_S65536x55_S65536x10_0_0⟩]
    concatenates_S65536x100_S65536x10_S65536x110_d1

/-- The 146-wide input rows of the six pairs. -/
def inp (a0 : FVec F S65536x55 .f32) (a1 : FVec F S65536x100 .f32) : FVec F S6x65536x146 .f32 :=
  concatenate S6x65536x146 2
    [⟨S6x65536x110, broadcastInDim S6x65536x110 ![0, 1, 2] bcast_S1x65536x110_S6x65536x110_0_1_2 (broadcastInDim S1x65536x110 ![1, 2] bcast_S65536x110_S1x65536x110_1_2 (base a0 a1))⟩,
     ⟨S6x65536x18, picked a0 colI⟩, ⟨S6x65536x18, picked a0 colJ⟩]
    concatenates_S6x65536x110_S6x65536x18_S6x65536x18_S6x65536x146_d2

/-- A bias row spread over the six pairs and all batch rows. -/
def bias3 (v : FVec F S256 .f32) : FVec F S6x65536x256 .f32 :=
  broadcastInDim S6x65536x256 ![0, 1, 2] bcast_S1x1x256_S6x65536x256_0_1_2 (broadcastInDim S1x1x256 ![2] bcast_S256_S1x1x256_2 v)

/-- The rectifier on a 6×65536×256 array. -/
def relu3 (x : FVec F S6x65536x256 .f32) : FVec F S6x65536x256 .f32 :=
  maximumf x (broadcastInDim S6x65536x256 ![] bcast_S_S6x65536x256 (constant S_ .f32 0x00000000#32))

/-- First message layer. -/
def hid1 (a0 : FVec F S65536x55 .f32) (a1 : FVec F S65536x100 .f32) (a2 : FVec F S146x256 .f32) (a3 : FVec F S256 .f32) : FVec F S6x65536x256 .f32 :=
  relu3 (addf (Host.dotGeneral dot_S6x65536x146_S146x256_S6x65536x256_2_0_01_1_n_n none (inp a0 a1) a2) (bias3 a3))

/-- Second message layer. -/
def hid2 (a0 : FVec F S65536x55 .f32) (a1 : FVec F S65536x100 .f32) (a2 : FVec F S146x256 .f32) (a3 : FVec F S256 .f32)
    (a4 : FVec F S256x256 .f32) (a5 : FVec F S256 .f32) : FVec F S6x65536x256 .f32 :=
  relu3 (addf (Host.dotGeneral dot_S6x65536x256_S256x256_S6x65536x256_2_0_01_1_n_n none (hid1 a0 a1 a2 a3) a4) (bias3 a5))

/-- The six messages summed. -/
def agg (a0 : FVec F S65536x55 .f32) (a1 : FVec F S65536x100 .f32) (a2 : FVec F S146x256 .f32) (a3 : FVec F S256 .f32)
    (a4 : FVec F S256x256 .f32) (a5 : FVec F S256 .f32) : FVec F S65536x256 .f32 :=
  Host.reduceAdd (hid2 a0 a1 a2 a3 a4 a5) (constant S_ .f32 0x00000000#32) reducesTo_S6x65536x256_S65536x256_d0 h_S_

/-- The layer after the sum. -/
def rho (a0 : FVec F S65536x55 .f32) (a1 : FVec F S65536x100 .f32) (a2 : FVec F S146x256 .f32) (a3 : FVec F S256 .f32)
    (a4 : FVec F S256x256 .f32) (a5 : FVec F S256 .f32) (a6 : FVec F S256x256 .f32) (a7 : FVec F S256 .f32) : FVec F S65536x256 .f32 :=
  maximumf (addf (Host.dotGeneral dot_S65536x256_S256x256_S65536x256_1_0_0_1_n_n none (agg a0 a1 a2 a3 a4 a5) a6)
      (broadcastInDim S65536x256 ![0, 1] bcast_S1x256_S65536x256_0_1 (broadcastInDim S1x256 ![1] bcast_S256_S1x256_1 a7)))
    (broadcastInDim S65536x256 ![] bcast_S_S65536x256 (constant S_ .f32 0x00000000#32))

/-- A 4-wide head over a 65536×256 array. -/
def head (r : FVec F S65536x256 .f32) (hw : FVec F S256x4 .f32) (hb : FVec F S4 .f32) : FVec F S65536x4 .f32 :=
  addf (Host.dotGeneral dot_S65536x256_S256x4_S65536x4_1_0_0_1_n_n none r hw)
    (broadcastInDim S65536x4 ![0, 1] bcast_S1x4_S65536x4_0_1 (broadcastInDim S1x4 ![1] bcast_S4_S1x4_1 hb))

/-- The clamp into [-20, 2] as the program spells it: the lower bound first, then the upper. -/
def clip (x : FVec F S65536x4 .f32) : FVec F S65536x4 .f32 :=
  minimumf (broadcastInDim S65536x4 ![] bcast_S_S65536x4 (id (constant S_ .f32 0x40000000#32)))
    (maximumf (broadcastInDim S65536x4 ![] bcast_S_S65536x4 (id (constant S_ .f32 0xC1A00000#32))) x)

/-- The mean result. -/
def meanT (a0 : FVec F S65536x55 .f32) (a1 : FVec F S65536x100 .f32) (a2 : FVec F S146x256 .f32) (a3 : FVec F S256 .f32)
    (a4 : FVec F S256x256 .f32) (a5 : FVec F S256 .f32) (a6 : FVec F S256x256 .f32) (a7 : FVec F S256 .f32)
    (a8 : FVec F S256x4 .f32) (a9 : FVec F S4 .f32) : FVec F S65536x4 .f32 :=
  head (rho a0 a1 a2 a3 a4 a5 a6 a7) a8 a9

/-- The clamped log-deviation result. -/
def logstdT (a0 : FVec F S65536x55 .f32) (a1 : FVec F S65536x100 .f32) (a2 : FVec F S146x256 .f32) (a3 : FVec F S256 .f32)
    (a4 : FVec F S256x256 .f32) (a5 : FVec F S256 .f32) (a6 : FVec F S256x256 .f32) (a7 : FVec F S256 .f32)
    (a10 : FVec F S256x4 .f32) (a11 : FVec F S4 .f32) : FVec F S65536x4 .f32 :=
  clip (head (rho a0 a1 a2 a3 a4 a5 a6 a7) a10 a11)

end Cert.RefTerm

end
-- ==== Proof.RefRunOps.lean ====
/-
  The reference program's @main as one straight line of its 74 host operations — the three outlined
  functions (the two rectifiers and the clamp) written out at their call sites over the calls' buffer
  records — and the run of that line: every weakly fair execution terminates with every buffer at the
  fold of the operations' results over the launch contents.
-/
import proofs.«128084_j69887707840990_2_alg».proof.Proof.RefTerm
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's 74 operations in order: the first 39 build the six pairs' 146-wide input rows and the first
    dense layer; then a rectifier (three operations: the zero, its broadcast, the maximum), the second dense
    layer, a rectifier, the sum over the six pairs, the third dense layer, a rectifier, the two heads, and the
    clamp's six operations (each bound converted, broadcast and applied: the lower first, then the upper). -/
abbrev ops : List (HloOp τ sig (Elt F)) :=
  [ StableHlo.nullary main_c (fun i => lit0 (S6.rowMajor i)),
    StableHlo.nullary main_c_0 (constantI S6 1 0#1),
    StableHlo.nullary main_c_1 (fun i => lit1 (S6.rowMajor i)),
    StableHlo.nullary main_c_2 (constantI S6 1 0#1),
    StableHlo.unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    StableHlo.unary main_arg0 main_v1 ((extractStridedSlice S65536x45 ![0, 10] · slices_S65536x55_S65536x45_0_10) : (⟨S65536x55, .f32⟩ : BufTy).Contents (Elt F) → (⟨S65536x45, .f32⟩ : BufTy).Contents (Elt F)),
    StableHlo.reshape main_v1 main_v2 rfl shapeCasts_S65536x45_S65536x3x15,
    StableHlo.nullary main_v3 (iotaInDim S3x3 32 0),
    StableHlo.nullary main_v4 (iotaInDim S3x3 32 1),
    StableHlo.nullary main_c_3 (constantI S_ 32 0#32),
    StableHlo.unary main_c_3 main_v5 (broadcastInDim S3x3 ![] bcast_S_S3x3 : (⟨S_, .i32⟩ : BufTy).Contents (Elt F) → (⟨S3x3, .i32⟩ : BufTy).Contents (Elt F)),
    StableHlo.binary main_v3 main_v5 main_v6 (addi : (⟨S3x3, .i32⟩ : BufTy).Contents (Elt F) → (⟨S3x3, .i32⟩ : BufTy).Contents (Elt F) → (⟨S3x3, .i32⟩ : BufTy).Contents (Elt F)),
    StableHlo.binary main_v6 main_v4 main_v7 (cmpi .eq : (⟨S3x3, .i32⟩ : BufTy).Contents (Elt F) → (⟨S3x3, .i32⟩ : BufTy).Contents (Elt F) → (⟨S3x3, .i1⟩ : BufTy).Contents (Elt F)),
    StableHlo.unary main_v7 main_v8 (uitofp .f32 : (⟨S3x3, .i1⟩ : BufTy).Contents (Elt F) → (⟨S3x3, .f32⟩ : BufTy).Contents (Elt F)),
    StableHlo.unary main_v8 main_v9 (broadcastInDim S1x3x3 ![1, 2] bcast_S3x3_S1x3x3_1_2 : (⟨S3x3, .f32⟩ : BufTy).Contents (Elt F) → (⟨S1x3x3, .f32⟩ : BufTy).Contents (Elt F)),
    StableHlo.unary main_v9 main_v10 (broadcastInDim S65536x3x3 ![0, 1, 2] bcast_S1x3x3_S65536x3x3_0_1_2 : (⟨S1x3x3, .f32⟩ : BufTy).Contents (Elt F) → (⟨S65536x3x3, .f32⟩ : BufTy).Contents (Elt F)),
    StableHlo.binary main_v10 main_v2 main_v11 ((fun a b => concatenate S65536x3x18 2 [⟨S65536x3x3, a⟩, ⟨S65536x3x15, b⟩] concatenates_S65536x3x3_S65536x3x15_S65536x3x18_d2) : (⟨S65536x3x3, .f32⟩ : BufTy).Contents (Elt F) → (⟨S65536x3x15, .f32⟩ : BufTy).Contents (Elt F) → (⟨S65536x3x18, .f32⟩ : BufTy).Contents (Elt F)),
    StableHlo.binary main_arg1 main_v0 main_v12 ((fun a b => concatenate S65536x110 1 [⟨S65536x100, a⟩, ⟨S65536x10, b⟩] concatenates_S65536x100_S65536x10_S65536x110_d1) : (⟨S65536x100, .f32⟩ : BufTy).Contents (Elt F) → (⟨S65536x10, .f32⟩ : BufTy).Contents (Elt F) → (⟨S65536x110, .f32⟩ : BufTy).Contents (Elt F)),
    StableHlo.nullary main_c_4 (constantI S_ 32 3#32),
    StableHlo.unary main_c_4 main_v13 (broadcastInDim S6 ![] bcast_S_S6 : (⟨S_, .i32⟩ : BufTy).Contents (Elt F) → (⟨S6, .i32⟩ : BufTy).Contents (Elt F)),
    StableHlo.binary main_c main_v13 main_v14 (addi : (⟨S6, .i32⟩ : BufTy).Contents (Elt F) → (⟨S6, .i32⟩ : BufTy).Contents (Elt F) → (⟨S6, .i32⟩ : BufTy).Contents (Elt F)),
    StableHlo.ternary main_c_0 main_v14 main_c main_v15 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v15 main_v16 (broadcastInDim S6x1 ![0] bcast_S6_S6x1_0 : (⟨S6, .i32⟩ : BufTy).Contents (Elt F) → (⟨S6x1, .i32⟩ : BufTy).Contents (Elt F)),
    StableHlo.binary main_v11 main_v16 main_v17 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    StableHlo.unary main_v17 main_v18 ((transpose S6x65536x18 [1, 0, 2] · transposes_S65536x6x18_S6x65536x18_1_0_2) : (⟨S65536x6x18, .f32⟩ : BufTy).Contents (Elt F) → (⟨S6x65536x18, .f32⟩ : BufTy).Contents (Elt F)),
    StableHlo.nullary main_c_5 (constantI S_ 32 3#32),
    StableHlo.unary main_c_5 main_v19 (broadcastInDim S6 ![] bcast_S_S6 : (⟨S_, .i32⟩ : BufTy).Contents (Elt F) → (⟨S6, .i32⟩ : BufTy).Contents (Elt F)),
    StableHlo.binary main_c_1 main_v19 main_v20 (addi : (⟨S6, .i32⟩ : BufTy).Contents (Elt F) → (⟨S6, .i32⟩ : BufTy).Contents (Elt F) → (⟨S6, .i32⟩ : BufTy).Contents (Elt F)),
    StableHlo.ternary main_c_2 main_v20 main_c_1 main_v21 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v21 main_v22 (broadcastInDim S6x1 ![0] bcast_S6_S6x1_0 : (⟨S6, .i32⟩ : BufTy).Contents (Elt F) → (⟨S6x1, .i32⟩ : BufTy).Contents (Elt F)),
    StableHlo.binary main_v11 main_v22 main_v23 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    StableHlo.unary main_v23 main_v24 ((transpose S6x65536x18 [1, 0, 2] · transposes_S65536x6x18_S6x65536x18_1_0_2) : (⟨S65536x6x18, .f32⟩ : BufTy).Contents (Elt F) → (⟨S6x65536x18, .f32⟩ : BufTy).Contents (Elt F)),
    StableHlo.unary main_v12 main_v25 (broadcastInDim S1x65536x110 ![1, 2] bcast_S65536x110_S1x65536x110_1_2 : (⟨S65536x110, .f32⟩ : BufTy).Contents (Elt F) → (⟨S1x65536x110, .f32⟩ : BufTy).Contents (Elt F)),
    StableHlo.unary main_v25 main_v26 (broadcastInDim S6x65536x110 ![0, 1, 2] bcast_S1x65536x110_S6x65536x110_0_1_2 : (⟨S1x65536x110, .f32⟩ : BufTy).Contents (Elt F) → (⟨S6x65536x110, .f32⟩ : BufTy).Contents (Elt F)),
    StableHlo.nary ![main_v26, main_v18, main_v24] main_v27 (fun u => concatenate S6x65536x146 2 [⟨S6x65536x110, u 0⟩, ⟨S6x65536x18, u 1⟩, ⟨S6x65536x18, u 2⟩] concatenates_S6x65536x110_S6x65536x18_S6x65536x18_S6x65536x146_d2),
    StableHlo.binary main_v27 main_arg2 main_v28 ((fun l r => Host.dotGeneral dot_S6x65536x146_S146x256_S6x65536x256_2_0_01_1_n_n none l r) : (⟨S6x65536x146, .f32⟩ : BufTy).Contents (Elt F) → (⟨S146x256, .f32⟩ : BufTy).Contents (Elt F) → (⟨S6x65536x256, .f32⟩ : BufTy).Contents (Elt F)),
    StableHlo.unary main_arg3 main_v29 (broadcastInDim S1x1x256 ![2] bcast_S256_S1x1x256_2 : (⟨S256, .f32⟩ : BufTy).Contents (Elt F) → (⟨S1x1x256, .f32⟩ : BufTy).Contents (Elt F)),
    StableHlo.unary main_v29 main_v30 (broadcastInDim S6x65536x256 ![0, 1, 2] bcast_S1x1x256_S6x65536x256_0_1_2 : (⟨S1x1x256, .f32⟩ : BufTy).Contents (Elt F) → (⟨S6x65536x256, .f32⟩ : BufTy).Contents (Elt F)),
    StableHlo.binary main_v28 main_v30 main_v31 (addf : (⟨S6x65536x256, .f32⟩ : BufTy).Contents (Elt F) → (⟨S6x65536x256, .f32⟩ : BufTy).Contents (Elt F) → (⟨S6x65536x256, .f32⟩ : BufTy).Contents (Elt F)),
    StableHlo.TRef.nullary main_call0.cst (constant S_ .f32 0x00000000#32),
    StableHlo.TRef.unary main_call0.cst main_call0.v0 (broadcastInDim S6x65536x256 ![] bcast_S_S6x65536x256),
    StableHlo.TRef.binary (.of main_v31 : StableHlo.TRef sig ⟨S6x65536x256, .f32⟩) main_call0.v0 main_call0.v1 maximumf,
    StableHlo.binary main_v32 main_arg4 main_v33 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    StableHlo.unary main_arg5 main_v34 (broadcastInDim S1x1x256 ![2] bcast_S256_S1x1x256_2 : (⟨S256, .f32⟩ : BufTy).Contents (Elt F) → (⟨S1x1x256, .f32⟩ : BufTy).Contents (Elt F)),
    StableHlo.unary main_v34 main_v35 (broadcastInDim S6x65536x256 ![0, 1, 2] bcast_S1x1x256_S6x65536x256_0_1_2 : (⟨S1x1x256, .f32⟩ : BufTy).Contents (Elt F) → (⟨S6x65536x256, .f32⟩ : BufTy).Contents (Elt F)),
    StableHlo.binary main_v33 main_v35 main_v36 (addf : (⟨S6x65536x256, .f32⟩ : BufTy).Contents (Elt F) → (⟨S6x65536x256, .f32⟩ : BufTy).Contents (Elt F) → (⟨S6x65536x256, .f32⟩ : BufTy).Contents (Elt F)),
    StableHlo.TRef.nullary main_call1.cst (constant S_ .f32 0x00000000#32),
    StableHlo.TRef.unary main_call1.cst main_call1.v0 (broadcastInDim S6x65536x256 ![] bcast_S_S6x65536x256),
    StableHlo.TRef.binary (.of main_v36 : StableHlo.TRef sig ⟨S6x65536x256, .f32⟩) main_call1.v0 main_call1.v1 maximumf,
    StableHlo.nullary main_cst (constant S_ .f32 0x00000000#32),
    StableHlo.binary main_v37 main_cst main_v38 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    StableHlo.binary main_v38 main_arg6 main_v39 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg7 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S65536x256 ![0, 1] bcast_S1x256_S65536x256_0_1 : (⟨S1x256, .f32⟩ : BufTy).Contents (Elt F) → (⟨S65536x256, .f32⟩ : BufTy).Contents (Elt F)),
    StableHlo.binary main_v39 main_v41 main_v42 (addf : (⟨S65536x256, .f32⟩ : BufTy).Contents (Elt F) → (⟨S65536x256, .f32⟩ : BufTy).Contents (Elt F) → (⟨S65536x256, .f32⟩ : BufTy).Contents (Elt F)),
    StableHlo.TRef.nullary main_call2.cst (constant S_ .f32 0x00000000#32),
    StableHlo.TRef.unary main_call2.cst main_call2.v0 (broadcastInDim S65536x256 ![] bcast_S_S65536x256),
    StableHlo.TRef.binary (.of main_v42 : StableHlo.TRef sig ⟨S65536x256, .f32⟩) main_call2.v0 main_call2.v1 maximumf,
    StableHlo.binary main_v43 main_arg8 main_v44 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    StableHlo.unary main_arg9 main_v45 (broadcastInDim S1x4 ![1] bcast_S4_S1x4_1 : (⟨S4, .f32⟩ : BufTy).Contents (Elt F) → (⟨S1x4, .f32⟩ : BufTy).Contents (Elt F)),
    StableHlo.unary main_v45 main_v46 (broadcastInDim S65536x4 ![0, 1] bcast_S1x4_S65536x4_0_1 : (⟨S1x4, .f32⟩ : BufTy).Contents (Elt F) → (⟨S65536x4, .f32⟩ : BufTy).Contents (Elt F)),
    StableHlo.binary main_v44 main_v46 main_v47 (addf : (⟨S65536x4, .f32⟩ : BufTy).Contents (Elt F) → (⟨S65536x4, .f32⟩ : BufTy).Contents (Elt F) → (⟨S65536x4, .f32⟩ : BufTy).Contents (Elt F)),
    StableHlo.binary main_v43 main_arg10 main_v48 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    StableHlo.unary main_arg11 main_v49 (broadcastInDim S1x4 ![1] bcast_S4_S1x4_1 : (⟨S4, .f32⟩ : BufTy).Contents (Elt F) → (⟨S1x4, .f32⟩ : BufTy).Contents (Elt F)),
    StableHlo.unary main_v49 main_v50 (broadcastInDim S65536x4 ![0, 1] bcast_S1x4_S65536x4_0_1 : (⟨S1x4, .f32⟩ : BufTy).Contents (Elt F) → (⟨S65536x4, .f32⟩ : BufTy).Contents (Elt F)),
    StableHlo.binary main_v48 main_v50 main_v51 (addf : (⟨S65536x4, .f32⟩ : BufTy).Contents (Elt F) → (⟨S65536x4, .f32⟩ : BufTy).Contents (Elt F) → (⟨S65536x4, .f32⟩ : BufTy).Contents (Elt F)),
    StableHlo.nullary main_cst_6 (constant S_ .f32 0xC1A00000#32),
    StableHlo.nullary main_cst_7 (constant S_ .f32 0x40000000#32),
    StableHlo.TRef.unary (.of main_cst_6 : StableHlo.TRef sig ⟨S_, .f32⟩) main_call3.v0 id,
    StableHlo.TRef.unary main_call3.v0 main_call3.v1 (broadcastInDim S65536x4 ![] bcast_S_S65536x4),
    StableHlo.TRef.binary main_call3.v1 (.of main_v51 : StableHlo.TRef sig ⟨S65536x4, .f32⟩) main_call3.v2 maximumf,
    StableHlo.TRef.unary (.of main_cst_7 : StableHlo.TRef sig ⟨S_, .f32⟩) main_call3.v3 id,
    StableHlo.TRef.unary main_call3.v3 main_call3.v4 (broadcastInDim S65536x4 ![] bcast_S_S65536x4),
    StableHlo.TRef.binary main_call3.v4 main_call3.v2 main_call3.v5 minimumf ]

-- sixty-four statements re-associated: the rewrite under the chain recurses once per statement
set_option maxRecDepth 4096 in
set_option maxHeartbeats 4000000 in
/-- @main is that straight line: its two windows and the three functions' bodies unfolded at their calls,
    both sides are one chain of steps once sequencing is re-associated. -/
theorem main_eq (c : Dev nD) : main (F := F) c = seq ops := by
  simp only [main, main_part0, main_part1, fn_relu.body, fn_relu_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    reshape_bufs_sub .., nullary_bufs_sub .., nullary_bufs_sub .., nullary_bufs_sub .., unary_bufs_sub .., binary_bufs_sub ..,
    binary_bufs_sub .., unary_bufs_sub .., unary_bufs_sub .., unary_bufs_sub .., binary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., binary_bufs_sub .., ternary_bufs_sub .., unary_bufs_sub ..,
    binary_bufs_sub .., unary_bufs_sub .., unary_bufs_sub .., unary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

/-- On every device, for any float values, from any memory with zero counters: every weakly fair execution of
    @main terminates, and every final state has each buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LibNary3.lean ====
/-
  A general lemma on a host operation of THREE operands, each of its own type (a `stablehlo.concatenate` of
  three tensors, printed `nary ![x, a, b] y (fun u => g (u 0) (u 1) (u 2))`): its result is `g` of the three
  operands' contents, each read at its own reference — so that a fold over a line of operations can go on
  rewriting the operands' contents, which it cannot do under the binder of the family `fun k => ![x, a, b] k`.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family `![x, a, b]` of three references whose function reads
    the family at its three entries: that function of the three operands' contents. -/
theorem nary3_result
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary_result _ _ _ hxs hy F

/-- The same, stated for `simp`: the result reference left out of the pattern's index. -/
theorem nary3_result'
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary3_result g hxs hy F

end Cert.LibNary3

end
-- ==== Proof.RefRunRead.lean ====
/-
  What the reference's line of operations leaves in its two result buffers and in its twelve argument
  buffers: the fold of the operations' results read at each of them — the composed stage terms of the
  argument arrays at the results, the launch contents at the arguments.
-/
import proofs.«128084_j69887707840990_2_alg».proof.Proof.RefRunOps
import proofs.«128084_j69887707840990_2_alg».proof.Proof.LibNary3

noncomputable section

namespace Cert.RefRun

open Cert.ReferenceIdeal Cert.ReferenceIdeal.Facts₀ Idealize.ShloMosaic Idealize.ShloMosaic.TcCoe Idealize.SL.Sem Idealize.ShloMosaic.StableHlo
open Cert.LibNary3

variable {F : FTy → Type} [FloatOps F]

/-! The three concatenations as plain functions of their operands: a fold's rewriting reaches the operands of a
    plain function, not the entries of the list of shaped arrays the concatenation takes. -/

/-- The one-hot codes and the objects' entries side by side. -/
def objsCat (a : FVec F S65536x3x3 .f32) (b : FVec F S65536x3x15 .f32) : FVec F S65536x3x18 .f32 :=
  concatenate S65536x3x18 2 [⟨S65536x3x3, a⟩, ⟨S65536x3x15, b⟩] concatenates_S65536x3x3_S65536x3x15_S65536x3x18_d2
/-- The embedding and the body entries side by side. -/
def baseCat (a : FVec F S65536x100 .f32) (b : FVec F S65536x10 .f32) : FVec F S65536x110 .f32 :=
  concatenate S65536x110 1 [⟨S65536x100, a⟩, ⟨S65536x10, b⟩] concatenates_S65536x100_S65536x10_S65536x110_d1
/-- The shared part and the two picked objects side by side. -/
def inpCat (a : FVec F S6x65536x110 .f32) (b c : FVec F S6x65536x18 .f32) : FVec F S6x65536x146 .f32 :=
  concatenate S6x65536x146 2 [⟨S6x65536x110, a⟩, ⟨S6x65536x18, b⟩, ⟨S6x65536x18, c⟩]
    concatenates_S6x65536x110_S6x65536x18_S6x65536x18_S6x65536x146_d2

theorem objsCat_eq (a : FVec F S65536x3x3 .f32) (b : FVec F S65536x3x15 .f32) (h) :
    concatenate S65536x3x18 2 [⟨S65536x3x3, a⟩, ⟨S65536x3x15, b⟩] h = objsCat a b := rfl
theorem baseCat_eq (a : FVec F S65536x100 .f32) (b : FVec F S65536x10 .f32) (h) :
    concatenate S65536x110 1 [⟨S65536x100, a⟩, ⟨S65536x10, b⟩] h = baseCat a b := rfl

/-- The three-operand concatenation that builds the input rows, its operands read at their own buffers. -/
theorem cat3_result' (hxs hy) (W : Valuation τ sig (Elt F)) :
    (nary (τ := τ) (Val := Elt F) ![main_v26, main_v18, main_v24] main_v27
        (fun u => concatenate S6x65536x146 2 [⟨S6x65536x110, u 0⟩, ⟨S6x65536x18, u 1⟩, ⟨S6x65536x18, u 2⟩]
          concatenates_S6x65536x110_S6x65536x18_S6x65536x18_S6x65536x146_d2) hxs hy).result W (no_index (Proc.devRef .tc main_v27))
      = inpCat (W (Proc.devRef .tc main_v26)) (W (Proc.devRef .tc main_v18)) (W (Proc.devRef .tc main_v24)) :=
  nary3_result' (x := main_v26) (a := main_v18) (b := main_v24) (y := main_v27)
    (fun p q r => concatenate S6x65536x146 2 [⟨S6x65536x110, p⟩, ⟨S6x65536x18, q⟩, ⟨S6x65536x18, r⟩]
      concatenates_S6x65536x110_S6x65536x18_S6x65536x18_S6x65536x146_d2) hxs hy W

/-- The fold at one buffer, by one pass: the fold unrolled, each operation's result at its own result buffer
    rewritten to its function's value and at any other reference to what was there (the two references told
    apart by computation); each concatenation read as the plain function of its operands. -/
macro "fold_results" : tactic =>
  `(tactic| (simp (disch := decide) only [after_cons, after_nil,
      nullary_result', unary_result', binary_result', ternary_result', reshape_result', cat3_result', objsCat_eq, baseCat_eq,
      nullary_result_ne', unary_result_ne', binary_result_ne', ternary_result_ne', reshape_result_ne', nary_result_ne']))

attribute [local irreducible] Host.gather Host.reduceAdd in
set_option maxRecDepth 8192 in
set_option maxHeartbeats 4000000 in
/-- The mean result buffer after the line: the mean head over the stages of the argument arrays. The fold's
    value and the stage terms are the same composition of the same operations, so once the fold is rewritten the
    two sides agree by unfolding the stages' names (the gather and the sum over pairs are kept folded: the
    comparison never looks inside them). -/
theorem mean_eq (V : Valuation τ sig (Elt F)) :
    after ops V (main_v47 : DevRef τ sig) = Cert.RefTerm.meanT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  fold_results
  rfl

attribute [local irreducible] Host.gather Host.reduceAdd in
set_option maxRecDepth 8192 in
set_option maxHeartbeats 4000000 in
/-- The log-deviation result buffer after the line: the clamped head over the same stages. -/
theorem logstd_eq (V : Valuation τ sig (Elt F)) :
    after ops V (main_v52 : DevRef τ sig) = Cert.RefTerm.logstdT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg10 : DevRef τ sig)) (V (main_arg11 : DevRef τ sig)) := by
  fold_results
  rfl

/-! No operation of the line writes an argument buffer: each keeps its launch contents. -/

theorem arg0_eq (V : Valuation τ sig (Elt F)) :
    after ops V (main_arg0 : DevRef τ sig) = V (main_arg0 : DevRef τ sig) := by
  fold_results

theorem arg1_eq (V : Valuation τ sig (Elt F)) :
    after ops V (main_arg1 : DevRef τ sig) = V (main_arg1 : DevRef τ sig) := by
  fold_results

theorem arg2_eq (V : Valuation τ sig (Elt F)) :
    after ops V (main_arg2 : DevRef τ sig) = V (main_arg2 : DevRef τ sig) := by
  fold_results

theorem arg3_eq (V : Valuation τ sig (Elt F)) :
    after ops V (main_arg3 : DevRef τ sig) = V (main_arg3 : DevRef τ sig) := by
  fold_results

theorem arg4_eq (V : Valuation τ sig (Elt F)) :
    after ops V (main_arg4 : DevRef τ sig) = V (main_arg4 : DevRef τ sig) := by
  fold_results

theorem arg5_eq (V : Valuation τ sig (Elt F)) :
    after ops V (main_arg5 : DevRef τ sig) = V (main_arg5 : DevRef τ sig) := by
  fold_results

theorem arg6_eq (V : Valuation τ sig (Elt F)) :
    after ops V (main_arg6 : DevRef τ sig) = V (main_arg6 : DevRef τ sig) := by
  fold_results

theorem arg7_eq (V : Valuation τ sig (Elt F)) :
    after ops V (main_arg7 : DevRef τ sig) = V (main_arg7 : DevRef τ sig) := by
  fold_results

theorem arg8_eq (V : Valuation τ sig (Elt F)) :
    after ops V (main_arg8 : DevRef τ sig) = V (main_arg8 : DevRef τ sig) := by
  fold_results

theorem arg9_eq (V : Valuation τ sig (Elt F)) :
    after ops V (main_arg9 : DevRef τ sig) = V (main_arg9 : DevRef τ sig) := by
  fold_results

theorem arg10_eq (V : Valuation τ sig (Elt F)) :
    after ops V (main_arg10 : DevRef τ sig) = V (main_arg10 : DevRef τ sig) := by
  fold_results

theorem arg11_eq (V : Valuation τ sig (Elt F)) :
    after ops V (main_arg11 : DevRef τ sig) = V (main_arg11 : DevRef τ sig) := by
  fold_results

end Cert.RefRun

end
-- ==== Proof.RefRun.lean ====
/-
  The reference program's run: every weakly fair execution terminates, the two result buffers hold the
  composed stage terms of the argument arrays and the arguments are unchanged. The run of the program's
  line of operations gives every buffer at the fold of the operations' results; the fold is then read at the
  two result buffers and at the twelve argument buffers.
-/
import proofs.«128084_j69887707840990_2_alg».proof.Proof.RefTerm
import proofs.«128084_j69887707840990_2_alg».proof.Proof.RefRunRead
import Idealize.ShloMosaic.Lib.StableHlo.Run
import Idealize.ShloMosaic.PureOps.Ideal

noncomputable section

namespace Cert.RefRun

open Cert.ReferenceIdeal Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = Cert.RefTerm.meanT (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread nD τ).loc main_v52) = Cert.RefTerm.logstdT (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  (θ_run defs _ _).mono (fun _ h c => ⟨(h c main_v47).trans (mean_eq _),
      (h c main_v52).trans (logstd_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _),
      (h c main_arg6).trans (arg6_eq _), (h c main_arg7).trans (arg7_eq _), (h c main_arg8).trans (arg8_eq _), (h c main_arg9).trans (arg9_eq _), (h c main_arg10).trans (arg10_eq _), (h c main_arg11).trans (arg11_eq _)⟩)
    (run_after m ρ)

end Cert.RefRun

end
-- ==== Proof.RefInpObjs.lean ====
/-
  The three objects of a batch row, read at an entry.

  The 3×3 identity table is one where the row number equals the column number and zero elsewhere. Each row's
  objects are 18 numbers: the object's row of the identity table (its one-hot code), then its fifteen
  observation entries, which lie in the 55-wide observation row from place 10 on, object after object
  (the 45 numbers cut into three runs of fifteen, in row-major order).
-/
import proofs.«128084_j69887707840990_2_alg».proof.Proof.RefTerm
import proofs.«128084_j69887707840990_2_alg».proof.Proof.Spec
import Idealize.ShloMosaic.Lib.ValueLayout
import Idealize.ShloMosaic.Lib.IdealHost
import Idealize.ShloMosaic.Lib.Pipeline.Value

noncomputable section

namespace Cert.RefInp

open Cert.ReferenceIdeal Cert.ReferenceIdeal.Facts₀ Idealize.ShloMosaic Idealize.ShloMosaic.ValueIdx

/-- The identity table at an entry: one on the diagonal, zero off it. -/
theorem eye_apply (o k : Fin 3) : Cert.RefTerm.eye (F := Ideal) (ix2 o k) = if o.val = k.val then 1 else 0 := by
  unfold Cert.RefTerm.eye
  show (((IntOp.cmpi .eq (IntOp.addi (BitVec.ofNat 32 o.val) 0#32) (BitVec.ofNat 32 k.val)).toNat : ℝ) : EReal) = _
  fin_cases o <;> fin_cases k <;> simp [IntOp.cmpi, IntOp.addi]

/-- The three objects of a batch row at an entry: the one-hot code in the first three places, then the
    object's fifteen observation entries, which sit in the observation row from place 10 on, object after object. -/
theorem objs_apply (a0 : FVec Ideal S65536x55 .f32) (b : Fin 65536) (o : Fin 3) (k : Fin 18) :
    Cert.RefTerm.objs (F := Ideal) a0 (ix3 b o k) = Cert.Spec.obj (fun k => a0 (ix2 b k)) o k := by
  unfold Cert.RefTerm.objs Cert.Spec.obj
  by_cases hk : k.val < 3
  · rw [if_pos hk]
    refine (concatenate_pair_apply_left (t := S65536x3x18) (s₁ := S65536x3x3) (s₂ := S65536x3x15) (2 : Fin 3) _ _ concatenates_S65536x3x3_S65536x3x15_S65536x3x18_d2
      (ix3 b o k) rfl (ix3 b o (⟨k.val, hk⟩ : Fin 3)) ?_).trans ?_
    · intro c
      match c with
      | ⟨0, _⟩ => rfl
      | ⟨1, _⟩ => rfl
      | ⟨2, _⟩ => rfl
    refine (broadcastInDim_apply (s := S1x3x3) (t := S65536x3x3) _ _ _ (ix3 b o (⟨k.val, hk⟩ : Fin 3)) (ix3 (0 : Fin 1) o (⟨k.val, hk⟩ : Fin 3)) ?_).trans ?_
    · intro c
      match c with
      | ⟨0, _⟩ => rfl
      | ⟨1, _⟩ => rfl
      | ⟨2, _⟩ => rfl
    refine (broadcastInDim_apply (s := S3x3) (t := S1x3x3) _ _ _ (ix3 (0 : Fin 1) o (⟨k.val, hk⟩ : Fin 3)) (ix2 o (⟨k.val, hk⟩ : Fin 3)) ?_).trans ?_
    · intro c
      match c with
      | ⟨0, _⟩ => rfl
      | ⟨1, _⟩ => rfl
    exact eye_apply o ⟨k.val, hk⟩
  · rw [if_neg hk]
    have hk18 := k.isLt
    have ho := o.isLt
    refine (concatenate_pair_apply_right (t := S65536x3x18) (s₁ := S65536x3x3) (s₂ := S65536x3x15) (2 : Fin 3) _ _ concatenates_S65536x3x3_S65536x3x15_S65536x3x18_d2
      (ix3 b o k) rfl rfl (ix3 b o (⟨k.val - 3, by omega⟩ : Fin 15)) ?_ ?_).trans ?_
    · intro c hc
      match c with
      | ⟨0, _⟩ => rfl
      | ⟨1, _⟩ => rfl
      | ⟨2, _⟩ => exact absurd rfl hc
    · show (k.val - 3) + 3 = k.val
      omega
    refine (shapeCast_apply (s := S65536x45) (t := S65536x3x15) _ _ (ix3 b o (⟨k.val - 3, by omega⟩ : Fin 15))
      (ix2 b (⟨15 * o.val + (k.val - 3), by omega⟩ : Fin 45)) ?_).trans ?_
    · rw [Shape.rowMajor_val_two, Shape.rowMajor_val_three]
      show b.val * 45 + (15 * o.val + (k.val - 3)) = (b.val * 3 + o.val) * 15 + (k.val - 3)
      omega
    exact slice2_axis1_apply 10 a0 _ b _ ⟨10 + 15 * o.val + (k.val - 3), by omega⟩ (by show 10 + 15 * o.val + (k.val - 3) = 10 + (15 * o.val + (k.val - 3)); omega)

end Cert.RefInp

end
-- ==== Proof.RefInpPicked.lean ====
/-
  The objects a table of pair numbers picks, read at an entry.

  A lookup along the object axis of the 65536×3×18 array of objects, at a column of six start positions, gives
  for batch row `b`, pair `p` and entry `k` the row's object whose number stands at place `p` of the column,
  that number read as a signed integer and clamped into 0…2; swapping the first two axes puts the pair number
  first. The two columns hold the literal tables 0,0,1,1,2,2 and 1,2,0,2,0,1: the first and the second object
  of the six ordered pairs.
-/
import proofs.«128084_j69887707840990_2_alg».proof.Proof.RefInpObjs

noncomputable section

namespace Cert.RefInp

open Cert.ReferenceIdeal Cert.ReferenceIdeal.Facts₀ Idealize.ShloMosaic Idealize.ShloMosaic.ValueIdx

/-- A table of six numbers as a column of start positions, read at a place: the never-taken branch drops out. -/
theorem column_apply (tab : IVec S6 32) (p : Fin 6) : Cert.RefTerm.column tab (ix2 p (0 : Fin 1)) = tab (ix1 p) := by
  unfold Cert.RefTerm.column
  refine (broadcastInDim_apply (s := S6) (t := S6x1) _ _ _ (ix2 p (0 : Fin 1)) (ix1 p) ?_).trans ?_
  · intro c
    match c with
    | ⟨0, _⟩ => rfl
  exact select_zero _ _

/-- The lookup of one object per pair read at an entry: batch row `b`, the object the column names at place `p`
    (read signed and clamped into 0…2), entry `k`. -/
theorem gather_apply {α : Type} (x : S65536x3x18.Idx → α) (col : IVec S6x1 32) (b : Fin 65536) (p : Fin 6) (k : Fin 18) :
    Host.gather gather_S65536x3x18_S6x1_S65536x6x18_02_1_n_n_1_1_65536118 x col (ix3 b p k)
      = x (ix3 b (⟨min (col (ix2 p (0 : Fin 1))).toInt.toNat 2, by omega⟩ : Fin 3) k) := by
  unfold Host.gather
  congr 1
  funext a
  refine Fin.ext ?_
  have h01 : ¬ (0 : Fin 3) ∈ ([1] : List (Fin 3)) := by decide
  have h21 : ¬ (2 : Fin 3) ∈ ([1] : List (Fin 3)) := by decide
  match a with
  | ⟨0, _⟩ =>
    show gather_S65536x3x18_S6x1_S65536x6x18_02_1_n_n_1_1_65536118.start (ix3 b p k) col 0 + gather_S65536x3x18_S6x1_S65536x6x18_02_1_n_n_1_1_65536118.batchCoord (ix3 b p k) 0
      + gather_S65536x3x18_S6x1_S65536x6x18_02_1_n_n_1_1_65536118.offCoord (ix3 b p k) 0 = b.val
    rw [GatherDims.batchCoord_eq_zero _ _ _ List.not_mem_nil]
    unfold GatherDims.start
    rw [dif_neg (show ¬ (0 : Fin 3) ∈ gather_S65536x3x18_S6x1_S65536x6x18_02_1_n_n_1_1_65536118.startIndexMap from h01)]
    unfold GatherDims.offCoord
    rw [dif_pos (show (0 : Fin 3) ∈ gather_S65536x3x18_S6x1_S65536x6x18_02_1_n_n_1_1_65536118.sKept from
      (GatherDims.mem_sKept _ _).mpr ⟨h01, List.not_mem_nil⟩)]
    have key : ∀ (q : Nat) (hq : q < ([0, 2] : List (Fin 3)).length), q = 0 →
        (ix3 b p k (([0, 2] : List (Fin 3))[q]'hq)).val = b.val := by
      intro q hq hq0
      subst hq0; rfl
    simp only [Nat.zero_add]
    exact key _ _ (by decide)
  | ⟨1, _⟩ =>
    show gather_S65536x3x18_S6x1_S65536x6x18_02_1_n_n_1_1_65536118.start (ix3 b p k) col 1 + gather_S65536x3x18_S6x1_S65536x6x18_02_1_n_n_1_1_65536118.batchCoord (ix3 b p k) 1
      + gather_S65536x3x18_S6x1_S65536x6x18_02_1_n_n_1_1_65536118.offCoord (ix3 b p k) 1 = min (col (ix2 p (0 : Fin 1))).toInt.toNat 2
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S65536x3x18_S6x1_S65536x6x18_02_1_n_n_1_1_65536118.startIndexMap from List.mem_singleton.mpr rfl)]
    have hsi : gather_S65536x3x18_S6x1_S65536x6x18_02_1_n_n_1_1_65536118.siIdx (ix3 b p k) ⟨List.idxOf (1 : Fin 3) gather_S65536x3x18_S6x1_S65536x6x18_02_1_n_n_1_1_65536118.startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨2, _⟩ =>
    show gather_S65536x3x18_S6x1_S65536x6x18_02_1_n_n_1_1_65536118.start (ix3 b p k) col 2 + gather_S65536x3x18_S6x1_S65536x6x18_02_1_n_n_1_1_65536118.batchCoord (ix3 b p k) 2
      + gather_S65536x3x18_S6x1_S65536x6x18_02_1_n_n_1_1_65536118.offCoord (ix3 b p k) 2 = k.val
    rw [GatherDims.batchCoord_eq_zero _ _ _ List.not_mem_nil]
    unfold GatherDims.start
    rw [dif_neg (show ¬ (2 : Fin 3) ∈ gather_S65536x3x18_S6x1_S65536x6x18_02_1_n_n_1_1_65536118.startIndexMap from h21)]
    unfold GatherDims.offCoord
    rw [dif_pos (show (2 : Fin 3) ∈ gather_S65536x3x18_S6x1_S65536x6x18_02_1_n_n_1_1_65536118.sKept from
      (GatherDims.mem_sKept _ _).mpr ⟨h21, List.not_mem_nil⟩)]
    have key : ∀ (q : Nat) (hq : q < ([0, 2] : List (Fin 3)).length), q = 1 →
        (ix3 b p k (([0, 2] : List (Fin 3))[q]'hq)).val = k.val := by
      intro q hq hq1
      subst hq1; rfl
    simp only [Nat.zero_add]
    exact key _ _ (by decide)

/-- The picked objects at an entry: pair `p`, batch row `b`, entry `k` is the row's object that the column names at
    place `p`. -/
theorem picked_apply (a0 : FVec Ideal S65536x55 .f32) (col : IVec S6x1 32) (p : Fin 6) (b : Fin 65536) (k : Fin 18) :
    Cert.RefTerm.picked (F := Ideal) a0 col (ix3 p b k)
      = Cert.RefTerm.objs (F := Ideal) a0 (ix3 b (⟨min (col (ix2 p (0 : Fin 1))).toInt.toNat 2, by omega⟩ : Fin 3) k) := by
  unfold Cert.RefTerm.picked
  refine (transpose_apply (s := S65536x6x18) (t := S6x65536x18) _ _ _ (ix3 p b k) (ix3 b p k) ?_).trans ?_
  · intro c
    match c with
    | ⟨0, _⟩ => rfl
    | ⟨1, _⟩ => rfl
    | ⟨2, _⟩ => rfl
  exact gather_apply _ col b p k

/-- The first table of pair numbers names each pair's first object. -/
theorem colI_pick (p : Fin 6) :
    (⟨min (Cert.RefTerm.colI (ix2 p (0 : Fin 1))).toInt.toNat 2, by omega⟩ : Fin 3) = Cert.Spec.pairI p := by
  refine Fin.ext ?_
  show min (Cert.RefTerm.colI (ix2 p (0 : Fin 1))).toInt.toNat 2 = (Cert.Spec.pairI p).val
  unfold Cert.RefTerm.colI
  rw [column_apply]
  have hrm : S6.rowMajor (ix1 p) = p := Fin.ext (Shape.rowMajor_val_one _)
  rw [hrm]
  fin_cases p <;> rfl

/-- The second table of pair numbers names each pair's second object. -/
theorem colJ_pick (p : Fin 6) :
    (⟨min (Cert.RefTerm.colJ (ix2 p (0 : Fin 1))).toInt.toNat 2, by omega⟩ : Fin 3) = Cert.Spec.pairJ p := by
  refine Fin.ext ?_
  show min (Cert.RefTerm.colJ (ix2 p (0 : Fin 1))).toInt.toNat 2 = (Cert.Spec.pairJ p).val
  unfold Cert.RefTerm.colJ
  rw [column_apply]
  have hrm : S6.rowMajor (ix1 p) = p := Fin.ext (Shape.rowMajor_val_one _)
  rw [hrm]
  fin_cases p <;> rfl

/-- The first picked objects at an entry. -/
theorem pickedI_apply (a0 : FVec Ideal S65536x55 .f32) (p : Fin 6) (b : Fin 65536) (k : Fin 18) :
    Cert.RefTerm.picked (F := Ideal) a0 Cert.RefTerm.colI (ix3 p b k)
      = Cert.Spec.obj (fun k => a0 (ix2 b k)) (Cert.Spec.pairI p) k := by
  rw [picked_apply, colI_pick, objs_apply]

/-- The second picked objects at an entry. -/
theorem pickedJ_apply (a0 : FVec Ideal S65536x55 .f32) (p : Fin 6) (b : Fin 65536) (k : Fin 18) :
    Cert.RefTerm.picked (F := Ideal) a0 Cert.RefTerm.colJ (ix3 p b k)
      = Cert.Spec.obj (fun k => a0 (ix2 b k)) (Cert.Spec.pairJ p) k := by
  rw [picked_apply, colJ_pick, objs_apply]

end Cert.RefInp

end
-- ==== Proof.RefInp.lean ====
/-
  The 146-wide input rows of the six pairs, read at an entry.

  The rows are three arrays set side by side along the last axis: columns 0–109 hold the batch row's embedding
  (100 numbers) and body (the observation's first 10), the same for all six pairs; columns 110–127 hold the
  pair's first object and columns 128–145 its second, 18 numbers each.
-/
import proofs.«128084_j69887707840990_2_alg».proof.Proof.RefTerm
import proofs.«128084_j69887707840990_2_alg».proof.Proof.Spec
import proofs.«128084_j69887707840990_2_alg».proof.Proof.RefInpPicked

noncomputable section

namespace Cert.RefInp

open Cert.ReferenceIdeal Cert.ReferenceIdeal.Facts₀ Idealize.ShloMosaic Idealize.ShloMosaic.ValueIdx

/-- Embedding and body side by side, at an entry. -/
theorem base_apply (a0 : FVec Ideal S65536x55 .f32) (a1 : FVec Ideal S65536x100 .f32) (b : Fin 65536) (k : Fin 110) :
    Cert.RefTerm.base (F := Ideal) a0 a1 (ix2 b k)
      = if h : k.val < 100 then a1 (ix2 b ⟨k.val, h⟩) else a0 (ix2 b ⟨k.val - 100, by omega⟩) := by
  unfold Cert.RefTerm.base
  have hk110 := k.isLt
  by_cases h : k.val < 100
  · rw [dif_pos h]
    exact concatenate_pair_apply_left (t := S65536x110) (s₁ := S65536x100) (s₂ := S65536x10) (1 : Fin 2) _ _
      concatenates_S65536x100_S65536x10_S65536x110_d1 (ix2 b k) rfl (ix2 b (⟨k.val, h⟩ : Fin 100))
      (fun c => match c with | ⟨0, _⟩ => rfl | ⟨1, _⟩ => rfl)
  · rw [dif_neg h]
    refine (concatenate_pair_apply_right (t := S65536x110) (s₁ := S65536x100) (s₂ := S65536x10) (1 : Fin 2) _ _
      concatenates_S65536x100_S65536x10_S65536x110_d1 (ix2 b k) rfl rfl (ix2 b (⟨k.val - 100, by omega⟩ : Fin 10)) ?_ ?_).trans ?_
    · intro c hc
      match c with
      | ⟨0, _⟩ => rfl
      | ⟨1, _⟩ => exact absurd rfl hc
    · show (k.val - 100) + 100 = k.val
      omega
    exact slice2_axis1_apply 0 a0 _ b _ ⟨k.val - 100, by omega⟩ (by show k.val - 100 = 0 + (k.val - 100); omega)

theorem inp_apply (a0 : FVec Ideal S65536x55 .f32) (a1 : FVec Ideal S65536x100 .f32) (p : Fin 6) (b : Fin 65536) (k : Fin 146) :
    Cert.RefTerm.inp (F := Ideal) a0 a1 (ix3 p b k) = Cert.Spec.inp (fun k => a0 (ix2 b k)) (fun k => a1 (ix2 b k)) p k := by
  unfold Cert.RefTerm.inp Cert.Spec.inp
  have hk146 := k.isLt
  by_cases h : k.val < 110
  · -- the shared columns: embedding, then body
    refine (concatenate_apply_piece (t := S6x65536x146) (2 : Fin 3) _ _ (ix3 p b k)
      0 (by show (0 : Nat) < 3; omega) S6x65536x110 _ rfl rfl 0 rfl (ix3 p b (⟨k.val, h⟩ : Fin 110)) ?_ ?_).trans ?_
    · intro c hc
      match c with
      | ⟨0, _⟩ => rfl
      | ⟨1, _⟩ => rfl
      | ⟨2, _⟩ => exact absurd rfl hc
    · show 0 + k.val = k.val
      omega
    refine (broadcastInDim_apply (s := S1x65536x110) (t := S6x65536x110) _ _ _ (ix3 p b (⟨k.val, h⟩ : Fin 110))
      (ix3 (0 : Fin 1) b (⟨k.val, h⟩ : Fin 110)) ?_).trans ?_
    · intro c
      match c with
      | ⟨0, _⟩ => rfl
      | ⟨1, _⟩ => rfl
      | ⟨2, _⟩ => rfl
    refine (broadcastInDim_apply (s := S65536x110) (t := S1x65536x110) _ _ _ (ix3 (0 : Fin 1) b (⟨k.val, h⟩ : Fin 110))
      (ix2 b (⟨k.val, h⟩ : Fin 110)) ?_).trans ?_
    · intro c
      match c with
      | ⟨0, _⟩ => rfl
      | ⟨1, _⟩ => rfl
    rw [base_apply]
    by_cases h1 : k.val < 100
    · rw [dif_pos h1, dif_pos h1]
    · rw [dif_neg h1, dif_neg h1, dif_pos h]
  · have h1 : ¬ k.val < 100 := by omega
    rw [dif_neg h1, dif_neg h]
    by_cases h3 : k.val < 128
    · -- the pair's first object
      rw [dif_pos h3]
      refine (concatenate_apply_piece (t := S6x65536x146) (2 : Fin 3) _ _ (ix3 p b k)
        1 (by show (1 : Nat) < 3; omega) S6x65536x18 _ rfl rfl 110 rfl (ix3 p b (⟨k.val - 110, by omega⟩ : Fin 18)) ?_ ?_).trans ?_
      · intro c hc
        match c with
        | ⟨0, _⟩ => rfl
        | ⟨1, _⟩ => rfl
        | ⟨2, _⟩ => exact absurd rfl hc
      · show 110 + (k.val - 110) = k.val
        omega
      exact pickedI_apply a0 p b _
    · -- the pair's second object
      rw [dif_neg h3]
      refine (concatenate_apply_piece (t := S6x65536x146) (2 : Fin 3) _ _ (ix3 p b k)
        2 (by show (2 : Nat) < 3; omega) S6x65536x18 _ rfl rfl 128 rfl (ix3 p b (⟨k.val - 128, by omega⟩ : Fin 18)) ?_ ?_).trans ?_
      · intro c hc
        match c with
        | ⟨0, _⟩ => rfl
        | ⟨1, _⟩ => rfl
        | ⟨2, _⟩ => exact absurd rfl hc
      · show 128 + (k.val - 128) = k.val
        omega
      exact pickedJ_apply a0 p b _

end Cert.RefInp

end
-- ==== Proof.RefLayersDots.lean ====
/-
  The reference's four matrix products and its sum over the six pairs, each read at one entry.

  A product of a 6×65536×K stack (or a 65536×K matrix) with a K×N matrix, contracting the last axis of the
  left operand with the first of the right, is at the entry (p, b, h) (or (b, h)) the sum over the contracted
  coordinate k of left(p, b, k) · right(k, h): the contraction's index set has one axis, so its sum is
  re-indexed by that axis's coordinate.  For each product the operand indices' coordinates come first (a kept
  axis reads the result index, the contracted axis reads the contraction index), then the entry.  The sum over
  the first axis of a 6×65536×256 array, started from the zero word, is at (b, n) the sum over p of the array
  at (p, b, n).
-/
import proofs.«128084_j69887707840990_2_alg».proof.Proof.RefTerm
import Idealize.ShloMosaic.Lib.ValueIdx
import Idealize.ShloMosaic.PureOps.Ideal.Laws

noncomputable section

open scoped BigOperators

namespace Cert.RefLayersDots

open Cert.ReferenceIdeal Cert.ReferenceIdeal.Facts₀ Idealize.ShloMosaic Idealize.ShloMosaic.ValueIdx

theorem dot146_apply_lhs0 (i : S6x65536x256.Idx) (q : dot_S6x65536x146_S146x256_S6x65536x256_2_0_01_1_n_n.contr.Idx) :
    (dot_S6x65536x146_S146x256_S6x65536x256_2_0_01_1_n_n.lhsIdx i q 0).val = (i 0).val := by
  unfold DotDims.lhsIdx
  rw [dif_neg (show ¬(0 : Fin S6x65536x146.rank) ∈ dot_S6x65536x146_S146x256_S6x65536x256_2_0_01_1_n_n.lhsBatch by decide), dif_pos (show (0 : Fin S6x65536x146.rank) ∈ dot_S6x65536x146_S146x256_S6x65536x256_2_0_01_1_n_n.lhsNonContracting by decide)]
  rfl

theorem dot146_apply_lhs1 (i : S6x65536x256.Idx) (q : dot_S6x65536x146_S146x256_S6x65536x256_2_0_01_1_n_n.contr.Idx) :
    (dot_S6x65536x146_S146x256_S6x65536x256_2_0_01_1_n_n.lhsIdx i q 1).val = (i 1).val := by
  unfold DotDims.lhsIdx
  rw [dif_neg (show ¬(1 : Fin S6x65536x146.rank) ∈ dot_S6x65536x146_S146x256_S6x65536x256_2_0_01_1_n_n.lhsBatch by decide), dif_pos (show (1 : Fin S6x65536x146.rank) ∈ dot_S6x65536x146_S146x256_S6x65536x256_2_0_01_1_n_n.lhsNonContracting by decide)]
  rfl

theorem dot146_apply_lhs2 (i : S6x65536x256.Idx) (q : dot_S6x65536x146_S146x256_S6x65536x256_2_0_01_1_n_n.contr.Idx) :
    (dot_S6x65536x146_S146x256_S6x65536x256_2_0_01_1_n_n.lhsIdx i q 2).val = (q ⟨0, by decide⟩).val :=
  dot_S6x65536x146_S146x256_S6x65536x256_2_0_01_1_n_n.lhsIdx_val_of_single rfl i q

theorem dot146_apply_rhs0 (i : S6x65536x256.Idx) (q : dot_S6x65536x146_S146x256_S6x65536x256_2_0_01_1_n_n.contr.Idx) :
    (dot_S6x65536x146_S146x256_S6x65536x256_2_0_01_1_n_n.rhsIdx i q 0).val = (q ⟨0, by decide⟩).val :=
  dot_S6x65536x146_S146x256_S6x65536x256_2_0_01_1_n_n.rhsIdx_val_of_single rfl i q

theorem dot146_apply_rhs1 (i : S6x65536x256.Idx) (q : dot_S6x65536x146_S146x256_S6x65536x256_2_0_01_1_n_n.contr.Idx) :
    (dot_S6x65536x146_S146x256_S6x65536x256_2_0_01_1_n_n.rhsIdx i q 1).val = (i 2).val := by
  unfold DotDims.rhsIdx
  rw [dif_neg (show ¬(1 : Fin S146x256.rank) ∈ dot_S6x65536x146_S146x256_S6x65536x256_2_0_01_1_n_n.rhsBatch by decide), dif_pos (show (1 : Fin S146x256.rank) ∈ dot_S6x65536x146_S146x256_S6x65536x256_2_0_01_1_n_n.rhsNonContracting by decide)]
  rfl

/-- The first layer's product at (p, b, h): the 146-wide row of pair p, batch row b, against column h. -/
theorem dot146_apply (x : FVec Ideal S6x65536x146 .f32) (w : FVec Ideal S146x256 .f32) (p : Fin 6) (b : Fin 65536) (h : Fin 256) :
    Host.dotGeneral (F := Ideal) dot_S6x65536x146_S146x256_S6x65536x256_2_0_01_1_n_n none x w (ix3 p b h)
      = ∑ k : Fin 146, x (ix3 p b k) * w (ix2 k h) := by
  simp only [Host.dotGeneral]
  rw [Ideal.dotGeneral_apply, ← Equiv.sum_comp (contrEquiv1 dot_S6x65536x146_S146x256_S6x65536x256_2_0_01_1_n_n 146 rfl rfl).symm]
  refine Finset.sum_congr rfl fun k _ => ?_
  have hk := contrEquiv1_symm_val dot_S6x65536x146_S146x256_S6x65536x256_2_0_01_1_n_n 146 rfl rfl k
  have el : dot_S6x65536x146_S146x256_S6x65536x256_2_0_01_1_n_n.lhsIdx (ix3 p b h) ((contrEquiv1 dot_S6x65536x146_S146x256_S6x65536x256_2_0_01_1_n_n 146 rfl rfl).symm k) = ix3 p b k := funext fun a => Fin.ext (by
    match a with
    | ⟨0, _⟩ => exact dot146_apply_lhs0 _ _
    | ⟨1, _⟩ => exact dot146_apply_lhs1 _ _
    | ⟨2, _⟩ => exact (dot146_apply_lhs2 _ _).trans hk)
  have er : dot_S6x65536x146_S146x256_S6x65536x256_2_0_01_1_n_n.rhsIdx (ix3 p b h) ((contrEquiv1 dot_S6x65536x146_S146x256_S6x65536x256_2_0_01_1_n_n 146 rfl rfl).symm k) = ix2 k h := funext fun a => Fin.ext (by
    match a with
    | ⟨0, _⟩ => exact (dot146_apply_rhs0 _ _).trans hk
    | ⟨1, _⟩ => exact dot146_apply_rhs1 _ _)
  rw [el, er]

theorem dot256_apply_lhs0 (i : S6x65536x256.Idx) (q : dot_S6x65536x256_S256x256_S6x65536x256_2_0_01_1_n_n.contr.Idx) :
    (dot_S6x65536x256_S256x256_S6x65536x256_2_0_01_1_n_n.lhsIdx i q 0).val = (i 0).val := by
  unfold DotDims.lhsIdx
  rw [dif_neg (show ¬(0 : Fin S6x65536x256.rank) ∈ dot_S6x65536x256_S256x256_S6x65536x256_2_0_01_1_n_n.lhsBatch by decide), dif_pos (show (0 : Fin S6x65536x256.rank) ∈ dot_S6x65536x256_S256x256_S6x65536x256_2_0_01_1_n_n.lhsNonContracting by decide)]
  rfl

theorem dot256_apply_lhs1 (i : S6x65536x256.Idx) (q : dot_S6x65536x256_S256x256_S6x65536x256_2_0_01_1_n_n.contr.Idx) :
    (dot_S6x65536x256_S256x256_S6x65536x256_2_0_01_1_n_n.lhsIdx i q 1).val = (i 1).val := by
  unfold DotDims.lhsIdx
  rw [dif_neg (show ¬(1 : Fin S6x65536x256.rank) ∈ dot_S6x65536x256_S256x256_S6x65536x256_2_0_01_1_n_n.lhsBatch by decide), dif_pos (show (1 : Fin S6x65536x256.rank) ∈ dot_S6x65536x256_S256x256_S6x65536x256_2_0_01_1_n_n.lhsNonContracting by decide)]
  rfl

theorem dot256_apply_lhs2 (i : S6x65536x256.Idx) (q : dot_S6x65536x256_S256x256_S6x65536x256_2_0_01_1_n_n.contr.Idx) :
    (dot_S6x65536x256_S256x256_S6x65536x256_2_0_01_1_n_n.lhsIdx i q 2).val = (q ⟨0, by decide⟩).val :=
  dot_S6x65536x256_S256x256_S6x65536x256_2_0_01_1_n_n.lhsIdx_val_of_single rfl i q

theorem dot256_apply_rhs0 (i : S6x65536x256.Idx) (q : dot_S6x65536x256_S256x256_S6x65536x256_2_0_01_1_n_n.contr.Idx) :
    (dot_S6x65536x256_S256x256_S6x65536x256_2_0_01_1_n_n.rhsIdx i q 0).val = (q ⟨0, by decide⟩).val :=
  dot_S6x65536x256_S256x256_S6x65536x256_2_0_01_1_n_n.rhsIdx_val_of_single rfl i q

theorem dot256_apply_rhs1 (i : S6x65536x256.Idx) (q : dot_S6x65536x256_S256x256_S6x65536x256_2_0_01_1_n_n.contr.Idx) :
    (dot_S6x65536x256_S256x256_S6x65536x256_2_0_01_1_n_n.rhsIdx i q 1).val = (i 2).val := by
  unfold DotDims.rhsIdx
  rw [dif_neg (show ¬(1 : Fin S256x256.rank) ∈ dot_S6x65536x256_S256x256_S6x65536x256_2_0_01_1_n_n.rhsBatch by decide), dif_pos (show (1 : Fin S256x256.rank) ∈ dot_S6x65536x256_S256x256_S6x65536x256_2_0_01_1_n_n.rhsNonContracting by decide)]
  rfl

/-- The second layer's product at (p, b, n). -/
theorem dot256_apply (x : FVec Ideal S6x65536x256 .f32) (w : FVec Ideal S256x256 .f32) (p : Fin 6) (b : Fin 65536) (h : Fin 256) :
    Host.dotGeneral (F := Ideal) dot_S6x65536x256_S256x256_S6x65536x256_2_0_01_1_n_n none x w (ix3 p b h)
      = ∑ k : Fin 256, x (ix3 p b k) * w (ix2 k h) := by
  simp only [Host.dotGeneral]
  rw [Ideal.dotGeneral_apply, ← Equiv.sum_comp (contrEquiv1 dot_S6x65536x256_S256x256_S6x65536x256_2_0_01_1_n_n 256 rfl rfl).symm]
  refine Finset.sum_congr rfl fun k _ => ?_
  have hk := contrEquiv1_symm_val dot_S6x65536x256_S256x256_S6x65536x256_2_0_01_1_n_n 256 rfl rfl k
  have el : dot_S6x65536x256_S256x256_S6x65536x256_2_0_01_1_n_n.lhsIdx (ix3 p b h) ((contrEquiv1 dot_S6x65536x256_S256x256_S6x65536x256_2_0_01_1_n_n 256 rfl rfl).symm k) = ix3 p b k := funext fun a => Fin.ext (by
    match a with
    | ⟨0, _⟩ => exact dot256_apply_lhs0 _ _
    | ⟨1, _⟩ => exact dot256_apply_lhs1 _ _
    | ⟨2, _⟩ => exact (dot256_apply_lhs2 _ _).trans hk)
  have er : dot_S6x65536x256_S256x256_S6x65536x256_2_0_01_1_n_n.rhsIdx (ix3 p b h) ((contrEquiv1 dot_S6x65536x256_S256x256_S6x65536x256_2_0_01_1_n_n 256 rfl rfl).symm k) = ix2 k h := funext fun a => Fin.ext (by
    match a with
    | ⟨0, _⟩ => exact (dot256_apply_rhs0 _ _).trans hk
    | ⟨1, _⟩ => exact dot256_apply_rhs1 _ _)
  rw [el, er]

theorem dotRho_apply_lhs0 (i : S65536x256.Idx) (q : dot_S65536x256_S256x256_S65536x256_1_0_0_1_n_n.contr.Idx) :
    (dot_S65536x256_S256x256_S65536x256_1_0_0_1_n_n.lhsIdx i q 0).val = (i 0).val := by
  unfold DotDims.lhsIdx
  rw [dif_neg (show ¬(0 : Fin S65536x256.rank) ∈ dot_S65536x256_S256x256_S65536x256_1_0_0_1_n_n.lhsBatch by decide), dif_pos (show (0 : Fin S65536x256.rank) ∈ dot_S65536x256_S256x256_S65536x256_1_0_0_1_n_n.lhsNonContracting by decide)]
  rfl

theorem dotRho_apply_lhs1 (i : S65536x256.Idx) (q : dot_S65536x256_S256x256_S65536x256_1_0_0_1_n_n.contr.Idx) :
    (dot_S65536x256_S256x256_S65536x256_1_0_0_1_n_n.lhsIdx i q 1).val = (q ⟨0, by decide⟩).val :=
  dot_S65536x256_S256x256_S65536x256_1_0_0_1_n_n.lhsIdx_val_of_single rfl i q

theorem dotRho_apply_rhs0 (i : S65536x256.Idx) (q : dot_S65536x256_S256x256_S65536x256_1_0_0_1_n_n.contr.Idx) :
    (dot_S65536x256_S256x256_S65536x256_1_0_0_1_n_n.rhsIdx i q 0).val = (q ⟨0, by decide⟩).val :=
  dot_S65536x256_S256x256_S65536x256_1_0_0_1_n_n.rhsIdx_val_of_single rfl i q

theorem dotRho_apply_rhs1 (i : S65536x256.Idx) (q : dot_S65536x256_S256x256_S65536x256_1_0_0_1_n_n.contr.Idx) :
    (dot_S65536x256_S256x256_S65536x256_1_0_0_1_n_n.rhsIdx i q 1).val = (i 1).val := by
  unfold DotDims.rhsIdx
  rw [dif_neg (show ¬(1 : Fin S256x256.rank) ∈ dot_S65536x256_S256x256_S65536x256_1_0_0_1_n_n.rhsBatch by decide), dif_pos (show (1 : Fin S256x256.rank) ∈ dot_S65536x256_S256x256_S65536x256_1_0_0_1_n_n.rhsNonContracting by decide)]
  rfl

/-- The product of the layer after the sum at (b, k). -/
theorem dotRho_apply (x : FVec Ideal S65536x256 .f32) (w : FVec Ideal S256x256 .f32) (b : Fin 65536) (h : Fin 256) :
    Host.dotGeneral (F := Ideal) dot_S65536x256_S256x256_S65536x256_1_0_0_1_n_n none x w (ix2 b h)
      = ∑ k : Fin 256, x (ix2 b k) * w (ix2 k h) := by
  simp only [Host.dotGeneral]
  rw [Ideal.dotGeneral_apply, ← Equiv.sum_comp (contrEquiv1 dot_S65536x256_S256x256_S65536x256_1_0_0_1_n_n 256 rfl rfl).symm]
  refine Finset.sum_congr rfl fun k _ => ?_
  have hk := contrEquiv1_symm_val dot_S65536x256_S256x256_S65536x256_1_0_0_1_n_n 256 rfl rfl k
  have el : dot_S65536x256_S256x256_S65536x256_1_0_0_1_n_n.lhsIdx (ix2 b h) ((contrEquiv1 dot_S65536x256_S256x256_S65536x256_1_0_0_1_n_n 256 rfl rfl).symm k) = ix2 b k := funext fun a => Fin.ext (by
    match a with
    | ⟨0, _⟩ => exact dotRho_apply_lhs0 _ _
    | ⟨1, _⟩ => exact (dotRho_apply_lhs1 _ _).trans hk)
  have er : dot_S65536x256_S256x256_S65536x256_1_0_0_1_n_n.rhsIdx (ix2 b h) ((contrEquiv1 dot_S65536x256_S256x256_S65536x256_1_0_0_1_n_n 256 rfl rfl).symm k) = ix2 k h := funext fun a => Fin.ext (by
    match a with
    | ⟨0, _⟩ => exact (dotRho_apply_rhs0 _ _).trans hk
    | ⟨1, _⟩ => exact dotRho_apply_rhs1 _ _)
  rw [el, er]

theorem dotHead_apply_lhs0 (i : S65536x4.Idx) (q : dot_S65536x256_S256x4_S65536x4_1_0_0_1_n_n.contr.Idx) :
    (dot_S65536x256_S256x4_S65536x4_1_0_0_1_n_n.lhsIdx i q 0).val = (i 0).val := by
  unfold DotDims.lhsIdx
  rw [dif_neg (show ¬(0 : Fin S65536x256.rank) ∈ dot_S65536x256_S256x4_S65536x4_1_0_0_1_n_n.lhsBatch by decide), dif_pos (show (0 : Fin S65536x256.rank) ∈ dot_S65536x256_S256x4_S65536x4_1_0_0_1_n_n.lhsNonContracting by decide)]
  rfl

theorem dotHead_apply_lhs1 (i : S65536x4.Idx) (q : dot_S65536x256_S256x4_S65536x4_1_0_0_1_n_n.contr.Idx) :
    (dot_S65536x256_S256x4_S65536x4_1_0_0_1_n_n.lhsIdx i q 1).val = (q ⟨0, by decide⟩).val :=
  dot_S65536x256_S256x4_S65536x4_1_0_0_1_n_n.lhsIdx_val_of_single rfl i q

theorem dotHead_apply_rhs0 (i : S65536x4.Idx) (q : dot_S65536x256_S256x4_S65536x4_1_0_0_1_n_n.contr.Idx) :
    (dot_S65536x256_S256x4_S65536x4_1_0_0_1_n_n.rhsIdx i q 0).val = (q ⟨0, by decide⟩).val :=
  dot_S65536x256_S256x4_S65536x4_1_0_0_1_n_n.rhsIdx_val_of_single rfl i q

theorem dotHead_apply_rhs1 (i : S65536x4.Idx) (q : dot_S65536x256_S256x4_S65536x4_1_0_0_1_n_n.contr.Idx) :
    (dot_S65536x256_S256x4_S65536x4_1_0_0_1_n_n.rhsIdx i q 1).val = (i 1).val := by
  unfold DotDims.rhsIdx
  rw [dif_neg (show ¬(1 : Fin S256x4.rank) ∈ dot_S65536x256_S256x4_S65536x4_1_0_0_1_n_n.rhsBatch by decide), dif_pos (show (1 : Fin S256x4.rank) ∈ dot_S65536x256_S256x4_S65536x4_1_0_0_1_n_n.rhsNonContracting by decide)]
  rfl

/-- A head's product at (b, a). -/
theorem dotHead_apply (x : FVec Ideal S65536x256 .f32) (w : FVec Ideal S256x4 .f32) (b : Fin 65536) (h : Fin 4) :
    Host.dotGeneral (F := Ideal) dot_S65536x256_S256x4_S65536x4_1_0_0_1_n_n none x w (ix2 b h)
      = ∑ k : Fin 256, x (ix2 b k) * w (ix2 k h) := by
  simp only [Host.dotGeneral]
  rw [Ideal.dotGeneral_apply, ← Equiv.sum_comp (contrEquiv1 dot_S65536x256_S256x4_S65536x4_1_0_0_1_n_n 256 rfl rfl).symm]
  refine Finset.sum_congr rfl fun k _ => ?_
  have hk := contrEquiv1_symm_val dot_S65536x256_S256x4_S65536x4_1_0_0_1_n_n 256 rfl rfl k
  have el : dot_S65536x256_S256x4_S65536x4_1_0_0_1_n_n.lhsIdx (ix2 b h) ((contrEquiv1 dot_S65536x256_S256x4_S65536x4_1_0_0_1_n_n 256 rfl rfl).symm k) = ix2 b k := funext fun a => Fin.ext (by
    match a with
    | ⟨0, _⟩ => exact dotHead_apply_lhs0 _ _
    | ⟨1, _⟩ => exact (dotHead_apply_lhs1 _ _).trans hk)
  have er : dot_S65536x256_S256x4_S65536x4_1_0_0_1_n_n.rhsIdx (ix2 b h) ((contrEquiv1 dot_S65536x256_S256x4_S65536x4_1_0_0_1_n_n 256 rfl rfl).symm k) = ix2 k h := funext fun a => Fin.ext (by
    match a with
    | ⟨0, _⟩ => exact (dotHead_apply_rhs0 _ _).trans hk
    | ⟨1, _⟩ => exact dotHead_apply_rhs1 _ _)
  rw [el, er]

/-- The sum over the six pairs, started from the zero word, at (b, n): the bare sum over p, since 0 + x = x. -/
theorem sumPairs_apply (x : FVec Ideal S6x65536x256 .f32) (b : Fin 65536) (n : Fin 256) :
    Host.reduceAdd (F := Ideal) x (constant (F := Ideal) S_ .f32 0x00000000#32) reducesTo_S6x65536x256_S65536x256_d0 h_S_ (ix2 b n)
      = ∑ p : Fin 6, x (ix3 p b n) := by
  simp only [Host.reduceAdd, Ideal.hostReduceAdd_def]
  rw [Ideal.hostReduceAdd_single reducesTo_S6x65536x256_S65536x256_d0 (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl))

end Cert.RefLayersDots

end
-- ==== Proof.RefLayersBias.lean ====
/-
  The reference's pointwise stages read at one entry: a bias row spread over the six pairs and all batch
  rows, a bias row spread down the rows of a matrix, the rectifier on a 6×65536×256 array and on a 65536×256
  matrix, and the clamp into [-20, 2].  A spread array reads the one entry of its operand that the kept axis
  names; the rectifier's spread zero word is the extended real 0.
-/
import proofs.«128084_j69887707840990_2_alg».proof.Proof.RefTerm
import proofs.«128084_j69887707840990_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.RefLayersBias

open Cert.ReferenceIdeal Cert.ReferenceIdeal.Facts₀ Idealize.ShloMosaic Idealize.ShloMosaic.ValueIdx

/-- A bias row spread over the six pairs and all batch rows reads, at (p, b, h), its entry h. -/
theorem bias3_apply (v : FVec Ideal S256 .f32) (p : Fin 6) (b : Fin 65536) (h : Fin 256) :
    Cert.RefTerm.bias3 (F := Ideal) v (ix3 p b h) = v (ix1 h) := by
  unfold Cert.RefTerm.bias3
  refine (broadcastInDim_apply _ _ _ (ix3 p b h) (ix3 (0 : Fin 1) (0 : Fin 1) h)
    (fun a => by match a with | ⟨0, _⟩ => rfl | ⟨1, _⟩ => rfl | ⟨2, _⟩ => rfl)).trans ?_
  exact broadcastInDim_apply _ _ v (ix3 (0 : Fin 1) (0 : Fin 1) h) (ix1 h)
    (fun a => by match a with | ⟨0, _⟩ => rfl)

/-- A 256-wide bias row spread down the rows of a 65536×256 matrix reads, at (b, k), its entry k. -/
theorem biasRho_apply (v : FVec Ideal S256 .f32) (b : Fin 65536) (k : Fin 256) :
    broadcastInDim S65536x256 ![0, 1] bcast_S1x256_S65536x256_0_1 (broadcastInDim S1x256 ![1] bcast_S256_S1x256_1 v) (ix2 b k) = v (ix1 k) := by
  refine (broadcastInDim_apply _ _ _ (ix2 b k) (ix2 (0 : Fin 1) k)
    (fun a => by match a with | ⟨0, _⟩ => rfl | ⟨1, _⟩ => rfl)).trans ?_
  exact broadcastInDim_apply _ _ v (ix2 (0 : Fin 1) k) (ix1 k)
    (fun a => by match a with | ⟨0, _⟩ => rfl)

/-- A 4-wide bias row spread down the rows of a 65536×4 matrix reads, at (b, a), its entry a. -/
theorem biasHead_apply (v : FVec Ideal S4 .f32) (b : Fin 65536) (a : Fin 4) :
    broadcastInDim S65536x4 ![0, 1] bcast_S1x4_S65536x4_0_1 (broadcastInDim S1x4 ![1] bcast_S4_S1x4_1 v) (ix2 b a) = v (ix1 a) := by
  refine (broadcastInDim_apply _ _ _ (ix2 b a) (ix2 (0 : Fin 1) a)
    (fun c => by match c with | ⟨0, _⟩ => rfl | ⟨1, _⟩ => rfl)).trans ?_
  exact broadcastInDim_apply _ _ v (ix2 (0 : Fin 1) a) (ix1 a)
    (fun c => by match c with | ⟨0, _⟩ => rfl)

/-- The rectifier on a 6×65536×256 array, at an entry: the maximum of the entry and 0. -/
theorem relu3_apply (x : FVec Ideal S6x65536x256 .f32) (i : S6x65536x256.Idx) :
    Cert.RefTerm.relu3 (F := Ideal) x i = max (x i) 0 := by
  unfold Cert.RefTerm.relu3
  rw [maximumf_apply, broadcastInDim_scalar_apply, constant_apply, Ideal.ofBits_zero_f32]

/-- The zero word spread over a 65536×256 matrix is the extended real 0 at every entry. -/
theorem zeroRho_apply (i : S65536x256.Idx) :
    broadcastInDim S65536x256 ![] bcast_S_S65536x256 (constant (F := Ideal) S_ .f32 0x00000000#32) i = 0 := by
  rw [broadcastInDim_scalar_apply, constant_apply, Ideal.ofBits_zero_f32]

/-- The clamp as the reference spells it is the specification's clamp, entry by entry. -/
theorem clip_apply (x : FVec Ideal S65536x4 .f32) (i : S65536x4.Idx) :
    Cert.RefTerm.clip (F := Ideal) x i = Cert.Spec.clamp (x i) := by
  unfold Cert.RefTerm.clip Cert.Spec.clamp
  rw [minimumf_apply, maximumf_apply, broadcastInDim_scalar_apply, broadcastInDim_scalar_apply]
  rfl

end Cert.RefLayersBias

end
-- ==== Proof.RefLayers.lean ====
/-
  The reference's layers over the input rows, read at an entry: the two results are the whole arrangement's
  mean head and clamped log-deviation head.

  Each stage is read at one entry, outermost operation first, down to the entries of the stage before it:
  a rectified dense layer is the maximum with 0 of the product's sum over the contracted coordinate plus the
  bias entry; the six messages are summed over the pair coordinate; a head is the product's sum plus its bias
  entry, and the log-deviation head is clamped entry by entry.  The input rows enter only through their reading
  at an entry, which is a hypothesis here.
-/
import proofs.«128084_j69887707840990_2_alg».proof.Proof.RefTerm
import proofs.«128084_j69887707840990_2_alg».proof.Proof.Spec
import proofs.«128084_j69887707840990_2_alg».proof.Proof.RefLayersDots
import proofs.«128084_j69887707840990_2_alg».proof.Proof.RefLayersBias

noncomputable section

open scoped BigOperators

namespace Cert.RefLayers

open Cert.ReferenceIdeal Idealize.ShloMosaic Idealize.ShloMosaic.ValueIdx

variable (a0 : FVec Ideal S65536x55 .f32) (a1 : FVec Ideal S65536x100 .f32) (a2 : FVec Ideal S146x256 .f32) (a3 : FVec Ideal S256 .f32)
  (a4 : FVec Ideal S256x256 .f32) (a5 : FVec Ideal S256 .f32) (a6 : FVec Ideal S256x256 .f32) (a7 : FVec Ideal S256 .f32)
  (hw : FVec Ideal S256x4 .f32) (hb : FVec Ideal S4 .f32)

/-- The first message layer at (p, b, h): the 146-wide row of pair p against column h, plus the bias, rectified. -/
theorem hid1_apply (hinp : ∀ (p : Fin 6) (b : Fin 65536) (k : Fin 146), Cert.RefTerm.inp (F := Ideal) a0 a1 (ix3 p b k) = Cert.Spec.inp (fun k => a0 (ix2 b k)) (fun k => a1 (ix2 b k)) p k)
    (p : Fin 6) (b : Fin 65536) (h : Fin 256) :
    Cert.RefTerm.hid1 (F := Ideal) a0 a1 a2 a3 (ix3 p b h) = Cert.Spec.hid1 (fun k => a0 (ix2 b k)) (fun k => a1 (ix2 b k)) (fun k h => a2 (ix2 k h)) (fun h => a3 (ix1 h)) p h := by
  unfold Cert.RefTerm.hid1 Cert.Spec.hid1 Cert.Spec.pre1
  rw [Cert.RefLayersBias.relu3_apply, addf_apply, Cert.RefLayersDots.dot146_apply, Cert.RefLayersBias.bias3_apply]
  simp only [hinp]

/-- The second message layer at (p, b, n). -/
theorem hid2_apply (hinp : ∀ (p : Fin 6) (b : Fin 65536) (k : Fin 146), Cert.RefTerm.inp (F := Ideal) a0 a1 (ix3 p b k) = Cert.Spec.inp (fun k => a0 (ix2 b k)) (fun k => a1 (ix2 b k)) p k)
    (p : Fin 6) (b : Fin 65536) (n : Fin 256) :
    Cert.RefTerm.hid2 (F := Ideal) a0 a1 a2 a3 a4 a5 (ix3 p b n) = Cert.Spec.hid2 (fun k => a0 (ix2 b k)) (fun k => a1 (ix2 b k)) (fun k h => a2 (ix2 k h)) (fun h => a3 (ix1 h)) (fun h n => a4 (ix2 h n)) (fun n => a5 (ix1 n)) p n := by
  unfold Cert.RefTerm.hid2 Cert.Spec.hid2
  rw [Cert.RefLayersBias.relu3_apply, addf_apply, Cert.RefLayersDots.dot256_apply, Cert.RefLayersBias.bias3_apply]
  simp only [hid1_apply a0 a1 a2 a3 hinp]

/-- The six messages summed, at (b, n). -/
theorem agg_apply (hinp : ∀ (p : Fin 6) (b : Fin 65536) (k : Fin 146), Cert.RefTerm.inp (F := Ideal) a0 a1 (ix3 p b k) = Cert.Spec.inp (fun k => a0 (ix2 b k)) (fun k => a1 (ix2 b k)) p k)
    (b : Fin 65536) (n : Fin 256) :
    Cert.RefTerm.agg (F := Ideal) a0 a1 a2 a3 a4 a5 (ix2 b n) = Cert.Spec.agg (fun k => a0 (ix2 b k)) (fun k => a1 (ix2 b k)) (fun k h => a2 (ix2 k h)) (fun h => a3 (ix1 h)) (fun h n => a4 (ix2 h n)) (fun n => a5 (ix1 n)) n := by
  unfold Cert.RefTerm.agg Cert.Spec.agg
  rw [Cert.RefLayersDots.sumPairs_apply]
  simp only [hid2_apply a0 a1 a2 a3 a4 a5 hinp]

/-- The layer after the sum, at (b, k). -/
theorem rho_apply (hinp : ∀ (p : Fin 6) (b : Fin 65536) (k : Fin 146), Cert.RefTerm.inp (F := Ideal) a0 a1 (ix3 p b k) = Cert.Spec.inp (fun k => a0 (ix2 b k)) (fun k => a1 (ix2 b k)) p k)
    (b : Fin 65536) (k : Fin 256) :
    Cert.RefTerm.rho (F := Ideal) a0 a1 a2 a3 a4 a5 a6 a7 (ix2 b k) = Cert.Spec.rho (fun k => a0 (ix2 b k)) (fun k => a1 (ix2 b k)) (fun k h => a2 (ix2 k h)) (fun h => a3 (ix1 h)) (fun h n => a4 (ix2 h n)) (fun n => a5 (ix1 n)) (fun n k => a6 (ix2 n k)) (fun k => a7 (ix1 k)) k := by
  unfold Cert.RefTerm.rho Cert.Spec.rho
  rw [maximumf_apply, addf_apply, Cert.RefLayersDots.dotRho_apply, Cert.RefLayersBias.biasRho_apply, Cert.RefLayersBias.zeroRho_apply]
  simp only [agg_apply a0 a1 a2 a3 a4 a5 hinp]

/-- A 4-wide head over any 65536×256 array, at (b, a): the row's product with column a, plus the bias entry. -/
theorem head_apply (r : FVec Ideal S65536x256 .f32) (b : Fin 65536) (a : Fin 4) :
    Cert.RefTerm.head (F := Ideal) r hw hb (ix2 b a) = (∑ k : Fin 256, r (ix2 b k) * hw (ix2 k a)) + hb (ix1 a) := by
  unfold Cert.RefTerm.head
  rw [addf_apply, Cert.RefLayersDots.dotHead_apply, Cert.RefLayersBias.biasHead_apply]

/-- A head over the layer after the sum is the specification's head array, entry by entry. -/
theorem headT_apply (hinp : ∀ (p : Fin 6) (b : Fin 65536) (k : Fin 146), Cert.RefTerm.inp (F := Ideal) a0 a1 (ix3 p b k) = Cert.Spec.inp (fun k => a0 (ix2 b k)) (fun k => a1 (ix2 b k)) p k)
    (i : S65536x4.Idx) :
    Cert.RefTerm.head (F := Ideal) (Cert.RefTerm.rho (F := Ideal) a0 a1 a2 a3 a4 a5 a6 a7) hw hb i = Cert.Spec.headArr a0 a1 a2 a3 a4 a5 a6 a7 hw hb i := by
  obtain ⟨b, a, rfl⟩ : ∃ (b : Fin 65536) (a : Fin 4), i = ix2 b a := ⟨i 0, i 1, eq_ix2 i⟩
  rw [head_apply]
  simp only [rho_apply a0 a1 a2 a3 a4 a5 a6 a7 hinp]
  rfl

theorem meanT_eq (hinp : ∀ (p : Fin 6) (b : Fin 65536) (k : Fin 146), Cert.RefTerm.inp (F := Ideal) a0 a1 (ix3 p b k) = Cert.Spec.inp (fun k => a0 (ix2 b k)) (fun k => a1 (ix2 b k)) p k) :
    Cert.RefTerm.meanT (F := Ideal) a0 a1 a2 a3 a4 a5 a6 a7 hw hb = Cert.Spec.meanArr a0 a1 a2 a3 a4 a5 a6 a7 hw hb := by
  funext i
  unfold Cert.RefTerm.meanT Cert.Spec.meanArr
  exact headT_apply a0 a1 a2 a3 a4 a5 a6 a7 hw hb hinp i

theorem logstdT_eq (hinp : ∀ (p : Fin 6) (b : Fin 65536) (k : Fin 146), Cert.RefTerm.inp (F := Ideal) a0 a1 (ix3 p b k) = Cert.Spec.inp (fun k => a0 (ix2 b k)) (fun k => a1 (ix2 b k)) p k) :
    Cert.RefTerm.logstdT (F := Ideal) a0 a1 a2 a3 a4 a5 a6 a7 hw hb = Cert.Spec.logstdArr a0 a1 a2 a3 a4 a5 a6 a7 hw hb := by
  funext i
  unfold Cert.RefTerm.logstdT Cert.Spec.logstdArr
  rw [Cert.RefLayersBias.clip_apply, headT_apply a0 a1 a2 a3 a4 a5 a6 a7 hw hb hinp i]

end Cert.RefLayers

end
-- ==== Proof.lean ====
/-
  Both programs compute, for every batch row, the message-passing network of Proof/Spec.lean: the kernel in
  the arrangement that splits the first layer's 146-wide contraction along the row's six blocks (Proof/KerPay,
  Proof/KerBlocks, with Proof/Bridge joining the two arrangements), the reference in the arrangement that
  contracts the whole row (Proof/RefRun, Proof/RefInp, Proof/RefLayers).  The five claims are assembled here.
-/
import proofs.«128084_j69887707840990_2_alg».proof.Defs
import proofs.«128084_j69887707840990_2_alg».proof.Proof.Gen.Kernel
import proofs.«128084_j69887707840990_2_alg».proof.Proof.Gen.Kernel.Frame
import proofs.«128084_j69887707840990_2_alg».proof.Proof.Gen.KernelIdeal
import proofs.«128084_j69887707840990_2_alg».proof.Proof.Gen.KernelIdeal.Frame
import proofs.«128084_j69887707840990_2_alg».proof.Proof.Gen.KernelIdeal.Value
import proofs.«128084_j69887707840990_2_alg».proof.Proof.Gen.ReferenceIdeal
import proofs.«128084_j69887707840990_2_alg».proof.Proof.Gen.Pre_finite_inputs
import proofs.«128084_j69887707840990_2_alg».proof.Proof.KerBlocks
import proofs.«128084_j69887707840990_2_alg».proof.Proof.RefRun
import proofs.«128084_j69887707840990_2_alg».proof.Proof.RefInp
import proofs.«128084_j69887707840990_2_alg».proof.Proof.RefLayers
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.RefRun.run m ρ)

/-- The two idealized programs end with equal results: both result pairs are the mean head and the clamped
    log-deviation head of the same twelve argument arrays. -/
theorem algebraic : Cert.algebraic_KernelIdeal_ReferenceIdeal := by
  intro m ρ m' ρ' _ hagree
  refine ⟨_, _, Cert.KerBlocks.run m ρ, ?_⟩
  refine (θ_run Cert.ReferenceIdeal.defs _ _).mono (fun _ h c => ⟨(h c).1.trans ?_, (h c).2.1.trans ?_, (h c).2.2⟩)
    (Cert.RefRun.run m' ρ')
  · obtain ⟨h0, h1, h2, h3, h4, h5, h6, h7, h8, h9, h10, h11⟩ := hagree c
    rw [h0, h1, h2, h3, h4, h5, h6, h7, h8, h9]
    exact Cert.RefLayers.meanT_eq _ _ _ _ _ _ _ _ _ _ (Cert.RefInp.inp_apply _ _)
  · obtain ⟨h0, h1, h2, h3, h4, h5, h6, h7, h8, h9, h10, h11⟩ := hagree c
    rw [h0, h1, h2, h3, h4, h5, h6, h7, h10, h11]
    exact Cert.RefLayers.logstdT_eq _ _ _ _ _ _ _ _ _ _ (Cert.RefInp.inp_apply _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
